-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x96 : Shape := ⟨2, ![8192, 96]⟩
abbrev S2x96x96 : Shape := ⟨3, ![2, 96, 96]⟩
abbrev S_ : Shape := ⟨0, ![]⟩

class Facts : Prop where
  bcast_S_S8192x96 : S_.BroadcastsInDim S8192x96 (![] : Fin 0 → Fin S8192x96.rank)
  reducesTo_S8192x96_S_d0_1 : S8192x96.ReducesTo [0, 1] S_
  h_S_ : 0 < S_.numel
  bcast_S_S2x96x96 : S_.BroadcastsInDim S2x96x96 (![] : Fin 0 → Fin S2x96x96.rank)
  reducesTo_S2x96x96_S_d0_1_2 : S2x96x96.ReducesTo [0, 1, 2] S_

variable [Facts]

def fn {F : FTy → Type} [FloatOps F] (main_arg0 : FVec F S8192x96 .f32) (main_arg1 : FVec F S8192x96 .f32) (main_arg2 : FVec F S2x96x96 .f32) : IVec S_ 1 :=
  let main_v0 : FVec F S8192x96 .f32 := Host.absf main_arg0
  let main_cst : FVec F S_ .f32 := constant S_ .f32 0x7F800000#32
  let main_v1 : FVec F S8192x96 .f32 := broadcastInDim S8192x96 ![] bcast_S_S8192x96 main_cst
  let main_v2 : IVec S8192x96 1 := cmpf .olt main_v0 main_v1
  let main_c : IVec S_ 1 := constantI S_ 1 1#1
  let main_v3 : IVec S_ 1 := (fun x v => Host.reduce IntOp.andi x v reducesTo_S8192x96_S_d0_1 h_S_) main_v2 main_c
  let main_v4 : FVec F S8192x96 .f32 := Host.absf main_arg1
  let main_cst_0 : FVec F S_ .f32 := constant S_ .f32 0x7F800000#32
  let main_v5 : FVec F S8192x96 .f32 := broadcastInDim S8192x96 ![] bcast_S_S8192x96 main_cst_0
  let main_v6 : IVec S8192x96 1 := cmpf .olt main_v4 main_v5
  let main_c_1 : IVec S_ 1 := constantI S_ 1 1#1
  let main_v7 : IVec S_ 1 := (fun x v => Host.reduce IntOp.andi x v reducesTo_S8192x96_S_d0_1 h_S_) main_v6 main_c_1
  let main_v8 : IVec S_ 1 := andi main_v3 main_v7
  let main_v9 : FVec F S2x96x96 .f32 := Host.absf main_arg2
  let main_cst_2 : FVec F S_ .f32 := constant S_ .f32 0x7F800000#32
  let main_v10 : FVec F S2x96x96 .f32 := broadcastInDim S2x96x96 ![] bcast_S_S2x96x96 main_cst_2
  let main_v11 : IVec S2x96x96 1 := cmpf .olt main_v9 main_v10
  let main_c_3 : IVec S_ 1 := constantI S_ 1 1#1
  let main_v12 : IVec S_ 1 := (fun x v => Host.reduce IntOp.andi x v reducesTo_S2x96x96_S_d0_1_2 h_S_) main_v11 main_c_3
  let main_v13 : IVec S_ 1 := andi main_v8 main_v12
  main_v13
-- ==== Kernel.lean ====
abbrev S8192x96 : Shape := ⟨2, ![8192, 96]⟩
abbrev S2x96x96 : Shape := ⟨3, ![2, 96, 96]⟩
abbrev S96 : Shape := ⟨1, ![96]⟩
abbrev S96x1 : Shape := ⟨2, ![96, 1]⟩
abbrev S1x96 : Shape := ⟨2, ![1, 96]⟩
abbrev S96x96 : Shape := ⟨2, ![96, 96]⟩
abbrev S_ : Shape := ⟨0, ![]⟩
abbrev S1x96x96 : Shape := ⟨3, ![1, 96, 96]⟩
abbrev S2x96x96x1 : Shape := ⟨4, ![2, 96, 96, 1]⟩
abbrev S1 : Shape := ⟨1, ![1]⟩
abbrev S1x1x1x1 : Shape := ⟨4, ![1, 1, 1, 1]⟩
abbrev S16x128 : Shape := ⟨2, ![16, 128]⟩
abbrev S1024x96 : Shape := ⟨2, ![1024, 96]⟩
abbrev S8x128 : Shape := ⟨2, ![8, 128]⟩
abbrev S1024x1 : Shape := ⟨2, ![1024, 1]⟩
abbrev S96x1024 : Shape := ⟨2, ![96, 1024]⟩
abbrev S1x1 : Shape := ⟨2, ![1, 1]⟩

abbrev nBuf : Space → Nat
  | .hbm => 55
  | .vmem => 9
  | .smem => 0
  | _ => 0

abbrev bufTy : (tb : Table) → Fin (tcTables nBuf tb) → BufTy
  | .hbm, ⟨0, _⟩ => ⟨S8192x96, .f32⟩
  | .hbm, ⟨1, _⟩ => ⟨S8192x96, .f32⟩
  | .hbm, ⟨2, _⟩ => ⟨S2x96x96, .f32⟩
  | .hbm, ⟨3, _⟩ => ⟨S96, .i32⟩
  | .hbm, ⟨4, _⟩ => ⟨S96x1, .i32⟩
  | .hbm, ⟨5, _⟩ => ⟨S96, .i32⟩
  | .hbm, ⟨6, _⟩ => ⟨S1x96, .i32⟩
  | .hbm, ⟨7, _⟩ => ⟨S96x96, .i32⟩
  | .hbm, ⟨8, _⟩ => ⟨S96x96, .i32⟩
  | .hbm, ⟨9, _⟩ => ⟨S96x96, .i32⟩
  | .hbm, ⟨10, _⟩ => ⟨S_, .i32⟩
  | .hbm, ⟨11, _⟩ => ⟨S96x96, .i32⟩
  | .hbm, ⟨12, _⟩ => ⟨S96x96, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S96x96, .i32⟩
  | .hbm, ⟨17, _⟩ => ⟨S96x96, .i32⟩
  | .hbm, ⟨18, _⟩ => ⟨S_, .i32⟩
  | .hbm, ⟨19, _⟩ => ⟨S96x96, .i32⟩
  | .hbm, ⟨20, _⟩ => ⟨S96x96, .i32⟩
  | .hbm, ⟨21, _⟩ => ⟨S1x96x96, .i32⟩
  | .hbm, ⟨22, _⟩ => ⟨S2x96x96, .i32⟩
  | .hbm, ⟨23, _⟩ => ⟨S_, .i32⟩
  | .hbm, ⟨24, _⟩ => ⟨S2x96x96, .i32⟩
  | .hbm, ⟨25, _⟩ => ⟨S2x96x96, .i1⟩
  | .hbm, ⟨26, _⟩ => ⟨S_, .i32⟩
  | .hbm, ⟨27, _⟩ => ⟨S2x96x96, .i32⟩
  | .hbm, ⟨28, _⟩ => ⟨S2x96x96, .i32⟩
  | .hbm, ⟨29, _⟩ => ⟨S2x96x96, .i32⟩
  | .hbm, ⟨30, _⟩ => ⟨S2x96x96x1, .i32⟩
  | .hbm, ⟨31, _⟩ => ⟨S1, .i32⟩
  | .hbm, ⟨32, _⟩ => ⟨S_, .i32⟩
  | .hbm, ⟨33, _⟩ => ⟨S2x96x96x1, .i32⟩
  | .hbm, ⟨34, _⟩ => ⟨S2x96x96x1, .i1⟩
  | .hbm, ⟨35, _⟩ => ⟨S1x1x1x1, .i32⟩
  | .hbm, ⟨36, _⟩ => ⟨S2x96x96x1, .i32⟩
  | .hbm, ⟨37, _⟩ => ⟨S2x96x96x1, .i1⟩
  | .hbm, ⟨38, _⟩ => ⟨S2x96x96x1, .i1⟩
  | .hbm, ⟨39, _⟩ => ⟨S_, .i1⟩
  | .hbm, ⟨40, _⟩ => ⟨S2x96x96, .i1⟩
  | .hbm, ⟨41, _⟩ => ⟨S2x96x96, .f32⟩
  | .hbm, ⟨42, _⟩ => ⟨S_, .f32⟩
  | .hbm, ⟨43, _⟩ => ⟨S2x96x96, .f32⟩
  | .hbm, ⟨44, _⟩ => ⟨S2x96x96, .f32⟩
  | .hbm, ⟨45, _⟩ => ⟨S1x96x96, .i1⟩
  | .hbm, ⟨46, _⟩ => ⟨S_, .f32⟩
  | .hbm, ⟨47, _⟩ => ⟨S2x96x96, .i1⟩
  | .hbm, ⟨48, _⟩ => ⟨S2x96x96, .f32⟩
  | .hbm, ⟨49, _⟩ => ⟨S2x96x96, .f32⟩
  | .hbm, ⟨50, _⟩ => ⟨S16x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1024x96, .f32⟩
  | .local _ .vmem, ⟨1, _⟩ => ⟨S1024x96, .f32⟩
  | .local _ .vmem, ⟨2, _⟩ => ⟨S1024x96, .f32⟩
  | .local _ .vmem, ⟨3, _⟩ => ⟨S1024x96, .f32⟩
  | .local _ .vmem, ⟨4, _⟩ => ⟨S2x96x96, .f32⟩
  | .local _ .vmem, ⟨5, _⟩ => ⟨S8x128, .f32⟩
  | .local _ .vmem, ⟨6, _⟩ => ⟨S8x128, .f32⟩
  | .local _ .vmem, ⟨7, _⟩ => ⟨S96x96, .f32⟩
  | .local _ .vmem, ⟨8, _⟩ => ⟨S96x96, .f32⟩
  | _, _ => ⟨S8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_call2_v0 : Ref sig .tc := ⟨.hbm, 47, rfl⟩
abbrev main_call2_v1 : Ref sig .tc := ⟨.hbm, 48, rfl⟩
abbrev main_v14 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_cst_3 : Ref sig .tc := ⟨.hbm, 53, rfl⟩
abbrev main_v17 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32_394 : BitVec 32 := 3#32
  let v1646 : BitVec 1 := Scalar.cmpi .eq arg1 c3_i32_394
  let v1647 : BitVec 32 := Scalar.extui v1646
  let c0_i32_395 : BitVec 32 := 0#32
  let v1648 : BitVec 1 := Scalar.cmpi .ne v1647 c0_i32_395
  v1648

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S96_S96x1_0 : S96.BroadcastsInDim S96x1 (![0] : Fin 1 → Fin S96x1.rank)
  bcast_S96_S1x96_1 : S96.BroadcastsInDim S1x96 (![1] : Fin 1 → Fin S1x96.rank)
  bcast_S1x96_S96x96_0_1 : S1x96.BroadcastsInDim S96x96 (![0, 1] : Fin 2 → Fin S96x96.rank)
  bcast_S96x1_S96x96_0_1 : S96x1.BroadcastsInDim S96x96 (![0, 1] : Fin 2 → Fin S96x96.rank)
  bcast_S_S96x96 : S_.BroadcastsInDim S96x96 (![] : Fin 0 → Fin S96x96.rank)
  bcast_S96x96_S1x96x96_1_2 : S96x96.BroadcastsInDim S1x96x96 (![1, 2] : Fin 2 → Fin S1x96x96.rank)
  bcast_S1x96x96_S2x96x96_0_1_2 : S1x96x96.BroadcastsInDim S2x96x96 (![0, 1, 2] : Fin 3 → Fin S2x96x96.rank)
  bcast_S_S2x96x96 : S_.BroadcastsInDim S2x96x96 (![] : Fin 0 → Fin S2x96x96.rank)
  shapeCasts_S2x96x96_S2x96x96x1 : S2x96x96.ShapeCasts S2x96x96x1
  bcast_S_S2x96x96x1 : S_.BroadcastsInDim S2x96x96x1 (![] : Fin 0 → Fin S2x96x96x1.rank)
  bcast_S1_S1x1x1x1_3 : S1.BroadcastsInDim S1x1x1x1 (![3] : Fin 1 → Fin S1x1x1x1.rank)
  bcast_S1x1x1x1_S2x96x96x1_0_1_2_3 : S1x1x1x1.BroadcastsInDim S2x96x96x1 (![0, 1, 2, 3] : Fin 4 → Fin S2x96x96x1.rank)
  reducesTo_S2x96x96x1_S2x96x96_d3 : S2x96x96x1.ReducesTo [3] S2x96x96
  h_S_ : 0 < S_.numel
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1024x96_S1024x96_0_0 : ∀ a, (![0, 0] : Fin 2 → Nat) a + S1024x96.size a ≤ S1024x96.size a
  h_S1024x96 : 0 < S1024x96.numel
  iota_S1024x96_d1_w32 : S1024x96.Iotas .tc 32 [1]
  slices_S1024x96_o0_0_S1024x1 : S1024x96.Slices ![0, 0] S1024x1
  broadcasts_S1024x1_S1024x96 : S1024x1.Broadcasts S1024x96
  shapeCasts_S1024x1_S1024x1 : S1024x1.ShapeCasts S1024x1
  reduces_S1024x96_S96 : S1024x96.Reduces [0] S96
  shapeCasts_S96_S1x96 : S96.ShapeCasts S1x96
  inb_S96x96_S1x96_0_0 : ∀ a, (![0, 0] : Fin 2 → Nat) a + S1x96.size a ≤ S96x96.size a
  h_S1x96 : 0 < S1x96.numel
  shapeCasts_S1x96_S1x96 : S1x96.ShapeCasts S1x96
  slices_S1024x96_o0_1_S1024x1 : S1024x96.Slices ![0, 1] S1024x1
  inb_S96x96_S1x96_1_0 : ∀ a, (![1, 0] : Fin 2 → Nat) a + S1x96.size a ≤ S96x96.size a
  slices_S1024x96_o0_2_S1024x1 : S1024x96.Slices ![0, 2] S1024x1
  inb_S96x96_S1x96_2_0 : ∀ a, (![2, 0] : Fin 2 → Nat) a + S1x96.size a ≤ S96x96.size a
  slices_S1024x96_o0_3_S1024x1 : S1024x96.Slices ![0, 3] S1024x1
  inb_S96x96_S1x96_3_0 : ∀ a, (![3, 0] : Fin 2 → Nat) a + S1x96.size a ≤ S96x96.size a
  slices_S1024x96_o0_4_S1024x1 : S1024x96.Slices ![0, 4] S1024x1
  inb_S96x96_S1x96_4_0 : ∀ a, (![4, 0] : Fin 2 → Nat) a + S1x96.size a ≤ S96x96.size a
  slices_S1024x96_o0_5_S1024x1 : S1024x96.Slices ![0, 5] S1024x1
  inb_S96x96_S1x96_5_0 : ∀ a, (![5, 0] : Fin 2 → Nat) a + S1x96.size a ≤ S96x96.size a
  slices_S1024x96_o0_6_S1024x1 : S1024x96.Slices ![0, 6] S1024x1
  inb_S96x96_S1x96_6_0 : ∀ a, (![6, 0] : Fin 2 → Nat) a + S1x96.size a ≤ S96x96.size a
  slices_S1024x96_o0_7_S1024x1 : S1024x96.Slices ![0, 7] S1024x1
  inb_S96x96_S1x96_7_0 : ∀ a, (![7, 0] : Fin 2 → Nat) a + S1x96.size a ≤ S96x96.size a
  slices_S1024x96_o0_8_S1024x1 : S1024x96.Slices ![0, 8] S1024x1
  inb_S96x96_S1x96_8_0 : ∀ a, (![8, 0] : Fin 2 → Nat) a + S1x96.size a ≤ S96x96.size a
  slices_S1024x96_o0_9_S1024x1 : S1024x96.Slices ![0, 9] S1024x1
  inb_S96x96_S1x96_9_0 : ∀ a, (![9, 0] : Fin 2 → Nat) a + S1x96.size a ≤ S96x96.size a
  slices_S1024x96_o0_10_S1024x1 : S1024x96.Slices ![0, 10] S1024x1
  inb_S96x96_S1x96_10_0 : ∀ a, (![10, 0] : Fin 2 → Nat) a + S1x96.size a ≤ S96x96.size a
  slices_S1024x96_o0_11_S1024x1 : S1024x96.Slices ![0, 11] S1024x1
  inb_S96x96_S1x96_11_0 : ∀ a, (![11, 0] : Fin 2 → Nat) a + S1x96.size a ≤ S96x96.size a
  slices_S1024x96_o0_12_S1024x1 : S1024x96.Slices ![0, 12] S1024x1
  inb_S96x96_S1x96_12_0 : ∀ a, (![12, 0] : Fin 2 → Nat) a + S1x96.size a ≤ S96x96.size a
  slices_S1024x96_o0_13_S1024x1 : S1024x96.Slices ![0, 13] S1024x1
  inb_S96x96_S1x96_13_0 : ∀ a, (![13, 0] : Fin 2 → Nat) a + S1x96.size a ≤ S96x96.size a
  slices_S1024x96_o0_14_S1024x1 : S1024x96.Slices ![0, 14] S1024x1
  inb_S96x96_S1x96_14_0 : ∀ a, (![14, 0] : Fin 2 → Nat) a + S1x96.size a ≤ S96x96.size a
  slices_S1024x96_o0_15_S1024x1 : S1024x96.Slices ![0, 15] S1024x1
  inb_S96x96_S1x96_15_0 : ∀ a, (![15, 0] : Fin 2 → Nat) a + S1x96.size a ≤ S96x96.size a
  slices_S1024x96_o0_16_S1024x1 : S1024x96.Slices ![0, 16] S1024x1
  inb_S96x96_S1x96_16_0 : ∀ a, (![16, 0] : Fin 2 → Nat) a + S1x96.size a ≤ S96x96.size a
  slices_S1024x96_o0_17_S1024x1 : S1024x96.Slices ![0, 17] S1024x1
  inb_S96x96_S1x96_17_0 : ∀ a, (![17, 0] : Fin 2 → Nat) a + S1x96.size a ≤ S96x96.size a
  slices_S1024x96_o0_18_S1024x1 : S1024x96.Slices ![0, 18] S1024x1
  inb_S96x96_S1x96_18_0 : ∀ a, (![18, 0] : Fin 2 → Nat) a + S1x96.size a ≤ S96x96.size a
  slices_S1024x96_o0_19_S1024x1 : S1024x96.Slices ![0, 19] S1024x1
  inb_S96x96_S1x96_19_0 : ∀ a, (![19, 0] : Fin 2 → Nat) a + S1x96.size a ≤ S96x96.size a
  slices_S1024x96_o0_20_S1024x1 : S1024x96.Slices ![0, 20] S1024x1
  inb_S96x96_S1x96_20_0 : ∀ a, (![20, 0] : Fin 2 → Nat) a + S1x96.size a ≤ S96x96.size a
  slices_S1024x96_o0_21_S1024x1 : S1024x96.Slices ![0, 21] S1024x1
  inb_S96x96_S1x96_21_0 : ∀ a, (![21, 0] : Fin 2 → Nat) a + S1x96.size a ≤ S96x96.size a
  slices_S1024x96_o0_22_S1024x1 : S1024x96.Slices ![0, 22] S1024x1
  inb_S96x96_S1x96_22_0 : ∀ a, (![22, 0] : Fin 2 → Nat) a + S1x96.size a ≤ S96x96.size a
  slices_S1024x96_o0_23_S1024x1 : S1024x96.Slices ![0, 23] S1024x1
  inb_S96x96_S1x96_23_0 : ∀ a, (![23, 0] : Fin 2 → Nat) a + S1x96.size a ≤ S96x96.size a
  slices_S1024x96_o0_24_S1024x1 : S1024x96.Slices ![0, 24] S1024x1
  inb_S96x96_S1x96_24_0 : ∀ a, (![24, 0] : Fin 2 → Nat) a + S1x96.size a ≤ S96x96.size a
  slices_S1024x96_o0_25_S1024x1 : S1024x96.Slices ![0, 25] S1024x1
  inb_S96x96_S1x96_25_0 : ∀ a, (![25, 0] : Fin 2 → Nat) a + S1x96.size a ≤ S96x96.size a
  slices_S1024x96_o0_26_S1024x1 : S1024x96.Slices ![0, 26] S1024x1
  inb_S96x96_S1x96_26_0 : ∀ a, (![26, 0] : Fin 2 → Nat) a + S1x96.size a ≤ S96x96.size a
  slices_S1024x96_o0_27_S1024x1 : S1024x96.Slices ![0, 27] S1024x1
  inb_S96x96_S1x96_27_0 : ∀ a, (![27, 0] : Fin 2 → Nat) a + S1x96.size a ≤ S96x96.size a
  slices_S1024x96_o0_28_S1024x1 : S1024x96.Slices ![0, 28] S1024x1
  inb_S96x96_S1x96_28_0 : ∀ a, (![28, 0] : Fin 2 → Nat) a + S1x96.size a ≤ S96x96.size a
  slices_S1024x96_o0_29_S1024x1 : S1024x96.Slices ![0, 29] S1024x1
  inb_S96x96_S1x96_29_0 : ∀ a, (![29, 0] : Fin 2 → Nat) a + S1x96.size a ≤ S96x96.size a
  slices_S1024x96_o0_30_S1024x1 : S1024x96.Slices ![0, 30] S1024x1
  inb_S96x96_S1x96_30_0 : ∀ a, (![30, 0] : Fin 2 → Nat) a + S1x96.size a ≤ S96x96.size a
  slices_S1024x96_o0_31_S1024x1 : S1024x96.Slices ![0, 31] S1024x1
  inb_S96x96_S1x96_31_0 : ∀ a, (![31, 0] : Fin 2 → Nat) a + S1x96.size a ≤ S96x96.size a
  slices_S1024x96_o0_32_S1024x1 : S1024x96.Slices ![0, 32] S1024x1
  inb_S96x96_S1x96_32_0 : ∀ a, (![32, 0] : Fin 2 → Nat) a + S1x96.size a ≤ S96x96.size a
  slices_S1024x96_o0_33_S1024x1 : S1024x96.Slices ![0, 33] S1024x1
  inb_S96x96_S1x96_33_0 : ∀ a, (![33, 0] : Fin 2 → Nat) a + S1x96.size a ≤ S96x96.size a
  slices_S1024x96_o0_34_S1024x1 : S1024x96.Slices ![0, 34] S1024x1
  inb_S96x96_S1x96_34_0 : ∀ a, (![34, 0] : Fin 2 → Nat) a + S1x96.size a ≤ S96x96.size a
  slices_S1024x96_o0_35_S1024x1 : S1024x96.Slices ![0, 35] S1024x1
  inb_S96x96_S1x96_35_0 : ∀ a, (![35, 0] : Fin 2 → Nat) a + S1x96.size a ≤ S96x96.size a
  slices_S1024x96_o0_36_S1024x1 : S1024x96.Slices ![0, 36] S1024x1
  inb_S96x96_S1x96_36_0 : ∀ a, (![36, 0] : Fin 2 → Nat) a + S1x96.size a ≤ S96x96.size a
  slices_S1024x96_o0_37_S1024x1 : S1024x96.Slices ![0, 37] S1024x1
  inb_S96x96_S1x96_37_0 : ∀ a, (![37, 0] : Fin 2 → Nat) a + S1x96.size a ≤ S96x96.size a
  slices_S1024x96_o0_38_S1024x1 : S1024x96.Slices ![0, 38] S1024x1
  inb_S96x96_S1x96_38_0 : ∀ a, (![38, 0] : Fin 2 → Nat) a + S1x96.size a ≤ S96x96.size a
  slices_S1024x96_o0_39_S1024x1 : S1024x96.Slices ![0, 39] S1024x1
  inb_S96x96_S1x96_39_0 : ∀ a, (![39, 0] : Fin 2 → Nat) a + S1x96.size a ≤ S96x96.size a
  slices_S1024x96_o0_40_S1024x1 : S1024x96.Slices ![0, 40] S1024x1
  inb_S96x96_S1x96_40_0 : ∀ a, (![40, 0] : Fin 2 → Nat) a + S1x96.size a ≤ S96x96.size a
  slices_S1024x96_o0_41_S1024x1 : S1024x96.Slices ![0, 41] S1024x1
  inb_S96x96_S1x96_41_0 : ∀ a, (![41, 0] : Fin 2 → Nat) a + S1x96.size a ≤ S96x96.size a
  slices_S1024x96_o0_42_S1024x1 : S1024x96.Slices ![0, 42] S1024x1
  inb_S96x96_S1x96_42_0 : ∀ a, (![42, 0] : Fin 2 → Nat) a + S1x96.size a ≤ S96x96.size a
  slices_S1024x96_o0_43_S1024x1 : S1024x96.Slices ![0, 43] S1024x1
  inb_S96x96_S1x96_43_0 : ∀ a, (![43, 0] : Fin 2 → Nat) a + S1x96.size a ≤ S96x96.size a
  slices_S1024x96_o0_44_S1024x1 : S1024x96.Slices ![0, 44] S1024x1
  inb_S96x96_S1x96_44_0 : ∀ a, (![44, 0] : Fin 2 → Nat) a + S1x96.size a ≤ S96x96.size a
  slices_S1024x96_o0_45_S1024x1 : S1024x96.Slices ![0, 45] S1024x1
  inb_S96x96_S1x96_45_0 : ∀ a, (![45, 0] : Fin 2 → Nat) a + S1x96.size a ≤ S96x96.size a
  slices_S1024x96_o0_46_S1024x1 : S1024x96.Slices ![0, 46] S1024x1
  inb_S96x96_S1x96_46_0 : ∀ a, (![46, 0] : Fin 2 → Nat) a + S1x96.size a ≤ S96x96.size a
  slices_S1024x96_o0_47_S1024x1 : S1024x96.Slices ![0, 47] S1024x1
  inb_S96x96_S1x96_47_0 : ∀ a, (![47, 0] : Fin 2 → Nat) a + S1x96.size a ≤ S96x96.size a
  slices_S1024x96_o0_48_S1024x1 : S1024x96.Slices ![0, 48] S1024x1
  inb_S96x96_S1x96_48_0 : ∀ a, (![48, 0] : Fin 2 → Nat) a + S1x96.size a ≤ S96x96.size a
  slices_S1024x96_o0_49_S1024x1 : S1024x96.Slices ![0, 49] S1024x1
  inb_S96x96_S1x96_49_0 : ∀ a, (![49, 0] : Fin 2 → Nat) a + S1x96.size a ≤ S96x96.size a
  slices_S1024x96_o0_50_S1024x1 : S1024x96.Slices ![0, 50] S1024x1
  inb_S96x96_S1x96_50_0 : ∀ a, (![50, 0] : Fin 2 → Nat) a + S1x96.size a ≤ S96x96.size a
  slices_S1024x96_o0_51_S1024x1 : S1024x96.Slices ![0, 51] S1024x1
  inb_S96x96_S1x96_51_0 : ∀ a, (![51, 0] : Fin 2 → Nat) a + S1x96.size a ≤ S96x96.size a
  slices_S1024x96_o0_52_S1024x1 : S1024x96.Slices ![0, 52] S1024x1
  inb_S96x96_S1x96_52_0 : ∀ a, (![52, 0] : Fin 2 → Nat) a + S1x96.size a ≤ S96x96.size a
  slices_S1024x96_o0_53_S1024x1 : S1024x96.Slices ![0, 53] S1024x1
  inb_S96x96_S1x96_53_0 : ∀ a, (![53, 0] : Fin 2 → Nat) a + S1x96.size a ≤ S96x96.size a
  slices_S1024x96_o0_54_S1024x1 : S1024x96.Slices ![0, 54] S1024x1
  inb_S96x96_S1x96_54_0 : ∀ a, (![54, 0] : Fin 2 → Nat) a + S1x96.size a ≤ S96x96.size a
  slices_S1024x96_o0_55_S1024x1 : S1024x96.Slices ![0, 55] S1024x1
  inb_S96x96_S1x96_55_0 : ∀ a, (![55, 0] : Fin 2 → Nat) a + S1x96.size a ≤ S96x96.size a
  slices_S1024x96_o0_56_S1024x1 : S1024x96.Slices ![0, 56] S1024x1
  inb_S96x96_S1x96_56_0 : ∀ a, (![56, 0] : Fin 2 → Nat) a + S1x96.size a ≤ S96x96.size a
  slices_S1024x96_o0_57_S1024x1 : S1024x96.Slices ![0, 57] S1024x1
  inb_S96x96_S1x96_57_0 : ∀ a, (![57, 0] : Fin 2 → Nat) a + S1x96.size a ≤ S96x96.size a
  slices_S1024x96_o0_58_S1024x1 : S1024x96.Slices ![0, 58] S1024x1
  inb_S96x96_S1x96_58_0 : ∀ a, (![58, 0] : Fin 2 → Nat) a + S1x96.size a ≤ S96x96.size a
  slices_S1024x96_o0_59_S1024x1 : S1024x96.Slices ![0, 59] S1024x1
  inb_S96x96_S1x96_59_0 : ∀ a, (![59, 0] : Fin 2 → Nat) a + S1x96.size a ≤ S96x96.size a
  slices_S1024x96_o0_60_S1024x1 : S1024x96.Slices ![0, 60] S1024x1
  inb_S96x96_S1x96_60_0 : ∀ a, (![60, 0] : Fin 2 → Nat) a + S1x96.size a ≤ S96x96.size a
  slices_S1024x96_o0_61_S1024x1 : S1024x96.Slices ![0, 61] S1024x1
  inb_S96x96_S1x96_61_0 : ∀ a, (![61, 0] : Fin 2 → Nat) a + S1x96.size a ≤ S96x96.size a
  slices_S1024x96_o0_62_S1024x1 : S1024x96.Slices ![0, 62] S1024x1
  inb_S96x96_S1x96_62_0 : ∀ a, (![62, 0] : Fin 2 → Nat) a + S1x96.size a ≤ S96x96.size a
  slices_S1024x96_o0_63_S1024x1 : S1024x96.Slices ![0, 63] S1024x1
  inb_S96x96_S1x96_63_0 : ∀ a, (![63, 0] : Fin 2 → Nat) a + S1x96.size a ≤ S96x96.size a
  slices_S1024x96_o0_64_S1024x1 : S1024x96.Slices ![0, 64] S1024x1
  inb_S96x96_S1x96_64_0 : ∀ a, (![64, 0] : Fin 2 → Nat) a + S1x96.size a ≤ S96x96.size a
  slices_S1024x96_o0_65_S1024x1 : S1024x96.Slices ![0, 65] S1024x1
  inb_S96x96_S1x96_65_0 : ∀ a, (![65, 0] : Fin 2 → Nat) a + S1x96.size a ≤ S96x96.size a
  slices_S1024x96_o0_66_S1024x1 : S1024x96.Slices ![0, 66] S1024x1
  inb_S96x96_S1x96_66_0 : ∀ a, (![66, 0] : Fin 2 → Nat) a + S1x96.size a ≤ S96x96.size a
  slices_S1024x96_o0_67_S1024x1 : S1024x96.Slices ![0, 67] S1024x1
  inb_S96x96_S1x96_67_0 : ∀ a, (![67, 0] : Fin 2 → Nat) a + S1x96.size a ≤ S96x96.size a
  slices_S1024x96_o0_68_S1024x1 : S1024x96.Slices ![0, 68] S1024x1
  inb_S96x96_S1x96_68_0 : ∀ a, (![68, 0] : Fin 2 → Nat) a + S1x96.size a ≤ S96x96.size a
  slices_S1024x96_o0_69_S1024x1 : S1024x96.Slices ![0, 69] S1024x1
  inb_S96x96_S1x96_69_0 : ∀ a, (![69, 0] : Fin 2 → Nat) a + S1x96.size a ≤ S96x96.size a
  slices_S1024x96_o0_70_S1024x1 : S1024x96.Slices ![0, 70] S1024x1
  inb_S96x96_S1x96_70_0 : ∀ a, (![70, 0] : Fin 2 → Nat) a + S1x96.size a ≤ S96x96.size a
  slices_S1024x96_o0_71_S1024x1 : S1024x96.Slices ![0, 71] S1024x1
  inb_S96x96_S1x96_71_0 : ∀ a, (![71, 0] : Fin 2 → Nat) a + S1x96.size a ≤ S96x96.size a
  slices_S1024x96_o0_72_S1024x1 : S1024x96.Slices ![0, 72] S1024x1
  inb_S96x96_S1x96_72_0 : ∀ a, (![72, 0] : Fin 2 → Nat) a + S1x96.size a ≤ S96x96.size a
  slices_S1024x96_o0_73_S1024x1 : S1024x96.Slices ![0, 73] S1024x1
  inb_S96x96_S1x96_73_0 : ∀ a, (![73, 0] : Fin 2 → Nat) a + S1x96.size a ≤ S96x96.size a
  slices_S1024x96_o0_74_S1024x1 : S1024x96.Slices ![0, 74] S1024x1
  inb_S96x96_S1x96_74_0 : ∀ a, (![74, 0] : Fin 2 → Nat) a + S1x96.size a ≤ S96x96.size a
  slices_S1024x96_o0_75_S1024x1 : S1024x96.Slices ![0, 75] S1024x1
  inb_S96x96_S1x96_75_0 : ∀ a, (![75, 0] : Fin 2 → Nat) a + S1x96.size a ≤ S96x96.size a
  slices_S1024x96_o0_76_S1024x1 : S1024x96.Slices ![0, 76] S1024x1
  inb_S96x96_S1x96_76_0 : ∀ a, (![76, 0] : Fin 2 → Nat) a + S1x96.size a ≤ S96x96.size a
  slices_S1024x96_o0_77_S1024x1 : S1024x96.Slices ![0, 77] S1024x1
  inb_S96x96_S1x96_77_0 : ∀ a, (![77, 0] : Fin 2 → Nat) a + S1x96.size a ≤ S96x96.size a
  slices_S1024x96_o0_78_S1024x1 : S1024x96.Slices ![0, 78] S1024x1
  inb_S96x96_S1x96_78_0 : ∀ a, (![78, 0] : Fin 2 → Nat) a + S1x96.size a ≤ S96x96.size a
  slices_S1024x96_o0_79_S1024x1 : S1024x96.Slices ![0, 79] S1024x1
  inb_S96x96_S1x96_79_0 : ∀ a, (![79, 0] : Fin 2 → Nat) a + S1x96.size a ≤ S96x96.size a
  slices_S1024x96_o0_80_S1024x1 : S1024x96.Slices ![0, 80] S1024x1
  inb_S96x96_S1x96_80_0 : ∀ a, (![80, 0] : Fin 2 → Nat) a + S1x96.size a ≤ S96x96.size a
  slices_S1024x96_o0_81_S1024x1 : S1024x96.Slices ![0, 81] S1024x1
  inb_S96x96_S1x96_81_0 : ∀ a, (![81, 0] : Fin 2 → Nat) a + S1x96.size a ≤ S96x96.size a
  slices_S1024x96_o0_82_S1024x1 : S1024x96.Slices ![0, 82] S1024x1
  inb_S96x96_S1x96_82_0 : ∀ a, (![82, 0] : Fin 2 → Nat) a + S1x96.size a ≤ S96x96.size a
  slices_S1024x96_o0_83_S1024x1 : S1024x96.Slices ![0, 83] S1024x1
  inb_S96x96_S1x96_83_0 : ∀ a, (![83, 0] : Fin 2 → Nat) a + S1x96.size a ≤ S96x96.size a
  slices_S1024x96_o0_84_S1024x1 : S1024x96.Slices ![0, 84] S1024x1
  inb_S96x96_S1x96_84_0 : ∀ a, (![84, 0] : Fin 2 → Nat) a + S1x96.size a ≤ S96x96.size a
  slices_S1024x96_o0_85_S1024x1 : S1024x96.Slices ![0, 85] S1024x1
  inb_S96x96_S1x96_85_0 : ∀ a, (![85, 0] : Fin 2 → Nat) a + S1x96.size a ≤ S96x96.size a
  slices_S1024x96_o0_86_S1024x1 : S1024x96.Slices ![0, 86] S1024x1
  inb_S96x96_S1x96_86_0 : ∀ a, (![86, 0] : Fin 2 → Nat) a + S1x96.size a ≤ S96x96.size a
  slices_S1024x96_o0_87_S1024x1 : S1024x96.Slices ![0, 87] S1024x1
  inb_S96x96_S1x96_87_0 : ∀ a, (![87, 0] : Fin 2 → Nat) a + S1x96.size a ≤ S96x96.size a
  slices_S1024x96_o0_88_S1024x1 : S1024x96.Slices ![0, 88] S1024x1
  inb_S96x96_S1x96_88_0 : ∀ a, (![88, 0] : Fin 2 → Nat) a + S1x96.size a ≤ S96x96.size a
  slices_S1024x96_o0_89_S1024x1 : S1024x96.Slices ![0, 89] S1024x1
  inb_S96x96_S1x96_89_0 : ∀ a, (![89, 0] : Fin 2 → Nat) a + S1x96.size a ≤ S96x96.size a
  slices_S1024x96_o0_90_S1024x1 : S1024x96.Slices ![0, 90] S1024x1
  inb_S96x96_S1x96_90_0 : ∀ a, (![90, 0] : Fin 2 → Nat) a + S1x96.size a ≤ S96x96.size a
  slices_S1024x96_o0_91_S1024x1 : S1024x96.Slices ![0, 91] S1024x1
  inb_S96x96_S1x96_91_0 : ∀ a, (![91, 0] : Fin 2 → Nat) a + S1x96.size a ≤ S96x96.size a
  slices_S1024x96_o0_92_S1024x1 : S1024x96.Slices ![0, 92] S1024x1
  inb_S96x96_S1x96_92_0 : ∀ a, (![92, 0] : Fin 2 → Nat) a + S1x96.size a ≤ S96x96.size a
  slices_S1024x96_o0_93_S1024x1 : S1024x96.Slices ![0, 93] S1024x1
  inb_S96x96_S1x96_93_0 : ∀ a, (![93, 0] : Fin 2 → Nat) a + S1x96.size a ≤ S96x96.size a
  slices_S1024x96_o0_94_S1024x1 : S1024x96.Slices ![0, 94] S1024x1
  inb_S96x96_S1x96_94_0 : ∀ a, (![94, 0] : Fin 2 → Nat) a + S1x96.size a ≤ S96x96.size a
  slices_S1024x96_o0_95_S1024x1 : S1024x96.Slices ![0, 95] S1024x1
  inb_S96x96_S1x96_95_0 : ∀ a, (![95, 0] : Fin 2 → Nat) a + S1x96.size a ≤ S96x96.size a
  transposes_S1024x96_p1_0_S96x1024 : S1024x96.Transposes [1, 0] S96x1024
  inb_S2x96x96_S2x96x96_0_0_0 : ∀ a, (![0, 0, 0] : Fin 3 → Nat) a + S2x96x96.size a ≤ S2x96x96.size a
  h_S2x96x96 : 0 < S2x96x96.numel
  shapeCasts_S2x96x96_S2x96x96 : S2x96x96.ShapeCasts S2x96x96
  slices_S2x96x96_o0_0_0_S1x96x96 : S2x96x96.Slices ![0, 0, 0] S1x96x96
  shapeCasts_S1x96x96_S96x96 : S1x96x96.ShapeCasts S96x96
  slices_S2x96x96_o1_0_0_S1x96x96 : S2x96x96.Slices ![1, 0, 0] S1x96x96
  iota_S96x96_d0_w32 : S96x96.Iotas .tc 32 [0]
  iota_S96x96_d1_w32 : S96x96.Iotas .tc 32 [1]
  natLt_1_32 : 1 < 32
  reduces_S96x96_S96 : S96x96.Reduces [1] S96
  shapeCasts_S96_S96x1 : S96.ShapeCasts S96x1
  reduces_S96x1_S1 : S96x1.Reduces [0] S1
  shapeCasts_S1_S1x1 : S1.ShapeCasts S1x1
  reduces_S96x96_S96_2 : S96x96.Reduces [0] S96
  broadcasts_S96x1_S96x96 : S96x1.Broadcasts S96x96
  broadcasts_S1x96_S96x96 : S1x96.Broadcasts S96x96
  inb_S8x128_S8x128_0_0 : ∀ a, (![0, 0] : Fin 2 → Nat) a + S8x128.size a ≤ S8x128.size a
  h_S8x128 : 0 < S8x128.numel
  inb_S8x128_S1x1_0_0 : ∀ a, (![0, 0] : Fin 2 → Nat) a + S1x1.size a ≤ S8x128.size a
  h_S1x1 : 0 < S1x1.numel
  reducesTo_S16x128_S_d0_1 : S16x128.ReducesTo [0, 1] S_
  gather_S2x96x96_S2x96x96x1_S2x96x96_n_2_01_01_2_3_111_wf : GatherDims.WF S2x96x96 S2x96x96x1 S2x96x96 [] [2] [0, 1] [2] [0, 1] 3 ![1, 1, 1]
  dot_S96x1024_S1024x96_S96x96_1_0_0_1_n_n_wf : DotDims.WF S96x1024 S1024x96 S96x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x96.size a ≤ S8192x96.size a
  hwx0_0 : ∀ i : grid0.Coords, EltTy.bits .f32 = 32 ∨ (Rect.block (s := S8192x96) S1024x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x96.size a ≤ S8192x96.size a
  hwx0_1 : ∀ i : grid0.Coords, EltTy.bits .f32 = 32 ∨ (Rect.block (s := S8192x96) S1024x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x96x96.size a ≤ S2x96x96.size a
  hwx0_2 : ∀ i : grid0.Coords, EltTy.bits .f32 = 32 ∨ (Rect.block (s := S2x96x96) S2x96x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def gather_S2x96x96_S2x96x96x1_S2x96x96_n_2_01_01_2_3_111 : GatherDims S2x96x96 S2x96x96x1 S2x96x96 where
  offsetDims := []
  collapsedSliceDims := [2]
  operandBatchingDims := [0, 1]
  startIndicesBatchingDims := [0, 1]
  startIndexMap := [2]
  indexVectorDim := 3
  sliceSizes := ![1, 1, 1]
  wf := gather_S2x96x96_S2x96x96x1_S2x96x96_n_2_01_01_2_3_111_wf
def dot_S96x1024_S1024x96_S96x96_1_0_0_1_n_n : DotDims S96x1024 S1024x96 S96x96 where
  lhsContracting := [1]
  rhsContracting := [0]
  lhsNonContracting := [0]
  rhsNonContracting := [1]
  lhsBatch := []
  rhsBatch := []
  wf := dot_S96x1024_S1024x96_S96x96_1_0_0_1_n_n_wf

abbrev win0_0 : Pipeline.Window sig grid0 :=
  Pipeline.Window.ofSpec (Memref.whole main_arg0) S1024x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2x96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x96 : Shape := ⟨2, ![8192, 96]⟩
abbrev S2x96x96 : Shape := ⟨3, ![2, 96, 96]⟩
abbrev S96 : Shape := ⟨1, ![96]⟩
abbrev S96x1 : Shape := ⟨2, ![96, 1]⟩
abbrev S1x96 : Shape := ⟨2, ![1, 96]⟩
abbrev S96x96 : Shape := ⟨2, ![96, 96]⟩
abbrev S_ : Shape := ⟨0, ![]⟩
abbrev S8192x96x1 : Shape := ⟨3, ![8192, 96, 1]⟩
abbrev S96x96x1 : Shape := ⟨3, ![96, 96, 1]⟩
abbrev S8192x96x96 : Shape := ⟨3, ![8192, 96, 96]⟩
abbrev S1x96x96 : Shape := ⟨3, ![1, 96, 96]⟩

abbrev nBuf : Space → Nat
  | .hbm => 63
  | .vmem => 0
  | .smem => 0
  | _ => 0

abbrev bufTy : (tb : Table) → Fin (tcTables nBuf tb) → BufTy
  | .hbm, ⟨0, _⟩ => ⟨S8192x96, .f32⟩
  | .hbm, ⟨1, _⟩ => ⟨S8192x96, .f32⟩
  | .hbm, ⟨2, _⟩ => ⟨S2x96x96, .f32⟩
  | .hbm, ⟨3, _⟩ => ⟨S8192x96, .f32⟩
  | .hbm, ⟨4, _⟩ => ⟨S96, .i32⟩
  | .hbm, ⟨5, _⟩ => ⟨S96x1, .i32⟩
  | .hbm, ⟨6, _⟩ => ⟨S96, .i32⟩
  | .hbm, ⟨7, _⟩ => ⟨S1x96, .i32⟩
  | .hbm, ⟨8, _⟩ => ⟨S96x96, .i32⟩
  | .hbm, ⟨9, _⟩ => ⟨S96x96, .i32⟩
  | .hbm, ⟨10, _⟩ => ⟨S96x96, .i32⟩
  | .hbm, ⟨11, _⟩ => ⟨S_, .i32⟩
  | .hbm, ⟨12, _⟩ => ⟨S96x96, .i32⟩
  | .hbm, ⟨13, _⟩ => ⟨S96x96, .i1⟩
  | .hbm, ⟨14, _⟩ => ⟨S_, .i32⟩
  | .hbm, ⟨15, _⟩ => ⟨S96x96, .i32⟩
  | .hbm, ⟨16, _⟩ => ⟨S96x96, .i32⟩
  | .hbm, ⟨17, _⟩ => ⟨S8192x96x1, .f32⟩
  | .hbm, ⟨18, _⟩ => ⟨S_, .i32⟩
  | .hbm, ⟨19, _⟩ => ⟨S96x96, .i32⟩
  | .hbm, ⟨20, _⟩ => ⟨S96x96, .i1⟩
  | .hbm, ⟨21, _⟩ => ⟨S_, .i32⟩
  | .hbm, ⟨22, _⟩ => ⟨S96x96, .i32⟩
  | .hbm, ⟨23, _⟩ => ⟨S96x96, .i32⟩
  | .hbm, ⟨24, _⟩ => ⟨S96x96, .i32⟩
  | .hbm, ⟨25, _⟩ => ⟨S96x96x1, .i32⟩
  | .hbm, ⟨26, _⟩ => ⟨S8192x96x96, .f32⟩
  | .hbm, ⟨27, _⟩ => ⟨S8192x96x96, .f32⟩
  | .hbm, ⟨28, _⟩ => ⟨S8192x96x96, .f32⟩
  | .hbm, ⟨29, _⟩ => ⟨S8192x96x96, .f32⟩
  | .hbm, ⟨30, _⟩ => ⟨S_, .i32⟩
  | .hbm, ⟨31, _⟩ => ⟨S1x96, .i32⟩
  | .hbm, ⟨32, _⟩ => ⟨S1x96, .i1⟩
  | .hbm, ⟨33, _⟩ => ⟨S8192x96, .f32⟩
  | .hbm, ⟨34, _⟩ => ⟨S8192x96x1, .f32⟩
  | .hbm, ⟨35, _⟩ => ⟨S_, .f32⟩
  | .hbm, ⟨36, _⟩ => ⟨S_, .f32⟩
  | .hbm, ⟨37, _⟩ => ⟨S8192x96x96, .i1⟩
  | .hbm, ⟨38, _⟩ => ⟨S8192x96x96, .f32⟩
  | .hbm, ⟨39, _⟩ => ⟨S8192x96x96, .f32⟩
  | .hbm, ⟨40, _⟩ => ⟨S8192x96x96, .i1⟩
  | .hbm, ⟨41, _⟩ => ⟨S8192x96x96, .f32⟩
  | .hbm, ⟨42, _⟩ => ⟨S8192x96x96, .f32⟩
  | .hbm, ⟨43, _⟩ => ⟨S1x96x96, .f32⟩
  | .hbm, ⟨44, _⟩ => ⟨S96x96, .f32⟩
  | .hbm, ⟨45, _⟩ => ⟨S1x96x96, .f32⟩
  | .hbm, ⟨46, _⟩ => ⟨S8192x96x96, .f32⟩
  | .hbm, ⟨47, _⟩ => ⟨S8192x96x96, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192x96x96, .f32⟩
  | .hbm, ⟨53, _⟩ => ⟨S1x96x96, .f32⟩
  | .hbm, ⟨54, _⟩ => ⟨S96x96, .f32⟩
  | .hbm, ⟨55, _⟩ => ⟨S1x96x96, .f32⟩
  | .hbm, ⟨56, _⟩ => ⟨S8192x96x96, .f32⟩
  | .hbm, ⟨57, _⟩ => ⟨S8192x96x96, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S96_S96x1_0 : S96.BroadcastsInDim S96x1 (![0] : Fin 1 → Fin S96x1.rank)
  bcast_S96_S1x96_1 : S96.BroadcastsInDim S1x96 (![1] : Fin 1 → Fin S1x96.rank)
  bcast_S96x1_S96x96_0_1 : S96x1.BroadcastsInDim S96x96 (![0, 1] : Fin 2 → Fin S96x96.rank)
  bcast_S1x96_S96x96_0_1 : S1x96.BroadcastsInDim S96x96 (![0, 1] : Fin 2 → Fin S96x96.rank)
  bcast_S_S96x96 : S_.BroadcastsInDim S96x96 (![] : Fin 0 → Fin S96x96.rank)
  bcast_S8192x96_S8192x96x1_0_1 : S8192x96.BroadcastsInDim S8192x96x1 (![0, 1] : Fin 2 → Fin S8192x96x1.rank)
  bcast_S96x96_S96x96x1_0_1 : S96x96.BroadcastsInDim S96x96x1 (![0, 1] : Fin 2 → Fin S96x96x1.rank)
  bcast_S8192x96x1_S8192x96x96_0_1_2 : S8192x96x1.BroadcastsInDim S8192x96x96 (![0, 1, 2] : Fin 3 → Fin S8192x96x96.rank)
  bcast_S_S1x96 : S_.BroadcastsInDim S1x96 (![] : Fin 0 → Fin S1x96.rank)
  bcast_S96x96_S8192x96x96_1_2 : S96x96.BroadcastsInDim S8192x96x96 (![1, 2] : Fin 2 → Fin S8192x96x96.rank)
  bcast_S_S8192x96x96 : S_.BroadcastsInDim S8192x96x96 (![] : Fin 0 → Fin S8192x96x96.rank)
  bcast_S1x96_S8192x96x96_1_2 : S1x96.BroadcastsInDim S8192x96x96 (![1, 2] : Fin 2 → Fin S8192x96x96.rank)
  slices_S2x96x96_S1x96x96_0_0_0 : S2x96x96.Slices ![0, 0, 0] S1x96x96
  shapeCasts_S1x96x96_S96x96 : S1x96x96.ShapeCasts S96x96
  bcast_S96x96_S1x96x96_1_2 : S96x96.BroadcastsInDim S1x96x96 (![1, 2] : Fin 2 → Fin S1x96x96.rank)
  bcast_S1x96x96_S8192x96x96_0_1_2 : S1x96x96.BroadcastsInDim S8192x96x96 (![0, 1, 2] : Fin 3 → Fin S8192x96x96.rank)
  reducesTo_S8192x96x96_S_d0_1_2 : S8192x96x96.ReducesTo [0, 1, 2] S_
  h_S_ : 0 < S_.numel
  slices_S2x96x96_S1x96x96_1_0_0 : S2x96x96.Slices ![1, 0, 0] S1x96x96
  gather_S8192x96_S96x96x1_S8192x96x96_0_1_n_n_1_2_81921_wf : GatherDims.WF S8192x96 S96x96x1 S8192x96x96 [0] [1] [] [1] [] 2 ![8192, 1]

variable [Facts₀]

def gather_S8192x96_S96x96x1_S8192x96x96_0_1_n_n_1_2_81921 : GatherDims S8192x96 S96x96x1 S8192x96x96 where
  offsetDims := [0]
  collapsedSliceDims := [1]
  operandBatchingDims := []
  startIndicesBatchingDims := []
  startIndexMap := [1]
  indexVectorDim := 2
  sliceSizes := ![8192, 1]
  wf := gather_S8192x96_S96x96x1_S8192x96x96_0_1_n_n_1_2_81921_wf

class Facts : Prop extends Facts₀ where

variable [Facts]
-- ==== Proof.LossSpec.lean ====
/-
  The weighted lag loss as one function of the three argument arrays, written twice: as the reference sums it
  (over examples n, positions i and lags j) and as the kernel accumulates it (per core, over tiles of 1024
  examples, through the row sums S(i,k) of |e_i - e_k| and the Gram matrix G = eᵀe).

  With e = y_true - y_pred, the entry D(n,i,j) is |e(n,i)| at lag j = 0, |e(n,i) - e(n,i+j)| while i+j stays
  inside the row, and 0 beyond; the loss is (Σ D·w₀ + Σ D²·w₁) / (96·8192).
-/
import Idealize.ShloMosaic.PureOps.Ideal
import Idealize.ShloMosaic.Lib.ValueIdx

noncomputable section

namespace Cert.LossSpec

open Idealize.ShloMosaic Idealize.ShloMosaic.ValueIdx

/-- The shape of y_true and y_pred. -/
abbrev SY : Shape := ⟨2, ![8192, 96]⟩
/-- The shape of the weights: one 96 × 96 matrix (position × lag) per power. -/
abbrev SW : Shape := ⟨3, ![2, 96, 96]⟩

/-- The error e(n,i) = y_true(n,i) - y_pred(n,i). -/
def err (yt yp : SY.Idx → EReal) (n : Fin 8192) (i : Fin 96) : EReal := yt (ix2 n i) - yp (ix2 n i)

/-- The absolute value as both programs compute it on the extended reals. -/
def eabs (x : EReal) : EReal := max x (-x)

/-- A partner position clipped into the row. -/
def clip95 (k : ℕ) : Fin 96 := ⟨min k 95, by omega⟩

/-- D(n,i,j): |e_i| at lag 0, |e_i - e_(i+j)| while i + j < 96, and 0 beyond. -/
def lagDiff (e : Fin 8192 → Fin 96 → EReal) (n : Fin 8192) (i j : Fin 96) : EReal :=
  if j.val = 0 then eabs (e n i)
  else if i.val + j.val < 96 then eabs (e n i - e n (clip95 (i.val + j.val))) else 0

/-- The divisor 96 · 8192 = 786432, as the f32 word both programs carry. -/
def scale : EReal := Ideal.ofBits .f32 0x49400000#32

/-- The reference's value: (Σ D·w₀ + Σ D·D·w₁) / 786432. -/
def refLoss (yt yp : SY.Idx → EReal) (w : SW.Idx → EReal) : EReal :=
  Ideal.div
    ((∑ n : Fin 8192, ∑ i : Fin 96, ∑ j : Fin 96, lagDiff (err yt yp) n i j * w (ix3 (0 : Fin 2) i j))
      + (∑ n : Fin 8192, ∑ i : Fin 96, ∑ j : Fin 96,
          lagDiff (err yt yp) n i j * lagDiff (err yt yp) n i j * w (ix3 (1 : Fin 2) i j)))
    scale

/-! ## The kernel's arrangement -/

/-- Example n of tile b (tiles of 1024 examples). -/
def rowOf (b : Fin 8) (n : Fin 1024) : Fin 8192 := ⟨1024 * b.val + n.val, by omega⟩

/-- Tile t of core c (four tiles per core). -/
def tileOf (c : Fin 2) (t : Fin 4) : Fin 8 := ⟨4 * c.val + t.val, by omega⟩

/-- One tile's row sums: Σ_n |e_i - e_k|, with |e_i| on the diagonal k = i. -/
def tileAbs (e : Fin 8192 → Fin 96 → EReal) (b : Fin 8) (i k : Fin 96) : EReal :=
  ∑ n : Fin 1024, if k = i then eabs (e (rowOf b n) i) else eabs (e (rowOf b n) i - e (rowOf b n) k)

/-- One tile's Gram matrix: Σ_n e_i · e_k. -/
def tileGram (e : Fin 8192 → Fin 96 → EReal) (b : Fin 8) (i k : Fin 96) : EReal :=
  ∑ n : Fin 1024, e (rowOf b n) i * e (rowOf b n) k

/-- A core's accumulated row sums after its four tiles, in the order the kernel adds them. -/
def accAbs (e : Fin 8192 → Fin 96 → EReal) (c : Fin 2) (i k : Fin 96) : EReal :=
  tileAbs e (tileOf c 0) i k + tileAbs e (tileOf c 1) i k + tileAbs e (tileOf c 2) i k + tileAbs e (tileOf c 3) i k

/-- A core's accumulated Gram matrix after its four tiles. -/
def accGram (e : Fin 8192 → Fin 96 → EReal) (c : Fin 2) (i k : Fin 96) : EReal :=
  tileGram e (tileOf c 0) i k + tileGram e (tileOf c 1) i k + tileGram e (tileOf c 2) i k + tileGram e (tileOf c 3) i k

/-- The weights reindexed from (position, lag) to (position, partner): w(p,i,k-i) for k ≥ i, and 0 below the diagonal. -/
def wfull (w : SW.Idx → EReal) (p : Fin 2) (i k : Fin 96) : EReal :=
  if h : i.val ≤ k.val then w (ix3 p i ⟨k.val - i.val, by omega⟩) else 0

/-- The identity matrix's entries. -/
def eye (i k : Fin 96) : EReal := if i = k then 1 else 0

/-- The constant 2 as the f32 word the kernel carries. -/
def two : EReal := Ideal.ofBits .f32 0x40000000#32

/-- What a core writes at its last tile, from its row sums S, its Gram matrix G and the reindexed weights:
    Σ S·W₀ + (Σ (G_ii + G_kk - 2·G_ik)·W₁ + Σ (I·G)·W₁), each double sum taken rows first. -/
def coreTotal (S G : Fin 96 → Fin 96 → EReal) (W : Fin 2 → Fin 96 → Fin 96 → EReal) : EReal :=
  (∑ i : Fin 96, ∑ k : Fin 96, S i k * W 0 i k)
    + ((∑ i : Fin 96, ∑ k : Fin 96,
          (((∑ k' : Fin 96, G i k' * eye i k') + (∑ i' : Fin 96, G i' k * eye i' k)) - two * G i k) * W 1 i k)
      + (∑ i : Fin 96, ∑ k : Fin 96, eye i k * G i k * W 1 i k))

/-- The kernel's value: the two cores' totals, added and divided by 786432. -/
def kerLoss (yt yp : SY.Idx → EReal) (w : SW.Idx → EReal) : EReal :=
  Ideal.div
    (coreTotal (accAbs (err yt yp) 0) (accGram (err yt yp) 0) (wfull w)
      + coreTotal (accAbs (err yt yp) 1) (accGram (err yt yp) 1) (wfull w))
    scale

/-- The kernel's [16, 128] output array: core c's total at row 8·c, column 0, and zeros elsewhere. -/
def outArr (T : Fin 2 → EReal) (y : (⟨2, ![16, 128]⟩ : Shape).Idx) : EReal :=
  if (y 1).val = 0 ∧ (y 0).val % 8 = 0 then T ⟨(y 0).val / 8, by have := idx2_lt0 y; omega⟩ else 0

/-- The kernel's value read off its output array: the host sums the array from the f32 zero and divides. -/
def kerLossOf (T : Fin 2 → EReal) : EReal :=
  Ideal.div (Ideal.ofBits .f32 0x00000000#32 + ∑ y : (⟨2, ![16, 128]⟩ : Shape).Idx, outArr T y) scale

/-- Every entry of an array is a real number. -/
def AllReal {α : Type} (f : α → EReal) : Prop := ∀ x, ∃ r : ℝ, f x = (r : EReal)

end Cert.LossSpec

end
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.LossAlgebra.lean ====
/-
  The algebra of the weighted lag loss: the kernel's arrangement (per core, through the row sums of |e_i - e_k|
  and the Gram matrix of the errors) equals the reference's triple sum over examples, positions and lags, when
  every input is a real number; and the kernel's value is read off its output array.

  The proof moves to the reals (every quantity is the coercion of a real one), uses that the kernel's total is
  additive in the pair (row sums, Gram matrix) to bring the sum over examples outside, and then, per example and
  per position i, reindexes the partner k = i + j by the lag j.
-/
import proofs.«124193_j68049461838564_2_alg».proof.Proof.LossSpec
import proofs.«124193_j68049461838564_2_alg».proof.Proof.LibBlockSum
import Idealize.ShloMosaic.PureOps.Ideal.Laws
import Mathlib.Data.EReal.Basic
import Mathlib.Data.EReal.Operations
import Mathlib.Algebra.BigOperators.Fin
import Mathlib.Algebra.Order.BigOperators.Group.Finset
import Mathlib.Tactic.Ring
import Mathlib.Tactic.Linarith

noncomputable section

namespace Cert.LossAlgebra

open Idealize.ShloMosaic Idealize.ShloMosaic.ValueIdx Cert.LossSpec Finset

/-! ## Coercions from the reals -/

/-- A finite sum of coerced reals is the coercion of the real sum. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A choice between coerced reals is the coercion of the choice. -/
theorem ite_coe (c : Prop) [Decidable c] (a b : ℝ) : (if c then ((a : ℝ) : EReal) else ((b : ℝ) : EReal)) = ((if c then a else b : ℝ) : EReal) := by
  split_ifs <;> rfl

/-- The programs' absolute value of a real is the real absolute value. -/
theorem eabs_coe (x : ℝ) : eabs (x : EReal) = ((|x| : ℝ) : EReal) := by
  unfold eabs
  rw [← EReal.coe_neg, ← EReal.coe_strictMono.monotone.map_max, ← abs_eq_max_neg]

/-- The word 0x40000000 is the real 2. -/
theorem two_eq : two = ((2 : ℝ) : EReal) := by
  unfold two
  simp [Ideal.ofBits, Ideal.ieee, -EReal.coe_mul]; norm_num

/-! ## The real quantities, and the extended-real ones as their coercions -/

/-- Per example x : the row-sum entry |x_i - x_k|, with |x_i| on the diagonal. -/
def pAbs (x : Fin 96 → ℝ) (i k : Fin 96) : ℝ := if k = i then |x i| else |x i - x k|

/-- Per example x : the Gram entry x_i · x_k. -/
def pGram (x : Fin 96 → ℝ) (i k : Fin 96) : ℝ := x i * x k

/-- Per example x : the lag difference D(i,j). -/
def pLag (x : Fin 96 → ℝ) (i j : Fin 96) : ℝ :=
  if j.val = 0 then |x i| else if i.val + j.val < 96 then |x i - x (clip95 (i.val + j.val))| else 0

/-- The real weights reindexed from (position, lag) to (position, partner). -/
def rWf (W : Fin 2 → Fin 96 → Fin 96 → ℝ) (p : Fin 2) (i k : Fin 96) : ℝ :=
  if i.val ≤ k.val then W p i ⟨k.val - i.val, by omega⟩ else 0

/-- The real identity matrix. -/
def rEye (i k : Fin 96) : ℝ := if i = k then 1 else 0

/-- A core's total over the reals. -/
def rCore (S G : Fin 96 → Fin 96 → ℝ) (Wf : Fin 2 → Fin 96 → Fin 96 → ℝ) : ℝ :=
  (∑ i : Fin 96, ∑ k : Fin 96, S i k * Wf 0 i k)
    + ((∑ i : Fin 96, ∑ k : Fin 96,
          (((∑ k' : Fin 96, G i k' * rEye i k') + (∑ i' : Fin 96, G i' k * rEye i' k)) - 2 * G i k) * Wf 1 i k)
      + (∑ i : Fin 96, ∑ k : Fin 96, rEye i k * G i k * Wf 1 i k))

/-- One example's contribution to the reference's numerator. -/
def pRef (x : Fin 96 → ℝ) (W : Fin 2 → Fin 96 → Fin 96 → ℝ) : ℝ :=
  ∑ i : Fin 96, ∑ j : Fin 96, (pLag x i j * W 0 i j + pLag x i j * pLag x i j * W 1 i j)

variable (E : Fin 8192 → Fin 96 → ℝ) (Wr : SW.Idx → ℝ)

theorem lagDiff_coe (n : Fin 8192) (i j : Fin 96) :
    lagDiff (fun n i => ((E n i : ℝ) : EReal)) n i j = ((pLag (E n) i j : ℝ) : EReal) := by
  unfold lagDiff pLag
  split_ifs
  · exact eabs_coe _
  · rw [← EReal.coe_sub]; exact eabs_coe _
  · rfl

theorem tileAbs_coe (b : Fin 8) (i k : Fin 96) :
    tileAbs (fun n i => ((E n i : ℝ) : EReal)) b i k = ((∑ n : Fin 1024, pAbs (E (rowOf b n)) i k : ℝ) : EReal) := by
  unfold tileAbs pAbs
  rw [← coe_sum]
  refine Finset.sum_congr rfl fun n _ => ?_
  split_ifs
  · exact eabs_coe _
  · rw [← EReal.coe_sub]; exact eabs_coe _

theorem tileGram_coe (b : Fin 8) (i k : Fin 96) :
    tileGram (fun n i => ((E n i : ℝ) : EReal)) b i k = ((∑ n : Fin 1024, pGram (E (rowOf b n)) i k : ℝ) : EReal) := by
  unfold tileGram pGram
  rw [← coe_sum]
  exact Finset.sum_congr rfl fun n _ => (EReal.coe_mul _ _).symm

theorem accAbs_coe (c : Fin 2) :
    accAbs (fun n i => ((E n i : ℝ) : EReal)) c
      = fun i k => ((∑ t : Fin 4, ∑ n : Fin 1024, pAbs (E (rowOf (tileOf c t) n)) i k : ℝ) : EReal) := by
  funext i k
  unfold accAbs
  rw [tileAbs_coe, tileAbs_coe, tileAbs_coe, tileAbs_coe, Fin.sum_univ_four, EReal.coe_add, EReal.coe_add, EReal.coe_add]

theorem accGram_coe (c : Fin 2) :
    accGram (fun n i => ((E n i : ℝ) : EReal)) c
      = fun i k => ((∑ t : Fin 4, ∑ n : Fin 1024, pGram (E (rowOf (tileOf c t) n)) i k : ℝ) : EReal) := by
  funext i k
  unfold accGram
  rw [tileGram_coe, tileGram_coe, tileGram_coe, tileGram_coe, Fin.sum_univ_four, EReal.coe_add, EReal.coe_add, EReal.coe_add]

theorem wfull_coe :
    wfull (fun x => ((Wr x : ℝ) : EReal)) = fun p i k => ((rWf (fun p i j => Wr (ix3 p i j)) p i k : ℝ) : EReal) := by
  funext p i k
  unfold wfull rWf
  split_ifs <;> rfl

theorem eye_coe (i k : Fin 96) : eye i k = ((rEye i k : ℝ) : EReal) := by
  unfold eye rEye
  split_ifs <;> rfl

theorem coreTotal_coe (S G : Fin 96 → Fin 96 → ℝ) (Wf : Fin 2 → Fin 96 → Fin 96 → ℝ) :
    coreTotal (fun i k => ((S i k : ℝ) : EReal)) (fun i k => ((G i k : ℝ) : EReal)) (fun p i k => ((Wf p i k : ℝ) : EReal))
      = ((rCore S G Wf : ℝ) : EReal) := by
  unfold coreTotal rCore
  simp only [eye_coe, two_eq, ← EReal.coe_mul, coe_sum, ← EReal.coe_add, ← EReal.coe_sub]

/-! ## The real identity -/

omit E Wr in
/-- A core's total as one double sum, the two diagonal extractions done. -/
theorem rCore_eq (S G : Fin 96 → Fin 96 → ℝ) (Wf : Fin 2 → Fin 96 → Fin 96 → ℝ) :
    rCore S G Wf = ∑ i : Fin 96, ∑ k : Fin 96,
      (S i k * Wf 0 i k + ((G i i + G k k - 2 * G i k) * Wf 1 i k + rEye i k * G i k * Wf 1 i k)) := by
  unfold rCore
  have h1 : ∀ i : Fin 96, ∑ k' : Fin 96, G i k' * rEye i k' = G i i := by
    intro i; unfold rEye; simp
  have h2 : ∀ k : Fin 96, ∑ i' : Fin 96, G i' k * rEye i' k = G k k := by
    intro k; unfold rEye; simp
  simp only [h1, h2, ← Finset.sum_add_distrib]

omit E Wr in
/-- A core's total is additive in the pair (row sums, Gram matrix). -/
theorem rCore_sum {ι : Type*} (s : Finset ι) (S G : ι → Fin 96 → Fin 96 → ℝ) (Wf : Fin 2 → Fin 96 → Fin 96 → ℝ) :
    rCore (fun i k => ∑ x ∈ s, S x i k) (fun i k => ∑ x ∈ s, G x i k) Wf = ∑ x ∈ s, rCore (S x) (G x) Wf := by
  have hr : ∑ x ∈ s, rCore (S x) (G x) Wf = ∑ i : Fin 96, ∑ k : Fin 96, ∑ x ∈ s,
      (S x i k * Wf 0 i k + ((G x i i + G x k k - 2 * G x i k) * Wf 1 i k + rEye i k * G x i k * Wf 1 i k)) := by
    simp only [rCore_eq]
    rw [Finset.sum_comm]
    exact Finset.sum_congr rfl fun i _ => Finset.sum_comm
  rw [hr, rCore_eq]
  refine Finset.sum_congr rfl fun i _ => Finset.sum_congr rfl fun k _ => ?_
  simp only [Finset.sum_add_distrib, Finset.sum_sub_distrib, Finset.sum_mul, Finset.mul_sum, add_mul, sub_mul]

omit E Wr in
/-- The partner k = i + j reindexed by the lag j. -/
theorem sum_partner (i : Fin 96) (g : Fin 96 → Fin 96 → ℝ) :
    ∑ k : Fin 96, (if i.val ≤ k.val then g k ⟨k.val - i.val, by omega⟩ else 0)
      = ∑ j : Fin 96, (if i.val + j.val < 96 then g (clip95 (i.val + j.val)) j else 0) := by
  rw [← Finset.sum_filter, ← Finset.sum_filter]
  refine Finset.sum_nbij' (fun k => (⟨k.val - i.val, by omega⟩ : Fin 96)) (fun j => clip95 (i.val + j.val)) ?_ ?_ ?_ ?_ ?_
  · intro k hk
    have hk' : i.val ≤ k.val := (Finset.mem_filter.mp hk).2
    refine Finset.mem_filter.mpr ⟨Finset.mem_univ _, ?_⟩
    show i.val + (k.val - i.val) < 96
    omega
  · intro j hj
    have hj' : i.val + j.val < 96 := (Finset.mem_filter.mp hj).2
    refine Finset.mem_filter.mpr ⟨Finset.mem_univ _, ?_⟩
    show i.val ≤ min (i.val + j.val) 95
    omega
  · intro k hk
    have hk' : i.val ≤ k.val := (Finset.mem_filter.mp hk).2
    refine Fin.ext ?_
    show min (i.val + (k.val - i.val)) 95 = k.val
    omega
  · intro j hj
    have hj' : i.val + j.val < 96 := (Finset.mem_filter.mp hj).2
    refine Fin.ext ?_
    show min (i.val + j.val) 95 - i.val = j.val
    omega
  · intro k hk
    have hk' : i.val ≤ k.val := (Finset.mem_filter.mp hk).2
    have e : clip95 (i.val + (k.val - i.val)) = k := Fin.ext (by show min (i.val + (k.val - i.val)) 95 = k.val; omega)
    show g k ⟨k.val - i.val, _⟩ = g (clip95 (i.val + (k.val - i.val))) ⟨k.val - i.val, _⟩
    rw [e]

/-- The kernel's summand at position i, partner k, with the weights read at lag j. -/
def pTerm (x : Fin 96 → ℝ) (W : Fin 2 → Fin 96 → Fin 96 → ℝ) (i k j : Fin 96) : ℝ :=
  pAbs x i k * W 0 i j + ((pGram x i i + pGram x k k - 2 * pGram x i k) * W 1 i j + rEye i k * pGram x i k * W 1 i j)

omit E Wr in
/-- One example: the total built from that example's row sums and Gram matrix is its share of the reference's
    numerator. At lag 0 the partner is i itself: |x_i| from the diagonal of the row sums, and (x_i - x_i)² = 0
    plus the identity's correction x_i² = |x_i|². At a lag j ≥ 1 inside the row the partner k ≠ i gives
    |x_i - x_k| and x_i² + x_k² - 2·x_i·x_k = |x_i - x_k|². Beyond the row both sides are 0. -/
theorem rCore_example (x : Fin 96 → ℝ) (W : Fin 2 → Fin 96 → Fin 96 → ℝ) :
    rCore (pAbs x) (pGram x) (rWf W) = pRef x W := by
  rw [rCore_eq]
  unfold pRef
  refine Finset.sum_congr rfl fun i _ => ?_
  have h : ∀ k : Fin 96,
      (pAbs x i k * rWf W 0 i k + ((pGram x i i + pGram x k k - 2 * pGram x i k) * rWf W 1 i k
          + rEye i k * pGram x i k * rWf W 1 i k))
        = (if i.val ≤ k.val then pTerm x W i k ⟨k.val - i.val, by omega⟩ else 0) := by
    intro k
    unfold rWf pTerm
    split_ifs
    · rfl
    · ring
  refine (Finset.sum_congr rfl fun k _ => h k).trans ((sum_partner i (pTerm x W i)).trans ?_)
  refine Finset.sum_congr rfl fun j _ => ?_
  unfold pLag
  by_cases hj : j.val = 0
  · have hlt : i.val + j.val < 96 := by omega
    have hk : clip95 (i.val + j.val) = i := Fin.ext (by show min (i.val + j.val) 95 = i.val; omega)
    rw [if_pos hlt, if_pos hj, hk]
    unfold pTerm pAbs pGram rEye
    rw [if_pos rfl, if_pos rfl, abs_mul_abs_self]
    ring
  · by_cases hlt : i.val + j.val < 96
    · have hne : clip95 (i.val + j.val) ≠ i := fun h => by
        have : min (i.val + j.val) 95 = i.val := congrArg Fin.val h
        omega
      rw [if_pos hlt, if_neg hj, if_pos hlt]
      unfold pTerm pAbs pGram rEye
      rw [if_neg hne, if_neg (Ne.symm hne), abs_mul_abs_self]
      ring
    · rw [if_neg hlt, if_neg hj, if_neg hlt]
      ring

omit E Wr in
/-- The 8192 examples as 2 cores × 4 tiles × 1024 examples. -/
theorem sum_examples {M : Type*} [AddCommMonoid M] (Q : Fin 8192 → M) :
    ∑ n : Fin 8192, Q n = ∑ c : Fin 2, ∑ t : Fin 4, ∑ n : Fin 1024, Q (rowOf (tileOf c t) n) := by
  have h1 : ∑ n : Fin 8192, Q n = ∑ b : Fin 8, ∑ n : Fin 1024, Q (rowOf b n) := LibBlockSum.sum_blocks 8 1024 Q
  have h2 : ∑ b : Fin 8, ∑ n : Fin 1024, Q (rowOf b n) = ∑ c : Fin 2, ∑ t : Fin 4, ∑ n : Fin 1024, Q (rowOf (tileOf c t) n) :=
    LibBlockSum.sum_blocks 2 4 (fun b => ∑ n : Fin 1024, Q (rowOf b n))
  exact h1.trans h2

omit Wr in
/-- The reference's numerator as a sum over examples. -/
theorem ref_real (W : Fin 2 → Fin 96 → Fin 96 → ℝ) :
    (∑ n : Fin 8192, ∑ i : Fin 96, ∑ j : Fin 96, pLag (E n) i j * W 0 i j)
      + (∑ n : Fin 8192, ∑ i : Fin 96, ∑ j : Fin 96, pLag (E n) i j * pLag (E n) i j * W 1 i j)
      = ∑ n : Fin 8192, pRef (E n) W := by
  unfold pRef
  simp only [Finset.sum_add_distrib]

omit Wr in
/-- A core's total as the sum of its examples' shares. -/
theorem core_real (c : Fin 2) (W : Fin 2 → Fin 96 → Fin 96 → ℝ) :
    rCore (fun i k => ∑ t : Fin 4, ∑ n : Fin 1024, pAbs (E (rowOf (tileOf c t) n)) i k)
        (fun i k => ∑ t : Fin 4, ∑ n : Fin 1024, pGram (E (rowOf (tileOf c t) n)) i k) (rWf W)
      = ∑ t : Fin 4, ∑ n : Fin 1024, pRef (E (rowOf (tileOf c t) n)) W := by
  refine (rCore_sum Finset.univ (fun (t : Fin 4) i k => ∑ n : Fin 1024, pAbs (E (rowOf (tileOf c t) n)) i k)
    (fun (t : Fin 4) i k => ∑ n : Fin 1024, pGram (E (rowOf (tileOf c t) n)) i k) (rWf W)).trans ?_
  refine Finset.sum_congr rfl fun t _ => ?_
  refine (rCore_sum Finset.univ (fun (n : Fin 1024) i k => pAbs (E (rowOf (tileOf c t) n)) i k)
    (fun (n : Fin 1024) i k => pGram (E (rowOf (tileOf c t) n)) i k) (rWf W)).trans ?_
  exact Finset.sum_congr rfl fun n _ => rCore_example _ W

/-! ## The two statements -/

omit E Wr in
/-- With every input a real number, the kernel's arrangement of the loss is the reference's. -/
theorem ker_eq_ref (yt yp : SY.Idx → EReal) (w : SW.Idx → EReal) (hyt : AllReal yt) (hyp : AllReal yp) (hw : AllReal w) :
    kerLoss yt yp w = refLoss yt yp w := by
  have hyt' : ∀ x, ∃ r : ℝ, yt x = (r : EReal) := hyt
  have hyp' : ∀ x, ∃ r : ℝ, yp x = (r : EReal) := hyp
  have hw' : ∀ x, ∃ r : ℝ, w x = (r : EReal) := hw
  choose Yt hYt using hyt'
  choose Yp hYp using hyp'
  choose Wr hWr using hw'
  obtain rfl : yt = fun x => ((Yt x : ℝ) : EReal) := funext hYt
  obtain rfl : yp = fun x => ((Yp x : ℝ) : EReal) := funext hYp
  obtain rfl : w = fun x => ((Wr x : ℝ) : EReal) := funext hWr
  obtain ⟨E, hE⟩ : ∃ E : Fin 8192 → Fin 96 → ℝ,
      err (fun x => ((Yt x : ℝ) : EReal)) (fun x => ((Yp x : ℝ) : EReal)) = fun n i => ((E n i : ℝ) : EReal) :=
    ⟨fun n i => Yt (ix2 n i) - Yp (ix2 n i), by funext n i; rfl⟩
  unfold kerLoss refLoss
  rw [hE]
  refine congrArg (fun z => Ideal.div z scale) ?_
  rw [accAbs_coe, accGram_coe, accAbs_coe, accGram_coe, wfull_coe, coreTotal_coe, coreTotal_coe, ← EReal.coe_add]
  simp only [lagDiff_coe, ← EReal.coe_mul, coe_sum, ← EReal.coe_add]
  refine congrArg (fun r : ℝ => (r : EReal)) ?_
  rw [core_real, core_real]
  refine Eq.trans ?_ (ref_real E (fun p i j => Wr (ix3 p i j))).symm
  rw [sum_examples, Fin.sum_univ_two]

omit E Wr in
/-- The kernel's value read off its output array: the array holds the two cores' totals at rows 0 and 8 of
    column 0 and zeros elsewhere, so its sum from the zero word is their sum. -/
theorem kerLossOf_eq (T : Fin 2 → EReal) : kerLossOf T = Ideal.div (T 0 + T 1) scale := by
  unfold kerLossOf
  rw [Ideal.ofBits_zero_f32, zero_add, sum_idx2]
  refine congrArg (fun z => Ideal.div z scale) ?_
  have hcol : ∀ a : Fin 16, ∑ b : Fin 128, outArr T (ix2 a b) = outArr T (ix2 a (0 : Fin 128)) := by
    intro a
    refine Finset.sum_eq_single_of_mem (0 : Fin 128) (Finset.mem_univ _) fun b _ hb => ?_
    unfold outArr
    rw [if_neg]
    rintro ⟨h, _⟩
    exact hb (Fin.ext h)
  rw [Finset.sum_congr rfl fun a _ => hcol a]
  rw [← Finset.sum_subset (Finset.subset_univ ({0, 8} : Finset (Fin 16)))]
  · rw [Finset.sum_pair (by decide)]
    have h0 : outArr T (ix2 (0 : Fin 16) (0 : Fin 128)) = T 0 := by
      unfold outArr
      rw [if_pos (by decide)]
      rfl
    have h8 : outArr T (ix2 (8 : Fin 16) (0 : Fin 128)) = T 1 := by
      unfold outArr
      rw [if_pos (by decide)]
      rfl
    rw [h0, h8]
  · intro a _ ha
    unfold outArr
    rw [if_neg]
    rintro ⟨_, h⟩
    have h' : a.val % 8 = 0 := h
    have ha' : a = 0 ∨ a = 8 := by
      rcases (by omega : a.val = 0 ∨ a.val = 8) with h1 | h1
      · exact Or.inl (Fin.ext h1)
      · exact Or.inr (Fin.ext h1)
    exact ha (by rcases ha' with rfl | rfl <;> simp)

end Cert.LossAlgebra

end
-- ==== Proof.HostTail.lean ====
/-
  What the host computes from the kernel's [16, 128] output array after the region.

  The program ends with two host operations: a sum of every entry of the output array, started from the f32
  zero, and a division of that sum by the f32 word of 786432 = 96 · 8192. At the extended reals the sum over
  both axes is the initial value plus the sum over all 16 · 128 indices, and the division is the exact one.
  So when the region leaves the array with core c's total at row 8·c, column 0, and zeros elsewhere, the
  program's result is (0 + Σ_y out(y)) / 786432, which is the specification's value read off that array.
-/
import proofs.«124193_j68049461838564_2_alg».proof.Proof.Gen.KernelIdeal.Frame
import proofs.«124193_j68049461838564_2_alg».proof.Proof.LossSpec
import Idealize.ShloMosaic.PureOps.Ideal.Laws
import Idealize.ShloMosaic.Lib.StableHlo.Run

set_option maxRecDepth 16384

noncomputable section

namespace Cert.HostTail

open Idealize.ShloMosaic Idealize.ShloMosaic.TcCoe Idealize.SL.Sem
open Idealize.ShloMosaic.ValueIdx
open Cert.KernelIdeal Cert.KernelIdeal.Gen

/-- The program's result from the output array the region leaves: if that array is `outArr T` (the two cores'
    totals T 0 and T 1 at rows 0 and 8 of column 0, zeros elsewhere), the scalar the host returns is
    (0 + Σ_y outArr T y) / 786432. The sum over both axes into the rank-0 shape is the total sum, and the
    output array is the pipeline's fourth array, which the host operations after the region only read. -/
theorem tail_value (m : (ℓ : Loc nD τ sig) → Buf (Elt Ideal) ℓ) (c : Dev nD) (T : Fin 2 → EReal)
    (hfinal : ((Gen.dats m 0 c).arrAt 3 cfg0.N : S16x128.Idx → EReal) = Cert.LossSpec.outArr T) :
    (Pipeline.afterTail₀ cfgs (Gen.dats m) 0 (Gen.V0 m) [Gen.hostOps1] c main_v17 : S_.Idx → EReal)
      = fun _ => Cert.LossSpec.kerLossOf T := by
  unfold Pipeline.afterTail₀
  show StableHlo.after Gen.hostOps1 _ (Proc.devRef .tc main_v17) = _
  after_results
  -- the array the two operations read is the region's output array
  have hw : (Pipeline.withArrays (cfgs 0).spec c (V0 m c) (fun w => (dats m 0 c).arrAt w (cfgs 0).N)
      (Proc.devRef .tc main_v15) : S16x128.Idx → EReal) = Cert.LossSpec.outArr T :=
    (Pipeline.withArrays_arr spec0 launch0.win.arr_inj c _ _ 3).trans hfinal
  rw [hw]
  funext j
  simp only [Host.divf, Host.reduceAdd, constant, Ideal.hostDivf_def, Ideal.hostReduceAdd_def, Ideal.ofBits_def]
  -- a sum over every axis is the initial value plus the sum over all indices
  rw [Ideal.hostReduceAdd_total _ (fun b => b.elim0)]
  rfl

end Cert.HostTail

end
-- ==== Proof.OutputArray.lean ====
/-
  The kernel's [16, 128] result array after the region, from what the two flushing points leave in the output's
  staging block. The output's index map sends point t to block (core, 0), core = t / 4: rows 8 · core … 8 · core + 7.
  The block is written back exactly at the last tile of each core (t % 4 = 3: points 3 and 7); at the other points
  it is left untouched and not written back. If each flushing point leaves its core's total at entry (0, 0) of the
  block and zeros elsewhere, the array ends with core c's total at row 8 · c, column 0, and zeros elsewhere: the
  two blocks cover the sixteen rows.
-/
import proofs.«124193_j68049461838564_2_alg».proof.Proof.Gen.KernelIdeal.Frame
import proofs.«124193_j68049461838564_2_alg».proof.Proof.LossSpec
import Idealize.ShloMosaic.Lib.Pipeline.Value
import Idealize.ShloMosaic.Lib.ValueIdx

noncomputable section

namespace Cert.KernelIdeal.OutputArray

open Cert.KernelIdeal Cert.KernelIdeal.Gen Idealize.ShloMosaic Idealize.ShloMosaic.ValueIdx
  Idealize.ShloMosaic.TcCoe Idealize.SL.Sem Cert.LossSpec
open Idealize.ShloMosaic.Pipeline (Dat)

variable (m : (ℓ : Loc nD τ sig) → Buf (Elt Ideal) ℓ)

/-- The output's printed index map, decided over the grid: at point t the block is (core, 0) with
    core = t / 4, that is rows 8 · core … 8 · core + 7 of the [16, 128] result. -/
theorem out_idx : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

/-- An index of the result array is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v15).slice (win0_3.rect t)).set ↔ _
  rw [View.set_slice_whole, Rect.mem_set_unit]
  exact Iff.rfl

/-- What a flushing point writes back is its block of the array that holds core c's total at row 8 · c,
    column 0, and zeros elsewhere — given that the point leaves, in the output's staging block, its core's
    total at entry (0, 0) and zeros elsewhere. -/
theorem flushed_eq (c : Dev nD) (T : Fin 2 → EReal)
    (h : ∀ t : Fin cfg0.N, t.val % 4 = 3 → ((outsAt0 m c t.val t.isLt).1 : S8x128.Idx → EReal)
      = fun y => if (y 0).val = 0 ∧ (y 1).val = 0 then T (if t.val = 3 then 0 else 1) else 0)
    (t : Fin cfg0.N) (hf : (cfg0.win 3).flush t = true) :
    (dats m 0 c).flushed 3 t = ((cfg0.win 3).blk t).view.read (Elt Ideal) (outArr T) := by
  have h3 : t.val % 4 = 3 := (flush0_3 t).mp hf
  have hN : t.val < 8 := lt_of_lt_of_eq t.isLt (show cfg0.N = 8 from N_0)
  obtain ⟨e0, e1⟩ := out_idx t
  show (cfg0.win 3).cut (grid0.coords t) ((dats m 0 c).after 3 t) = _
  rw [after0_3, h t h3]
  funext y
  have hy0 : (y 0).val < 8 := (y 0).isLt
  have hy1 : (y 1).val < 128 := (y 1).isLt
  have he0 : ((((cfg0.win 3).blk t).view.emb y) 0).val = win0_3.index t (0 : Fin 2) * 8 + 1 * (y 0).val := rfl
  have he1 : ((((cfg0.win 3).blk t).view.emb y) 1).val = win0_3.index t (1 : Fin 2) * 128 + 1 * (y 1).val := rfl
  show (if (y 0).val = 0 ∧ (y 1).val = 0 then T (if t.val = 3 then 0 else 1) else 0)
      = outArr T (((cfg0.win 3).blk t).view.emb y)
  unfold outArr
  have k0 : ((((cfg0.win 3).blk t).view.emb y) 0).val = t.val / 4 * 8 + (y 0).val := by rw [he0, e0]; omega
  have k1 : ((((cfg0.win 3).blk t).view.emb y) 1).val = (y 1).val := by rw [he1, e1]; omega
  by_cases hc : (y 0).val = 0 ∧ (y 1).val = 0
  · have hcond : ((((cfg0.win 3).blk t).view.emb y) 1).val = 0
        ∧ ((((cfg0.win 3).blk t).view.emb y) 0).val % 8 = 0 := by rw [k0, k1]; omega
    rw [if_pos hc, if_pos hcond]
    refine congrArg T (Fin.ext ?_)
    show (if t.val = 3 then (0 : Fin 2) else 1).val = ((((cfg0.win 3).blk t).view.emb y) 0).val / 8
    rw [k0]
    by_cases h33 : t.val = 3
    · rw [if_pos h33]; show 0 = _; omega
    · rw [if_neg h33]; show 1 = _; omega
  · have hcond : ¬(((((cfg0.win 3).blk t).view.emb y) 1).val = 0
        ∧ ((((cfg0.win 3).blk t).view.emb y) 0).val % 8 = 0) := by rw [k0, k1]; omega
    rw [if_neg hc, if_neg hcond]

/-- The result array after the region: core c's total at row 8 · c, column 0, and zeros elsewhere. Point 3
    writes back rows 0–7 and point 7 rows 8–15, so every row is covered by a flushing point. -/
theorem out_array (c : Dev nD) (T : Fin 2 → EReal)
    (h : ∀ t : Fin cfg0.N, t.val % 4 = 3 → ((outsAt0 m c t.val t.isLt).1 : S8x128.Idx → EReal)
      = fun y => if (y 0).val = 0 ∧ (y 1).val = 0 then T (if t.val = 3 then 0 else 1) else 0) :
    ((dats m 0 c).arrAt 3 cfg0.N : S16x128.Idx → EReal) = outArr T :=
  (dats m 0 c).arrAt_eq_of_cover 3 (outArr T) (flushed_eq m c T h) fun i => by
    have hi0 : (i 0).val < 16 := (i 0).isLt
    have hi1 : (i 1).val < 128 := (i 1).isLt
    have hlt : 4 * ((i 0).val / 8) + 3 < cfg0.N := by rw [show cfg0.N = 8 from N_0]; omega
    obtain ⟨e0, e1⟩ := out_idx ⟨4 * ((i 0).val / 8) + 3, hlt⟩
    refine ⟨⟨4 * ((i 0).val / 8) + 3, hlt⟩, (flush0_3 _).mpr (by show (4 * ((i 0).val / 8) + 3) % 4 = 3; omega), ?_⟩
    rw [mem_blk]
    intro a
    match a with
    | ⟨0, _⟩ =>
      show win0_3.index ⟨4 * ((i 0).val / 8) + 3, hlt⟩ (0 : Fin 2) * 8 ≤ (i 0).val
        ∧ (i 0).val < win0_3.index ⟨4 * ((i 0).val / 8) + 3, hlt⟩ (0 : Fin 2) * 8 + 8
      rw [e0]; show (4 * ((i 0).val / 8) + 3) / 4 * 8 ≤ _ ∧ _ < (4 * ((i 0).val / 8) + 3) / 4 * 8 + 8; omega
    | ⟨1, _⟩ =>
      show win0_3.index ⟨4 * ((i 0).val / 8) + 3, hlt⟩ (1 : Fin 2) * 128 ≤ (i 1).val
        ∧ (i 1).val < win0_3.index ⟨4 * ((i 0).val / 8) + 3, hlt⟩ (1 : Fin 2) * 128 + 128
      rw [e1]; omega

end Cert.KernelIdeal.OutputArray

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«124193_j68049461838564_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.BodyPayloads.lean ====
/-
  The kernel body's pure values read at an entry over the extended reals: the Gram update of a tile, the zero
  fills of the two scratch matrices, the scalar fill of the output block, and the total a core forms at its last
  tile from its row sums, its Gram matrix and the weights.
-/
import proofs.«124193_j68049461838564_2_alg».proof.Proof.Gen.KernelIdeal.Skeleton
import proofs.«124193_j68049461838564_2_alg».proof.Proof.LossSpec
import proofs.«124193_j68049461838564_2_alg».proof.Proof.LibMatmul
import proofs.«124193_j68049461838564_2_alg».proof.Proof.LibColumns
import proofs.«124193_j68049461838564_2_alg».proof.Proof.LibRowSums
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
import Idealize.ShloMosaic.Lib.KernelVsHost

set_option maxRecDepth 16384

noncomputable section

namespace Cert.KernelIdeal.BodyPayloads

open Idealize.ShloMosaic Idealize.ShloMosaic.ValueIdx Cert.KernelIdeal Cert.KernelIdeal.Gen Cert.LossSpec

/-! ## The Gram update, the zero fills and the scalar fill -/

/-- A tile's Gram update at entry (i, k): the old entry plus the sum over the tile's 1024 examples of e_i · e_k. -/
theorem gram_apply (e : FVec Ideal S1024x96 .f32) (old : Vec Ideal S96x96 .f32) (i k : Fin 96) :
    k0_pay2 (F := Ideal) e old (ix2 i k) = old (ix2 i k) + ∑ n : Fin 1024, e (ix2 n i) * e (ix2 n k) := by
  unfold k0_pay2
  rw [shapeCast_self]
  refine congrArg (fun z => old (ix2 i k) + z) ?_
  refine (Cert.LibMatmul.plain_matmul_zero_apply (A := 96) (K := 1024) (B := 96) (some .fp32)
    (transpose S96x1024 [1, 0] e transposes_S1024x96_p1_0_S96x1024) e i k).trans ?_
  exact Finset.sum_congr rfl fun n _ => by rw [transpose_ix2_apply]

/-- The row-sum scratch is filled with zeros. -/
theorem zero96 : (k0_pay5 (F := Ideal) : S96x96.Idx → EReal) = fun _ => 0 := by
  show shapeCast S96x96 (broadcast S96x96 (Ideal.ofBits .f32 0x00000000#32)) shapeCasts_S96x96_S96x96 = _
  rw [shapeCast_self, Ideal.ofBits_zero_f32]
  rfl

/-- The Gram scratch is filled with zeros. -/
theorem zero96' : (k0_pay6 (F := Ideal) : S96x96.Idx → EReal) = fun _ => 0 := by
  show shapeCast S96x96 (broadcast S96x96 (Ideal.ofBits .f32 0x00000000#32)) shapeCasts_S96x96_S96x96 = _
  rw [shapeCast_self, Ideal.ofBits_zero_f32]
  rfl

/-- The output block is filled with one scalar. -/
theorem fill_apply (c : Ideal .f32) : k0_pay3 (F := Ideal) c = fun _ => c := rfl

/-! ## The pieces of a core's total -/

/-- Two words of positions below 96 are equal exactly when the positions are. -/
theorem ofNat32_inj {a b : ℕ} (ha : a < 96) (hb : b < 96) : BitVec.ofNat 32 a = BitVec.ofNat 32 b ↔ a = b := by
  constructor
  · intro h
    have h' := congrArg BitVec.toNat h
    rw [BitVec.toNat_ofNat, BitVec.toNat_ofNat] at h'
    omega
  · rintro rfl; rfl

/-- The source index a sum along axis 0 inserts over column k at coordinate n is (n, k). -/
theorem lift_col {a b : ℕ} (h : (⟨2, ![a, b]⟩ : Shape).Reduces [0] ⟨1, ![b]⟩) (k : Fin b) (n : Fin a) :
    h.lift (ix1 k) n = ix2 n k := by
  funext c
  apply Fin.ext
  match c with
  | ⟨0, _⟩ => rfl
  | ⟨1, _⟩ => rfl

/-- The identity matrix as the kernel builds it, from the comparison of the row and column coordinates. -/
theorem eye_apply (i k : Fin 96) :
    (sitofp .f32 (extui 32 (cmpi .eq (iota .tc S96x96 32 [0] iota_S96x96_d0_w32) (iota .tc S96x96 32 [1] iota_S96x96_d1_w32))
      natLt_1_32) : FVec Ideal S96x96 .f32) (ix2 i k) = eye i k := by
  rw [sitofp_extui_eq_uitofp]
  show (((IntOp.cmpi .eq (iota .tc S96x96 32 [0] iota_S96x96_d0_w32 (ix2 i k))
    (iota .tc S96x96 32 [1] iota_S96x96_d1_w32 (ix2 i k))).toNat : ℝ) : EReal) = _
  rw [iota_single_apply, iota_single_apply]
  show (((IntOp.cmpi .eq (BitVec.ofNat 32 i.val) (BitVec.ofNat 32 k.val)).toNat : ℝ) : EReal) = _
  unfold eye
  by_cases h : i = k
  · rw [if_pos h, IntOp.cmpi_eq.mpr (by rw [h])]
    simp
  · have h0 : IntOp.cmpi .eq (BitVec.ofNat 32 i.val) (BitVec.ofNat 32 k.val) = 0#1 :=
      eq_zero_of_ne_one fun h1 => h (Fin.ext ((ofNat32_inj i.isLt k.isLt).mp (IntOp.cmpi_eq.mp h1)))
    rw [if_neg h, h0]
    simp

/-- The sum of all entries of a [96, 96] matrix as the kernel takes it: each row summed along the lanes and kept
    as a column, then the column summed. -/
theorem total_apply (M : FVec Ideal S96x96 .f32) :
    shapeCast S1x1 (multiReduction .add [0] S1
        (shapeCast S96x1 (multiReduction .add [1] S96 M 0x00000000#32 reduces_S96x96_S96 (.inl rfl) rfl) shapeCasts_S96_S96x1)
        0x00000000#32 reduces_S96x1_S1 (.inl rfl) rfl) shapeCasts_S1_S1x1 (ix2 (0 : Fin 1) (0 : Fin 1))
      = ∑ i : Fin 96, ∑ k : Fin 96, M (ix2 i k) := by
  rw [shapeCast_a_1a_apply]
  refine (Ideal.multiReduction_add_single _ _ reduces_S96x1_S1 _ _ (ix1 (0 : Fin 1))).trans ?_
  show (∑ i : Fin 96, _) = _
  refine Finset.sum_congr rfl fun (i : Fin 96) _ => ?_
  rw [lift_col reduces_S96x1_S1 (0 : Fin 1) i]
  exact Cert.LibRowSums.laneSum_apply M _ reduces_S96x96_S96 _ _ shapeCasts_S96_S96x1 i 0

/-- The row sums of a [96, 96] matrix kept as a column. -/
theorem rowSum_apply (M : FVec Ideal S96x96 .f32) (i : Fin 96) (u : Fin 1) :
    shapeCast S96x1 (multiReduction .add [1] S96 M 0x00000000#32 reduces_S96x96_S96 (.inl rfl) rfl) shapeCasts_S96_S96x1
        (ix2 i u) = ∑ k : Fin 96, M (ix2 i k) :=
  Cert.LibRowSums.laneSum_apply M _ reduces_S96x96_S96 _ _ shapeCasts_S96_S96x1 i u

/-- The column sums of a [96, 96] matrix kept as a row. -/
theorem colSum_apply (M : FVec Ideal S96x96 .f32) (u : Fin 1) (k : Fin 96) :
    shapeCast S1x96 (multiReduction .add [0] S96 M 0x00000000#32 reduces_S96x96_S96_2 (.inl rfl) rfl) shapeCasts_S96_S1x96
        (ix2 u k) = ∑ i : Fin 96, M (ix2 i k) := by
  rw [shapeCast_a_1a_apply]
  refine (Ideal.multiReduction_add_single _ _ reduces_S96x96_S96_2 _ _ (ix1 k)).trans ?_
  show (∑ i : Fin 96, _) = _
  exact Finset.sum_congr rfl fun (i : Fin 96) _ => congrArg M (lift_col reduces_S96x96_S96_2 k i)

/-- The weights of power p as a [96, 96] matrix: the slice [p, 0, 0] of the [2, 96, 96] block, its unit axis dropped. -/
theorem slice_apply (o : ℕ) (x : Vec Ideal S2x96x96 .f32) (hs : S2x96x96.Slices ![o, 0, 0] S1x96x96) (p : Fin 2)
    (hp : p.val = o) (i k : Fin 96) :
    shapeCast S96x96 (extractStridedSlice S1x96x96 ![o, 0, 0] x hs) shapeCasts_S1x96x96_S96x96 (ix2 i k) = x (ix3 p i k) := by
  rw [shapeCast_1ab_ab_apply]
  refine extractStridedSlice_apply _ x hs _ (ix3 p i k) fun a => ?_
  match a with
  | ⟨0, _⟩ => exact hp
  | ⟨1, _⟩ => exact (Nat.zero_add _).symm
  | ⟨2, _⟩ => exact (Nat.zero_add _).symm

/-! ## A core's total -/

/-- What a core forms at its last tile, read at its one entry: the total of LossSpec.coreTotal over the core's row
    sums S, its Gram matrix G and the weight block. -/
theorem final_apply (x2 : Vec Ideal S2x96x96 .f32) (S G : Vec Ideal S96x96 .f32) :
    k0_pay4 (F := Ideal) x2 S G (ix2 (0 : Fin 1) (0 : Fin 1))
      = coreTotal (fun i k => S (ix2 i k)) (fun i k => G (ix2 i k)) (fun p i k => x2 (ix3 p i k)) := by
  unfold k0_pay4 coreTotal
  rw [addf_apply, addf_apply, total_apply, total_apply, total_apply, shapeCast_self]
  refine congrArg₂ (· + ·) ?_ (congrArg₂ (· + ·) ?_ ?_)
  · refine Finset.sum_congr rfl fun i _ => Finset.sum_congr rfl fun k _ => ?_
    rw [mulf_apply, slice_apply 0 x2 _ (0 : Fin 2) rfl]
  · refine Finset.sum_congr rfl fun i _ => Finset.sum_congr rfl fun k _ => ?_
    rw [mulf_apply, subf_apply, addf_apply, mulf_apply, slice_apply 1 x2 _ (1 : Fin 2) rfl,
      Cert.LibColumns.broadcastTo_a1_ab_apply, broadcastTo_1b_ab_apply, colSum_apply,
      rowSum_apply]
    refine congrArg₂ (· * ·) (congrArg₂ (· - ·) (congrArg₂ (· + ·)
      (Finset.sum_congr rfl fun k' _ => ?_) (Finset.sum_congr rfl fun i' _ => ?_)) rfl) rfl
    · rw [mulf_apply, eye_apply]
    · rw [mulf_apply, eye_apply]
  · refine Finset.sum_congr rfl fun i _ => Finset.sum_congr rfl fun k _ => ?_
    rw [mulf_apply, mulf_apply, eye_apply, slice_apply 1 x2 _ (1 : Fin 2) rfl]

end Cert.KernelIdeal.BodyPayloads

end
-- ==== Proof.RowStep.lean ====
/-
  One step of the kernel's unrolled loop over positions, as one function of the position r.

  With e the [1024, 96] block of errors, step r adds to row r of the row-sum scratch the column sums over the
  block's 1024 examples of |e(n,r) - e(n,k)|, with |e(n,r)| in column k = r. Each of the kernel's 96 row
  payloads is this function at its own r, so one reading at an entry serves them all.
-/
import proofs.«124193_j68049461838564_2_alg».proof.Proof.Gen.KernelIdeal.Skeleton
import proofs.«124193_j68049461838564_2_alg».proof.Proof.LossSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

set_option maxRecDepth 16384

noncomputable section

namespace Cert.KernelIdeal.RowStep

open Idealize.ShloMosaic Idealize.ShloMosaic.ValueIdx Cert.KernelIdeal Cert.KernelIdeal.Facts₀ Cert.LossSpec

variable {F : FTy → Type} [FloatOps F]

/-- Step r: old row plus the column sums of the masked absolute differences against column r. -/
def rowStep (r : ℕ) (hs : S1024x96.Slices ![0, r] S1024x1) (e : FVec F S1024x96 .f32) (col : IVec S1024x96 32)
    (old : Vec F S1x96 .f32) : FVec F S1x96 .f32 :=
  have v41 : FVec F S1024x1 .f32 := extractStridedSlice S1024x1 ![0, r] e hs
  have v42 : FVec F S1024x1 .f32 := absf v41
  have v43 : FVec F S1024x96 .f32 := broadcastTo S1024x96 v41 broadcasts_S1024x1_S1024x96
  have v44 : FVec F S1024x96 .f32 := subf v43 e
  have v45 : FVec F S1024x96 .f32 := absf v44
  have v46 : IVec S1024x96 32 := broadcast S1024x96 (BitVec.ofNat 32 r)
  have v47 : IVec S1024x96 1 := cmpi .eq col v46
  have v48 : FVec F S1024x1 .f32 := shapeCast S1024x1 v42 shapeCasts_S1024x1_S1024x1
  have v49 : FVec F S1024x96 .f32 := broadcastTo S1024x96 v48 broadcasts_S1024x1_S1024x96
  have v50 : FVec F S1024x96 .f32 := select v47 v49 v45
  have v51 : FVec F S96 .f32 := multiReduction .add [0] S96 v50 0x00000000#32 reduces_S1024x96_S96 (.inl rfl) rfl
  have v52 : FVec F S1x96 .f32 := shapeCast S1x96 v51 shapeCasts_S96_S1x96
  have v54 : FVec F S1x96 .f32 := addf old v52
  have v57 : FVec F S1x96 .f32 := shapeCast S1x96 v54 shapeCasts_S1x96_S1x96
  v57

/-- Two words of small naturals are equal exactly when the naturals are. -/
theorem ofNat32_inj {a b : ℕ} (ha : a < 96) (hb : b < 96) : BitVec.ofNat 32 a = BitVec.ofNat 32 b ↔ a = b := by
  constructor
  · intro h
    have h' := congrArg BitVec.toNat h
    rw [BitVec.toNat_ofNat, BitVec.toNat_ofNat] at h'
    omega
  · rintro rfl; rfl

/-- A select on the comparison of two small words is a choice on the equality of the naturals. -/
theorem select_eq_word {α : Type} (a b : ℕ) (ha : a < 96) (hb : b < 96) (x y : α) :
    Scalar.select (IntOp.cmpi .eq (BitVec.ofNat 32 a) (BitVec.ofNat 32 b)) x y = if a = b then x else y := by
  unfold Scalar.select
  exact if_congr (IntOp.cmpi_eq.trans (ofNat32_inj ha hb)) rfl rfl

/-- The source index a sum along axis 0 inserts over column k at coordinate n is (n, k). -/
theorem lift_col {a b : ℕ} (h : (⟨2, ![a, b]⟩ : Shape).Reduces [0] ⟨1, ![b]⟩) (k : Fin b) (n : Fin a) :
    h.lift (ix1 k) n = ix2 n k := by
  funext c
  apply Fin.ext
  match c with
  | ⟨0, _⟩ => rfl
  | ⟨1, _⟩ => rfl

/-- A column broadcast across the columns reads its own entry of the row. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Step r read at column k over the extended reals. -/
theorem rowStep_apply (r : Fin 96) (hs : S1024x96.Slices ![0, r.val] S1024x1) (e : FVec Ideal S1024x96 .f32)
    (old : Vec Ideal S1x96 .f32) (k : Fin 96) :
    rowStep (F := Ideal) r.val hs e (iota .tc S1024x96 32 [1] iota_S1024x96_d1_w32) old (ix2 (0 : Fin 1) k)
      = old (ix2 (0 : Fin 1) k)
        + ∑ n : Fin 1024, (if k = r then eabs (e (ix2 n r)) else eabs (e (ix2 n r) - e (ix2 n k))) := by
  unfold rowStep
  rw [shapeCast_self]
  refine congrArg (fun z => old (ix2 (0 : Fin 1) k) + z) ?_
  rw [shapeCast_a_1a_apply]
  refine (Ideal.multiReduction_add_single _ _ reduces_S1024x96_S96 _ _ (ix1 k)).trans ?_
  show (∑ n : Fin 1024, _) = _
  refine Finset.sum_congr rfl fun (n : Fin 1024) _ => ?_
  rw [lift_col reduces_S1024x96_S96 k n, select_apply]
  have hmask : (cmpi .eq (iota .tc S1024x96 32 [1] iota_S1024x96_d1_w32) (broadcast S1024x96 (BitVec.ofNat 32 r.val))) (ix2 n k)
      = IntOp.cmpi .eq (BitVec.ofNat 32 k.val) (BitVec.ofNat 32 r.val) := by
    show IntOp.cmpi .eq (iota .tc S1024x96 32 [1] iota_S1024x96_d1_w32 (ix2 n k)) _ = _
    rw [iota_single_apply]; rfl
  have hcol : ∀ q : Fin 1, (extractStridedSlice S1024x1 ![0, r.val] e hs) (ix2 n q) = e (ix2 n r) := fun q =>
    slice2_axis1_apply r.val e hs n q r (by have := q.isLt; omega)
  rw [hmask, select_eq_word _ _ k.isLt r.isLt, bcast_col, shapeCast_self]
  have h1 : absf (extractStridedSlice S1024x1 ![0, r.val] e hs) (ix2 n (0 : Fin 1)) = eabs (e (ix2 n r)) := by
    show FloatOps.absf ((extractStridedSlice S1024x1 ![0, r.val] e hs) (ix2 n (0 : Fin 1))) = _
    rw [hcol]; rfl
  have h2 : absf (subf (broadcastTo S1024x96 (extractStridedSlice S1024x1 ![0, r.val] e hs) broadcasts_S1024x1_S1024x96) e) (ix2 n k)
      = eabs (e (ix2 n r) - e (ix2 n k)) := by
    show FloatOps.absf ((broadcastTo S1024x96 (extractStridedSlice S1024x1 ![0, r.val] e hs) broadcasts_S1024x1_S1024x96) (ix2 n k) - e (ix2 n k)) = _
    rw [bcast_col, hcol]; rfl
  rw [h1, h2]
  by_cases hkr : k = r
  · rw [if_pos hkr, if_pos (congrArg Fin.val hkr)]
  · rw [if_neg hkr, if_neg (fun h => hkr (Fin.ext h))]

end Cert.KernelIdeal.RowStep

end
-- ==== Proof.RowPayloads.lean ====
/-
  The kernel's 96 row payloads, each read at an entry over the extended reals: payload r, applied to the block of
  errors e and the old contents of row r of the row-sum scratch, is the old row plus the column sums of
  |e(n,r) - e(n,k)| over the block's examples, with |e(n,r)| in column k = r. Each is the generic step of the
  unrolled loop at its own position, which the payload's definition unfolds to.
-/
import proofs.«124193_j68049461838564_2_alg».proof.Proof.RowStep

set_option maxRecDepth 16384

noncomputable section

namespace Cert.KernelIdeal.RowPayloads

open Idealize.ShloMosaic Idealize.ShloMosaic.ValueIdx Cert.KernelIdeal Cert.KernelIdeal.Gen
open Cert.LossSpec Cert.KernelIdeal.RowStep

/-- Row r of one tile's row sums: Σ_n |e(n,r) - e(n,k)|, with |e(n,r)| at k = r. -/
def rowSum (e : FVec Ideal S1024x96 .f32) (r k : Fin 96) : EReal :=
  ∑ n : Fin 1024, (if k = r then eabs (e (ix2 n r)) else eabs (e (ix2 n r) - e (ix2 n k)))

theorem row0 (x0 x1 : Vec Ideal S1024x96 .f32) (old : Vec Ideal S1x96 .f32) (k : Fin 96) :
    (k0_pay8 x0 x1 old) (ix2 (0 : Fin 1) k) = old (ix2 (0 : Fin 1) k) + rowSum (k0_pay7 x0 x1) ⟨0, by omega⟩ k :=
  rowStep_apply ⟨0, by omega⟩ slices_S1024x96_o0_0_S1024x1 (k0_pay7 x0 x1) old k

theorem row1 (x0 x1 : Vec Ideal S1024x96 .f32) (old : Vec Ideal S1x96 .f32) (k : Fin 96) :
    (k0_pay10 (k0_pay9 x0 x1 old)) (ix2 (0 : Fin 1) k) = old (ix2 (0 : Fin 1) k) + rowSum (k0_pay7 x0 x1) ⟨1, by omega⟩ k :=
  rowStep_apply ⟨1, by omega⟩ slices_S1024x96_o0_1_S1024x1 (k0_pay7 x0 x1) old k

theorem row2 (e : FVec Ideal S1024x96 .f32) (old : Vec Ideal S1x96 .f32) (k : Fin 96) :
    (k0_pay11 e (iota .tc S1024x96 32 [1] iota_S1024x96_d1_w32) old) (ix2 (0 : Fin 1) k) = old (ix2 (0 : Fin 1) k) + rowSum e ⟨2, by omega⟩ k :=
  rowStep_apply ⟨2, by omega⟩ slices_S1024x96_o0_2_S1024x1 e old k

theorem row3 (e : FVec Ideal S1024x96 .f32) (old : Vec Ideal S1x96 .f32) (k : Fin 96) :
    (k0_pay12 e (iota .tc S1024x96 32 [1] iota_S1024x96_d1_w32) old) (ix2 (0 : Fin 1) k) = old (ix2 (0 : Fin 1) k) + rowSum e ⟨3, by omega⟩ k :=
  rowStep_apply ⟨3, by omega⟩ slices_S1024x96_o0_3_S1024x1 e old k

theorem row4 (e : FVec Ideal S1024x96 .f32) (old : Vec Ideal S1x96 .f32) (k : Fin 96) :
    (k0_pay17 (k0_pay14 e) (k0_pay15 e) (k0_pay16 (iota .tc S1024x96 32 [1] iota_S1024x96_d1_w32)) old) (ix2 (0 : Fin 1) k) = old (ix2 (0 : Fin 1) k) + rowSum e ⟨4, by omega⟩ k :=
  rowStep_apply ⟨4, by omega⟩ slices_S1024x96_o0_4_S1024x1 e old k

theorem row5 (e : FVec Ideal S1024x96 .f32) (old : Vec Ideal S1x96 .f32) (k : Fin 96) :
    (k0_pay18 e (iota .tc S1024x96 32 [1] iota_S1024x96_d1_w32) old) (ix2 (0 : Fin 1) k) = old (ix2 (0 : Fin 1) k) + rowSum e ⟨5, by omega⟩ k :=
  rowStep_apply ⟨5, by omega⟩ slices_S1024x96_o0_5_S1024x1 e old k

theorem row6 (e : FVec Ideal S1024x96 .f32) (old : Vec Ideal S1x96 .f32) (k : Fin 96) :
    (k0_pay20 (k0_pay19 e (iota .tc S1024x96 32 [1] iota_S1024x96_d1_w32) old)) (ix2 (0 : Fin 1) k) = old (ix2 (0 : Fin 1) k) + rowSum e ⟨6, by omega⟩ k :=
  rowStep_apply ⟨6, by omega⟩ slices_S1024x96_o0_6_S1024x1 e old k

theorem row7 (e : FVec Ideal S1024x96 .f32) (old : Vec Ideal S1x96 .f32) (k : Fin 96) :
    (k0_pay21 e (iota .tc S1024x96 32 [1] iota_S1024x96_d1_w32) old) (ix2 (0 : Fin 1) k) = old (ix2 (0 : Fin 1) k) + rowSum e ⟨7, by omega⟩ k :=
  rowStep_apply ⟨7, by omega⟩ slices_S1024x96_o0_7_S1024x1 e old k

theorem row8 (e : FVec Ideal S1024x96 .f32) (old : Vec Ideal S1x96 .f32) (k : Fin 96) :
    (k0_pay22 e (iota .tc S1024x96 32 [1] iota_S1024x96_d1_w32) old) (ix2 (0 : Fin 1) k) = old (ix2 (0 : Fin 1) k) + rowSum e ⟨8, by omega⟩ k :=
  rowStep_apply ⟨8, by omega⟩ slices_S1024x96_o0_8_S1024x1 e old k

theorem row9 (e : FVec Ideal S1024x96 .f32) (old : Vec Ideal S1x96 .f32) (k : Fin 96) :
    (k0_pay27 (k0_pay24 e) (k0_pay25 e) (k0_pay26 (iota .tc S1024x96 32 [1] iota_S1024x96_d1_w32)) old) (ix2 (0 : Fin 1) k) = old (ix2 (0 : Fin 1) k) + rowSum e ⟨9, by omega⟩ k :=
  rowStep_apply ⟨9, by omega⟩ slices_S1024x96_o0_9_S1024x1 e old k

theorem row10 (e : FVec Ideal S1024x96 .f32) (old : Vec Ideal S1x96 .f32) (k : Fin 96) :
    (k0_pay28 e (iota .tc S1024x96 32 [1] iota_S1024x96_d1_w32) old) (ix2 (0 : Fin 1) k) = old (ix2 (0 : Fin 1) k) + rowSum e ⟨10, by omega⟩ k :=
  rowStep_apply ⟨10, by omega⟩ slices_S1024x96_o0_10_S1024x1 e old k

theorem row11 (e : FVec Ideal S1024x96 .f32) (old : Vec Ideal S1x96 .f32) (k : Fin 96) :
    (k0_pay30 (k0_pay29 e (iota .tc S1024x96 32 [1] iota_S1024x96_d1_w32) old)) (ix2 (0 : Fin 1) k) = old (ix2 (0 : Fin 1) k) + rowSum e ⟨11, by omega⟩ k :=
  rowStep_apply ⟨11, by omega⟩ slices_S1024x96_o0_11_S1024x1 e old k

theorem row12 (e : FVec Ideal S1024x96 .f32) (old : Vec Ideal S1x96 .f32) (k : Fin 96) :
    (k0_pay31 e (iota .tc S1024x96 32 [1] iota_S1024x96_d1_w32) old) (ix2 (0 : Fin 1) k) = old (ix2 (0 : Fin 1) k) + rowSum e ⟨12, by omega⟩ k :=
  rowStep_apply ⟨12, by omega⟩ slices_S1024x96_o0_12_S1024x1 e old k

theorem row13 (e : FVec Ideal S1024x96 .f32) (old : Vec Ideal S1x96 .f32) (k : Fin 96) :
    (k0_pay32 e (iota .tc S1024x96 32 [1] iota_S1024x96_d1_w32) old) (ix2 (0 : Fin 1) k) = old (ix2 (0 : Fin 1) k) + rowSum e ⟨13, by omega⟩ k :=
  rowStep_apply ⟨13, by omega⟩ slices_S1024x96_o0_13_S1024x1 e old k

theorem row14 (e : FVec Ideal S1024x96 .f32) (old : Vec Ideal S1x96 .f32) (k : Fin 96) :
    (k0_pay37 (k0_pay34 e) (k0_pay35 e) (k0_pay36 (iota .tc S1024x96 32 [1] iota_S1024x96_d1_w32)) old) (ix2 (0 : Fin 1) k) = old (ix2 (0 : Fin 1) k) + rowSum e ⟨14, by omega⟩ k :=
  rowStep_apply ⟨14, by omega⟩ slices_S1024x96_o0_14_S1024x1 e old k

theorem row15 (e : FVec Ideal S1024x96 .f32) (old : Vec Ideal S1x96 .f32) (k : Fin 96) :
    (k0_pay38 e (iota .tc S1024x96 32 [1] iota_S1024x96_d1_w32) old) (ix2 (0 : Fin 1) k) = old (ix2 (0 : Fin 1) k) + rowSum e ⟨15, by omega⟩ k :=
  rowStep_apply ⟨15, by omega⟩ slices_S1024x96_o0_15_S1024x1 e old k

theorem row16 (e : FVec Ideal S1024x96 .f32) (old : Vec Ideal S1x96 .f32) (k : Fin 96) :
    (k0_pay40 (k0_pay39 e (iota .tc S1024x96 32 [1] iota_S1024x96_d1_w32) old)) (ix2 (0 : Fin 1) k) = old (ix2 (0 : Fin 1) k) + rowSum e ⟨16, by omega⟩ k :=
  rowStep_apply ⟨16, by omega⟩ slices_S1024x96_o0_16_S1024x1 e old k

theorem row17 (e : FVec Ideal S1024x96 .f32) (old : Vec Ideal S1x96 .f32) (k : Fin 96) :
    (k0_pay41 e (iota .tc S1024x96 32 [1] iota_S1024x96_d1_w32) old) (ix2 (0 : Fin 1) k) = old (ix2 (0 : Fin 1) k) + rowSum e ⟨17, by omega⟩ k :=
  rowStep_apply ⟨17, by omega⟩ slices_S1024x96_o0_17_S1024x1 e old k

theorem row18 (e : FVec Ideal S1024x96 .f32) (old : Vec Ideal S1x96 .f32) (k : Fin 96) :
    (k0_pay42 e (iota .tc S1024x96 32 [1] iota_S1024x96_d1_w32) old) (ix2 (0 : Fin 1) k) = old (ix2 (0 : Fin 1) k) + rowSum e ⟨18, by omega⟩ k :=
  rowStep_apply ⟨18, by omega⟩ slices_S1024x96_o0_18_S1024x1 e old k

theorem row19 (e : FVec Ideal S1024x96 .f32) (old : Vec Ideal S1x96 .f32) (k : Fin 96) :
    (k0_pay47 (k0_pay44 e) (k0_pay45 e) (k0_pay46 (iota .tc S1024x96 32 [1] iota_S1024x96_d1_w32)) old) (ix2 (0 : Fin 1) k) = old (ix2 (0 : Fin 1) k) + rowSum e ⟨19, by omega⟩ k :=
  rowStep_apply ⟨19, by omega⟩ slices_S1024x96_o0_19_S1024x1 e old k

theorem row20 (e : FVec Ideal S1024x96 .f32) (old : Vec Ideal S1x96 .f32) (k : Fin 96) :
    (k0_pay48 e (iota .tc S1024x96 32 [1] iota_S1024x96_d1_w32) old) (ix2 (0 : Fin 1) k) = old (ix2 (0 : Fin 1) k) + rowSum e ⟨20, by omega⟩ k :=
  rowStep_apply ⟨20, by omega⟩ slices_S1024x96_o0_20_S1024x1 e old k

theorem row21 (e : FVec Ideal S1024x96 .f32) (old : Vec Ideal S1x96 .f32) (k : Fin 96) :
    (k0_pay50 (k0_pay49 e (iota .tc S1024x96 32 [1] iota_S1024x96_d1_w32) old)) (ix2 (0 : Fin 1) k) = old (ix2 (0 : Fin 1) k) + rowSum e ⟨21, by omega⟩ k :=
  rowStep_apply ⟨21, by omega⟩ slices_S1024x96_o0_21_S1024x1 e old k

theorem row22 (e : FVec Ideal S1024x96 .f32) (old : Vec Ideal S1x96 .f32) (k : Fin 96) :
    (k0_pay51 e (iota .tc S1024x96 32 [1] iota_S1024x96_d1_w32) old) (ix2 (0 : Fin 1) k) = old (ix2 (0 : Fin 1) k) + rowSum e ⟨22, by omega⟩ k :=
  rowStep_apply ⟨22, by omega⟩ slices_S1024x96_o0_22_S1024x1 e old k

theorem row23 (e : FVec Ideal S1024x96 .f32) (old : Vec Ideal S1x96 .f32) (k : Fin 96) :
    (k0_pay52 e (iota .tc S1024x96 32 [1] iota_S1024x96_d1_w32) old) (ix2 (0 : Fin 1) k) = old (ix2 (0 : Fin 1) k) + rowSum e ⟨23, by omega⟩ k :=
  rowStep_apply ⟨23, by omega⟩ slices_S1024x96_o0_23_S1024x1 e old k

theorem row24 (e : FVec Ideal S1024x96 .f32) (old : Vec Ideal S1x96 .f32) (k : Fin 96) :
    (k0_pay57 (k0_pay54 e) (k0_pay55 e) (k0_pay56 (iota .tc S1024x96 32 [1] iota_S1024x96_d1_w32)) old) (ix2 (0 : Fin 1) k) = old (ix2 (0 : Fin 1) k) + rowSum e ⟨24, by omega⟩ k :=
  rowStep_apply ⟨24, by omega⟩ slices_S1024x96_o0_24_S1024x1 e old k

theorem row25 (e : FVec Ideal S1024x96 .f32) (old : Vec Ideal S1x96 .f32) (k : Fin 96) :
    (k0_pay58 e (iota .tc S1024x96 32 [1] iota_S1024x96_d1_w32) old) (ix2 (0 : Fin 1) k) = old (ix2 (0 : Fin 1) k) + rowSum e ⟨25, by omega⟩ k :=
  rowStep_apply ⟨25, by omega⟩ slices_S1024x96_o0_25_S1024x1 e old k

theorem row26 (e : FVec Ideal S1024x96 .f32) (old : Vec Ideal S1x96 .f32) (k : Fin 96) :
    (k0_pay60 (k0_pay59 e (iota .tc S1024x96 32 [1] iota_S1024x96_d1_w32) old)) (ix2 (0 : Fin 1) k) = old (ix2 (0 : Fin 1) k) + rowSum e ⟨26, by omega⟩ k :=
  rowStep_apply ⟨26, by omega⟩ slices_S1024x96_o0_26_S1024x1 e old k

theorem row27 (e : FVec Ideal S1024x96 .f32) (old : Vec Ideal S1x96 .f32) (k : Fin 96) :
    (k0_pay61 e (iota .tc S1024x96 32 [1] iota_S1024x96_d1_w32) old) (ix2 (0 : Fin 1) k) = old (ix2 (0 : Fin 1) k) + rowSum e ⟨27, by omega⟩ k :=
  rowStep_apply ⟨27, by omega⟩ slices_S1024x96_o0_27_S1024x1 e old k

theorem row28 (e : FVec Ideal S1024x96 .f32) (old : Vec Ideal S1x96 .f32) (k : Fin 96) :
    (k0_pay62 e (iota .tc S1024x96 32 [1] iota_S1024x96_d1_w32) old) (ix2 (0 : Fin 1) k) = old (ix2 (0 : Fin 1) k) + rowSum e ⟨28, by omega⟩ k :=
  rowStep_apply ⟨28, by omega⟩ slices_S1024x96_o0_28_S1024x1 e old k

theorem row29 (e : FVec Ideal S1024x96 .f32) (old : Vec Ideal S1x96 .f32) (k : Fin 96) :
    (k0_pay67 (k0_pay64 e) (k0_pay65 e) (k0_pay66 (iota .tc S1024x96 32 [1] iota_S1024x96_d1_w32)) old) (ix2 (0 : Fin 1) k) = old (ix2 (0 : Fin 1) k) + rowSum e ⟨29, by omega⟩ k :=
  rowStep_apply ⟨29, by omega⟩ slices_S1024x96_o0_29_S1024x1 e old k

theorem row30 (e : FVec Ideal S1024x96 .f32) (old : Vec Ideal S1x96 .f32) (k : Fin 96) :
    (k0_pay68 e (iota .tc S1024x96 32 [1] iota_S1024x96_d1_w32) old) (ix2 (0 : Fin 1) k) = old (ix2 (0 : Fin 1) k) + rowSum e ⟨30, by omega⟩ k :=
  rowStep_apply ⟨30, by omega⟩ slices_S1024x96_o0_30_S1024x1 e old k

theorem row31 (e : FVec Ideal S1024x96 .f32) (old : Vec Ideal S1x96 .f32) (k : Fin 96) :
    (k0_pay70 (k0_pay69 e (iota .tc S1024x96 32 [1] iota_S1024x96_d1_w32) old)) (ix2 (0 : Fin 1) k) = old (ix2 (0 : Fin 1) k) + rowSum e ⟨31, by omega⟩ k :=
  rowStep_apply ⟨31, by omega⟩ slices_S1024x96_o0_31_S1024x1 e old k

theorem row32 (e : FVec Ideal S1024x96 .f32) (old : Vec Ideal S1x96 .f32) (k : Fin 96) :
    (k0_pay71 e (iota .tc S1024x96 32 [1] iota_S1024x96_d1_w32) old) (ix2 (0 : Fin 1) k) = old (ix2 (0 : Fin 1) k) + rowSum e ⟨32, by omega⟩ k :=
  rowStep_apply ⟨32, by omega⟩ slices_S1024x96_o0_32_S1024x1 e old k

theorem row33 (e : FVec Ideal S1024x96 .f32) (old : Vec Ideal S1x96 .f32) (k : Fin 96) :
    (k0_pay72 e (iota .tc S1024x96 32 [1] iota_S1024x96_d1_w32) old) (ix2 (0 : Fin 1) k) = old (ix2 (0 : Fin 1) k) + rowSum e ⟨33, by omega⟩ k :=
  rowStep_apply ⟨33, by omega⟩ slices_S1024x96_o0_33_S1024x1 e old k

theorem row34 (e : FVec Ideal S1024x96 .f32) (old : Vec Ideal S1x96 .f32) (k : Fin 96) :
    (k0_pay77 (k0_pay74 e) (k0_pay75 e) (k0_pay76 (iota .tc S1024x96 32 [1] iota_S1024x96_d1_w32)) old) (ix2 (0 : Fin 1) k) = old (ix2 (0 : Fin 1) k) + rowSum e ⟨34, by omega⟩ k :=
  rowStep_apply ⟨34, by omega⟩ slices_S1024x96_o0_34_S1024x1 e old k

theorem row35 (e : FVec Ideal S1024x96 .f32) (old : Vec Ideal S1x96 .f32) (k : Fin 96) :
    (k0_pay78 e (iota .tc S1024x96 32 [1] iota_S1024x96_d1_w32) old) (ix2 (0 : Fin 1) k) = old (ix2 (0 : Fin 1) k) + rowSum e ⟨35, by omega⟩ k :=
  rowStep_apply ⟨35, by omega⟩ slices_S1024x96_o0_35_S1024x1 e old k

theorem row36 (e : FVec Ideal S1024x96 .f32) (old : Vec Ideal S1x96 .f32) (k : Fin 96) :
    (k0_pay80 (k0_pay79 e (iota .tc S1024x96 32 [1] iota_S1024x96_d1_w32) old)) (ix2 (0 : Fin 1) k) = old (ix2 (0 : Fin 1) k) + rowSum e ⟨36, by omega⟩ k :=
  rowStep_apply ⟨36, by omega⟩ slices_S1024x96_o0_36_S1024x1 e old k

theorem row37 (e : FVec Ideal S1024x96 .f32) (old : Vec Ideal S1x96 .f32) (k : Fin 96) :
    (k0_pay81 e (iota .tc S1024x96 32 [1] iota_S1024x96_d1_w32) old) (ix2 (0 : Fin 1) k) = old (ix2 (0 : Fin 1) k) + rowSum e ⟨37, by omega⟩ k :=
  rowStep_apply ⟨37, by omega⟩ slices_S1024x96_o0_37_S1024x1 e old k

theorem row38 (e : FVec Ideal S1024x96 .f32) (old : Vec Ideal S1x96 .f32) (k : Fin 96) :
    (k0_pay82 e (iota .tc S1024x96 32 [1] iota_S1024x96_d1_w32) old) (ix2 (0 : Fin 1) k) = old (ix2 (0 : Fin 1) k) + rowSum e ⟨38, by omega⟩ k :=
  rowStep_apply ⟨38, by omega⟩ slices_S1024x96_o0_38_S1024x1 e old k

theorem row39 (e : FVec Ideal S1024x96 .f32) (old : Vec Ideal S1x96 .f32) (k : Fin 96) :
    (k0_pay87 (k0_pay84 e) (k0_pay85 e) (k0_pay86 (iota .tc S1024x96 32 [1] iota_S1024x96_d1_w32)) old) (ix2 (0 : Fin 1) k) = old (ix2 (0 : Fin 1) k) + rowSum e ⟨39, by omega⟩ k :=
  rowStep_apply ⟨39, by omega⟩ slices_S1024x96_o0_39_S1024x1 e old k

theorem row40 (e : FVec Ideal S1024x96 .f32) (old : Vec Ideal S1x96 .f32) (k : Fin 96) :
    (k0_pay88 e (iota .tc S1024x96 32 [1] iota_S1024x96_d1_w32) old) (ix2 (0 : Fin 1) k) = old (ix2 (0 : Fin 1) k) + rowSum e ⟨40, by omega⟩ k :=
  rowStep_apply ⟨40, by omega⟩ slices_S1024x96_o0_40_S1024x1 e old k

theorem row41 (e : FVec Ideal S1024x96 .f32) (old : Vec Ideal S1x96 .f32) (k : Fin 96) :
    (k0_pay90 (k0_pay89 e (iota .tc S1024x96 32 [1] iota_S1024x96_d1_w32) old)) (ix2 (0 : Fin 1) k) = old (ix2 (0 : Fin 1) k) + rowSum e ⟨41, by omega⟩ k :=
  rowStep_apply ⟨41, by omega⟩ slices_S1024x96_o0_41_S1024x1 e old k

theorem row42 (e : FVec Ideal S1024x96 .f32) (old : Vec Ideal S1x96 .f32) (k : Fin 96) :
    (k0_pay91 e (iota .tc S1024x96 32 [1] iota_S1024x96_d1_w32) old) (ix2 (0 : Fin 1) k) = old (ix2 (0 : Fin 1) k) + rowSum e ⟨42, by omega⟩ k :=
  rowStep_apply ⟨42, by omega⟩ slices_S1024x96_o0_42_S1024x1 e old k

theorem row43 (e : FVec Ideal S1024x96 .f32) (old : Vec Ideal S1x96 .f32) (k : Fin 96) :
    (k0_pay92 e (iota .tc S1024x96 32 [1] iota_S1024x96_d1_w32) old) (ix2 (0 : Fin 1) k) = old (ix2 (0 : Fin 1) k) + rowSum e ⟨43, by omega⟩ k :=
  rowStep_apply ⟨43, by omega⟩ slices_S1024x96_o0_43_S1024x1 e old k

theorem row44 (e : FVec Ideal S1024x96 .f32) (old : Vec Ideal S1x96 .f32) (k : Fin 96) :
    (k0_pay97 (k0_pay94 e) (k0_pay95 e) (k0_pay96 (iota .tc S1024x96 32 [1] iota_S1024x96_d1_w32)) old) (ix2 (0 : Fin 1) k) = old (ix2 (0 : Fin 1) k) + rowSum e ⟨44, by omega⟩ k :=
  rowStep_apply ⟨44, by omega⟩ slices_S1024x96_o0_44_S1024x1 e old k

theorem row45 (e : FVec Ideal S1024x96 .f32) (old : Vec Ideal S1x96 .f32) (k : Fin 96) :
    (k0_pay98 e (iota .tc S1024x96 32 [1] iota_S1024x96_d1_w32) old) (ix2 (0 : Fin 1) k) = old (ix2 (0 : Fin 1) k) + rowSum e ⟨45, by omega⟩ k :=
  rowStep_apply ⟨45, by omega⟩ slices_S1024x96_o0_45_S1024x1 e old k

theorem row46 (e : FVec Ideal S1024x96 .f32) (old : Vec Ideal S1x96 .f32) (k : Fin 96) :
    (k0_pay100 (k0_pay99 e (iota .tc S1024x96 32 [1] iota_S1024x96_d1_w32) old)) (ix2 (0 : Fin 1) k) = old (ix2 (0 : Fin 1) k) + rowSum e ⟨46, by omega⟩ k :=
  rowStep_apply ⟨46, by omega⟩ slices_S1024x96_o0_46_S1024x1 e old k

theorem row47 (e : FVec Ideal S1024x96 .f32) (old : Vec Ideal S1x96 .f32) (k : Fin 96) :
    (k0_pay101 e (iota .tc S1024x96 32 [1] iota_S1024x96_d1_w32) old) (ix2 (0 : Fin 1) k) = old (ix2 (0 : Fin 1) k) + rowSum e ⟨47, by omega⟩ k :=
  rowStep_apply ⟨47, by omega⟩ slices_S1024x96_o0_47_S1024x1 e old k

theorem row48 (e : FVec Ideal S1024x96 .f32) (old : Vec Ideal S1x96 .f32) (k : Fin 96) :
    (k0_pay102 e (iota .tc S1024x96 32 [1] iota_S1024x96_d1_w32) old) (ix2 (0 : Fin 1) k) = old (ix2 (0 : Fin 1) k) + rowSum e ⟨48, by omega⟩ k :=
  rowStep_apply ⟨48, by omega⟩ slices_S1024x96_o0_48_S1024x1 e old k

theorem row49 (e : FVec Ideal S1024x96 .f32) (old : Vec Ideal S1x96 .f32) (k : Fin 96) :
    (k0_pay107 (k0_pay104 e) (k0_pay105 e) (k0_pay106 (iota .tc S1024x96 32 [1] iota_S1024x96_d1_w32)) old) (ix2 (0 : Fin 1) k) = old (ix2 (0 : Fin 1) k) + rowSum e ⟨49, by omega⟩ k :=
  rowStep_apply ⟨49, by omega⟩ slices_S1024x96_o0_49_S1024x1 e old k

theorem row50 (e : FVec Ideal S1024x96 .f32) (old : Vec Ideal S1x96 .f32) (k : Fin 96) :
    (k0_pay108 e (iota .tc S1024x96 32 [1] iota_S1024x96_d1_w32) old) (ix2 (0 : Fin 1) k) = old (ix2 (0 : Fin 1) k) + rowSum e ⟨50, by omega⟩ k :=
  rowStep_apply ⟨50, by omega⟩ slices_S1024x96_o0_50_S1024x1 e old k

theorem row51 (e : FVec Ideal S1024x96 .f32) (old : Vec Ideal S1x96 .f32) (k : Fin 96) :
    (k0_pay110 (k0_pay109 e (iota .tc S1024x96 32 [1] iota_S1024x96_d1_w32) old)) (ix2 (0 : Fin 1) k) = old (ix2 (0 : Fin 1) k) + rowSum e ⟨51, by omega⟩ k :=
  rowStep_apply ⟨51, by omega⟩ slices_S1024x96_o0_51_S1024x1 e old k

theorem row52 (e : FVec Ideal S1024x96 .f32) (old : Vec Ideal S1x96 .f32) (k : Fin 96) :
    (k0_pay111 e (iota .tc S1024x96 32 [1] iota_S1024x96_d1_w32) old) (ix2 (0 : Fin 1) k) = old (ix2 (0 : Fin 1) k) + rowSum e ⟨52, by omega⟩ k :=
  rowStep_apply ⟨52, by omega⟩ slices_S1024x96_o0_52_S1024x1 e old k

theorem row53 (e : FVec Ideal S1024x96 .f32) (old : Vec Ideal S1x96 .f32) (k : Fin 96) :
    (k0_pay112 e (iota .tc S1024x96 32 [1] iota_S1024x96_d1_w32) old) (ix2 (0 : Fin 1) k) = old (ix2 (0 : Fin 1) k) + rowSum e ⟨53, by omega⟩ k :=
  rowStep_apply ⟨53, by omega⟩ slices_S1024x96_o0_53_S1024x1 e old k

theorem row54 (e : FVec Ideal S1024x96 .f32) (old : Vec Ideal S1x96 .f32) (k : Fin 96) :
    (k0_pay117 (k0_pay114 e) (k0_pay115 e) (k0_pay116 (iota .tc S1024x96 32 [1] iota_S1024x96_d1_w32)) old) (ix2 (0 : Fin 1) k) = old (ix2 (0 : Fin 1) k) + rowSum e ⟨54, by omega⟩ k :=
  rowStep_apply ⟨54, by omega⟩ slices_S1024x96_o0_54_S1024x1 e old k

theorem row55 (e : FVec Ideal S1024x96 .f32) (old : Vec Ideal S1x96 .f32) (k : Fin 96) :
    (k0_pay118 e (iota .tc S1024x96 32 [1] iota_S1024x96_d1_w32) old) (ix2 (0 : Fin 1) k) = old (ix2 (0 : Fin 1) k) + rowSum e ⟨55, by omega⟩ k :=
  rowStep_apply ⟨55, by omega⟩ slices_S1024x96_o0_55_S1024x1 e old k

theorem row56 (e : FVec Ideal S1024x96 .f32) (old : Vec Ideal S1x96 .f32) (k : Fin 96) :
    (k0_pay120 (k0_pay119 e (iota .tc S1024x96 32 [1] iota_S1024x96_d1_w32) old)) (ix2 (0 : Fin 1) k) = old (ix2 (0 : Fin 1) k) + rowSum e ⟨56, by omega⟩ k :=
  rowStep_apply ⟨56, by omega⟩ slices_S1024x96_o0_56_S1024x1 e old k

theorem row57 (e : FVec Ideal S1024x96 .f32) (old : Vec Ideal S1x96 .f32) (k : Fin 96) :
    (k0_pay121 e (iota .tc S1024x96 32 [1] iota_S1024x96_d1_w32) old) (ix2 (0 : Fin 1) k) = old (ix2 (0 : Fin 1) k) + rowSum e ⟨57, by omega⟩ k :=
  rowStep_apply ⟨57, by omega⟩ slices_S1024x96_o0_57_S1024x1 e old k

theorem row58 (e : FVec Ideal S1024x96 .f32) (old : Vec Ideal S1x96 .f32) (k : Fin 96) :
    (k0_pay122 e (iota .tc S1024x96 32 [1] iota_S1024x96_d1_w32) old) (ix2 (0 : Fin 1) k) = old (ix2 (0 : Fin 1) k) + rowSum e ⟨58, by omega⟩ k :=
  rowStep_apply ⟨58, by omega⟩ slices_S1024x96_o0_58_S1024x1 e old k

theorem row59 (e : FVec Ideal S1024x96 .f32) (old : Vec Ideal S1x96 .f32) (k : Fin 96) :
    (k0_pay127 (k0_pay124 e) (k0_pay125 e) (k0_pay126 (iota .tc S1024x96 32 [1] iota_S1024x96_d1_w32)) old) (ix2 (0 : Fin 1) k) = old (ix2 (0 : Fin 1) k) + rowSum e ⟨59, by omega⟩ k :=
  rowStep_apply ⟨59, by omega⟩ slices_S1024x96_o0_59_S1024x1 e old k

theorem row60 (e : FVec Ideal S1024x96 .f32) (old : Vec Ideal S1x96 .f32) (k : Fin 96) :
    (k0_pay128 e (iota .tc S1024x96 32 [1] iota_S1024x96_d1_w32) old) (ix2 (0 : Fin 1) k) = old (ix2 (0 : Fin 1) k) + rowSum e ⟨60, by omega⟩ k :=
  rowStep_apply ⟨60, by omega⟩ slices_S1024x96_o0_60_S1024x1 e old k

theorem row61 (e : FVec Ideal S1024x96 .f32) (old : Vec Ideal S1x96 .f32) (k : Fin 96) :
    (k0_pay130 (k0_pay129 e (iota .tc S1024x96 32 [1] iota_S1024x96_d1_w32) old)) (ix2 (0 : Fin 1) k) = old (ix2 (0 : Fin 1) k) + rowSum e ⟨61, by omega⟩ k :=
  rowStep_apply ⟨61, by omega⟩ slices_S1024x96_o0_61_S1024x1 e old k

theorem row62 (e : FVec Ideal S1024x96 .f32) (old : Vec Ideal S1x96 .f32) (k : Fin 96) :
    (k0_pay131 e (iota .tc S1024x96 32 [1] iota_S1024x96_d1_w32) old) (ix2 (0 : Fin 1) k) = old (ix2 (0 : Fin 1) k) + rowSum e ⟨62, by omega⟩ k :=
  rowStep_apply ⟨62, by omega⟩ slices_S1024x96_o0_62_S1024x1 e old k

theorem row63 (e : FVec Ideal S1024x96 .f32) (old : Vec Ideal S1x96 .f32) (k : Fin 96) :
    (k0_pay132 e (iota .tc S1024x96 32 [1] iota_S1024x96_d1_w32) old) (ix2 (0 : Fin 1) k) = old (ix2 (0 : Fin 1) k) + rowSum e ⟨63, by omega⟩ k :=
  rowStep_apply ⟨63, by omega⟩ slices_S1024x96_o0_63_S1024x1 e old k

theorem row64 (e : FVec Ideal S1024x96 .f32) (old : Vec Ideal S1x96 .f32) (k : Fin 96) :
    (k0_pay137 (k0_pay134 e) (k0_pay135 e) (k0_pay136 (iota .tc S1024x96 32 [1] iota_S1024x96_d1_w32)) old) (ix2 (0 : Fin 1) k) = old (ix2 (0 : Fin 1) k) + rowSum e ⟨64, by omega⟩ k :=
  rowStep_apply ⟨64, by omega⟩ slices_S1024x96_o0_64_S1024x1 e old k

theorem row65 (e : FVec Ideal S1024x96 .f32) (old : Vec Ideal S1x96 .f32) (k : Fin 96) :
    (k0_pay138 e (iota .tc S1024x96 32 [1] iota_S1024x96_d1_w32) old) (ix2 (0 : Fin 1) k) = old (ix2 (0 : Fin 1) k) + rowSum e ⟨65, by omega⟩ k :=
  rowStep_apply ⟨65, by omega⟩ slices_S1024x96_o0_65_S1024x1 e old k

theorem row66 (e : FVec Ideal S1024x96 .f32) (old : Vec Ideal S1x96 .f32) (k : Fin 96) :
    (k0_pay140 (k0_pay139 e (iota .tc S1024x96 32 [1] iota_S1024x96_d1_w32) old)) (ix2 (0 : Fin 1) k) = old (ix2 (0 : Fin 1) k) + rowSum e ⟨66, by omega⟩ k :=
  rowStep_apply ⟨66, by omega⟩ slices_S1024x96_o0_66_S1024x1 e old k

theorem row67 (e : FVec Ideal S1024x96 .f32) (old : Vec Ideal S1x96 .f32) (k : Fin 96) :
    (k0_pay141 e (iota .tc S1024x96 32 [1] iota_S1024x96_d1_w32) old) (ix2 (0 : Fin 1) k) = old (ix2 (0 : Fin 1) k) + rowSum e ⟨67, by omega⟩ k :=
  rowStep_apply ⟨67, by omega⟩ slices_S1024x96_o0_67_S1024x1 e old k

theorem row68 (e : FVec Ideal S1024x96 .f32) (old : Vec Ideal S1x96 .f32) (k : Fin 96) :
    (k0_pay142 e (iota .tc S1024x96 32 [1] iota_S1024x96_d1_w32) old) (ix2 (0 : Fin 1) k) = old (ix2 (0 : Fin 1) k) + rowSum e ⟨68, by omega⟩ k :=
  rowStep_apply ⟨68, by omega⟩ slices_S1024x96_o0_68_S1024x1 e old k

theorem row69 (e : FVec Ideal S1024x96 .f32) (old : Vec Ideal S1x96 .f32) (k : Fin 96) :
    (k0_pay147 (k0_pay144 e) (k0_pay145 e) (k0_pay146 (iota .tc S1024x96 32 [1] iota_S1024x96_d1_w32)) old) (ix2 (0 : Fin 1) k) = old (ix2 (0 : Fin 1) k) + rowSum e ⟨69, by omega⟩ k :=
  rowStep_apply ⟨69, by omega⟩ slices_S1024x96_o0_69_S1024x1 e old k

theorem row70 (e : FVec Ideal S1024x96 .f32) (old : Vec Ideal S1x96 .f32) (k : Fin 96) :
    (k0_pay148 e (iota .tc S1024x96 32 [1] iota_S1024x96_d1_w32) old) (ix2 (0 : Fin 1) k) = old (ix2 (0 : Fin 1) k) + rowSum e ⟨70, by omega⟩ k :=
  rowStep_apply ⟨70, by omega⟩ slices_S1024x96_o0_70_S1024x1 e old k

theorem row71 (e : FVec Ideal S1024x96 .f32) (old : Vec Ideal S1x96 .f32) (k : Fin 96) :
    (k0_pay150 (k0_pay149 e (iota .tc S1024x96 32 [1] iota_S1024x96_d1_w32) old)) (ix2 (0 : Fin 1) k) = old (ix2 (0 : Fin 1) k) + rowSum e ⟨71, by omega⟩ k :=
  rowStep_apply ⟨71, by omega⟩ slices_S1024x96_o0_71_S1024x1 e old k

theorem row72 (e : FVec Ideal S1024x96 .f32) (old : Vec Ideal S1x96 .f32) (k : Fin 96) :
    (k0_pay151 e (iota .tc S1024x96 32 [1] iota_S1024x96_d1_w32) old) (ix2 (0 : Fin 1) k) = old (ix2 (0 : Fin 1) k) + rowSum e ⟨72, by omega⟩ k :=
  rowStep_apply ⟨72, by omega⟩ slices_S1024x96_o0_72_S1024x1 e old k

theorem row73 (e : FVec Ideal S1024x96 .f32) (old : Vec Ideal S1x96 .f32) (k : Fin 96) :
    (k0_pay152 e (iota .tc S1024x96 32 [1] iota_S1024x96_d1_w32) old) (ix2 (0 : Fin 1) k) = old (ix2 (0 : Fin 1) k) + rowSum e ⟨73, by omega⟩ k :=
  rowStep_apply ⟨73, by omega⟩ slices_S1024x96_o0_73_S1024x1 e old k

theorem row74 (e : FVec Ideal S1024x96 .f32) (old : Vec Ideal S1x96 .f32) (k : Fin 96) :
    (k0_pay157 (k0_pay154 e) (k0_pay155 e) (k0_pay156 (iota .tc S1024x96 32 [1] iota_S1024x96_d1_w32)) old) (ix2 (0 : Fin 1) k) = old (ix2 (0 : Fin 1) k) + rowSum e ⟨74, by omega⟩ k :=
  rowStep_apply ⟨74, by omega⟩ slices_S1024x96_o0_74_S1024x1 e old k

theorem row75 (e : FVec Ideal S1024x96 .f32) (old : Vec Ideal S1x96 .f32) (k : Fin 96) :
    (k0_pay158 e (iota .tc S1024x96 32 [1] iota_S1024x96_d1_w32) old) (ix2 (0 : Fin 1) k) = old (ix2 (0 : Fin 1) k) + rowSum e ⟨75, by omega⟩ k :=
  rowStep_apply ⟨75, by omega⟩ slices_S1024x96_o0_75_S1024x1 e old k

theorem row76 (e : FVec Ideal S1024x96 .f32) (old : Vec Ideal S1x96 .f32) (k : Fin 96) :
    (k0_pay160 (k0_pay159 e (iota .tc S1024x96 32 [1] iota_S1024x96_d1_w32) old)) (ix2 (0 : Fin 1) k) = old (ix2 (0 : Fin 1) k) + rowSum e ⟨76, by omega⟩ k :=
  rowStep_apply ⟨76, by omega⟩ slices_S1024x96_o0_76_S1024x1 e old k

theorem row77 (e : FVec Ideal S1024x96 .f32) (old : Vec Ideal S1x96 .f32) (k : Fin 96) :
    (k0_pay161 e (iota .tc S1024x96 32 [1] iota_S1024x96_d1_w32) old) (ix2 (0 : Fin 1) k) = old (ix2 (0 : Fin 1) k) + rowSum e ⟨77, by omega⟩ k :=
  rowStep_apply ⟨77, by omega⟩ slices_S1024x96_o0_77_S1024x1 e old k

theorem row78 (e : FVec Ideal S1024x96 .f32) (old : Vec Ideal S1x96 .f32) (k : Fin 96) :
    (k0_pay162 e (iota .tc S1024x96 32 [1] iota_S1024x96_d1_w32) old) (ix2 (0 : Fin 1) k) = old (ix2 (0 : Fin 1) k) + rowSum e ⟨78, by omega⟩ k :=
  rowStep_apply ⟨78, by omega⟩ slices_S1024x96_o0_78_S1024x1 e old k

theorem row79 (e : FVec Ideal S1024x96 .f32) (old : Vec Ideal S1x96 .f32) (k : Fin 96) :
    (k0_pay167 (k0_pay164 e) (k0_pay165 e) (k0_pay166 (iota .tc S1024x96 32 [1] iota_S1024x96_d1_w32)) old) (ix2 (0 : Fin 1) k) = old (ix2 (0 : Fin 1) k) + rowSum e ⟨79, by omega⟩ k :=
  rowStep_apply ⟨79, by omega⟩ slices_S1024x96_o0_79_S1024x1 e old k

theorem row80 (e : FVec Ideal S1024x96 .f32) (old : Vec Ideal S1x96 .f32) (k : Fin 96) :
    (k0_pay168 e (iota .tc S1024x96 32 [1] iota_S1024x96_d1_w32) old) (ix2 (0 : Fin 1) k) = old (ix2 (0 : Fin 1) k) + rowSum e ⟨80, by omega⟩ k :=
  rowStep_apply ⟨80, by omega⟩ slices_S1024x96_o0_80_S1024x1 e old k

theorem row81 (e : FVec Ideal S1024x96 .f32) (old : Vec Ideal S1x96 .f32) (k : Fin 96) :
    (k0_pay170 (k0_pay169 e (iota .tc S1024x96 32 [1] iota_S1024x96_d1_w32) old)) (ix2 (0 : Fin 1) k) = old (ix2 (0 : Fin 1) k) + rowSum e ⟨81, by omega⟩ k :=
  rowStep_apply ⟨81, by omega⟩ slices_S1024x96_o0_81_S1024x1 e old k

theorem row82 (e : FVec Ideal S1024x96 .f32) (old : Vec Ideal S1x96 .f32) (k : Fin 96) :
    (k0_pay171 e (iota .tc S1024x96 32 [1] iota_S1024x96_d1_w32) old) (ix2 (0 : Fin 1) k) = old (ix2 (0 : Fin 1) k) + rowSum e ⟨82, by omega⟩ k :=
  rowStep_apply ⟨82, by omega⟩ slices_S1024x96_o0_82_S1024x1 e old k

theorem row83 (e : FVec Ideal S1024x96 .f32) (old : Vec Ideal S1x96 .f32) (k : Fin 96) :
    (k0_pay172 e (iota .tc S1024x96 32 [1] iota_S1024x96_d1_w32) old) (ix2 (0 : Fin 1) k) = old (ix2 (0 : Fin 1) k) + rowSum e ⟨83, by omega⟩ k :=
  rowStep_apply ⟨83, by omega⟩ slices_S1024x96_o0_83_S1024x1 e old k

theorem row84 (e : FVec Ideal S1024x96 .f32) (old : Vec Ideal S1x96 .f32) (k : Fin 96) :
    (k0_pay177 (k0_pay174 e) (k0_pay175 e) (k0_pay176 (iota .tc S1024x96 32 [1] iota_S1024x96_d1_w32)) old) (ix2 (0 : Fin 1) k) = old (ix2 (0 : Fin 1) k) + rowSum e ⟨84, by omega⟩ k :=
  rowStep_apply ⟨84, by omega⟩ slices_S1024x96_o0_84_S1024x1 e old k

theorem row85 (e : FVec Ideal S1024x96 .f32) (old : Vec Ideal S1x96 .f32) (k : Fin 96) :
    (k0_pay178 e (iota .tc S1024x96 32 [1] iota_S1024x96_d1_w32) old) (ix2 (0 : Fin 1) k) = old (ix2 (0 : Fin 1) k) + rowSum e ⟨85, by omega⟩ k :=
  rowStep_apply ⟨85, by omega⟩ slices_S1024x96_o0_85_S1024x1 e old k

theorem row86 (e : FVec Ideal S1024x96 .f32) (old : Vec Ideal S1x96 .f32) (k : Fin 96) :
    (k0_pay180 (k0_pay179 e (iota .tc S1024x96 32 [1] iota_S1024x96_d1_w32) old)) (ix2 (0 : Fin 1) k) = old (ix2 (0 : Fin 1) k) + rowSum e ⟨86, by omega⟩ k :=
  rowStep_apply ⟨86, by omega⟩ slices_S1024x96_o0_86_S1024x1 e old k

theorem row87 (e : FVec Ideal S1024x96 .f32) (old : Vec Ideal S1x96 .f32) (k : Fin 96) :
    (k0_pay181 e (iota .tc S1024x96 32 [1] iota_S1024x96_d1_w32) old) (ix2 (0 : Fin 1) k) = old (ix2 (0 : Fin 1) k) + rowSum e ⟨87, by omega⟩ k :=
  rowStep_apply ⟨87, by omega⟩ slices_S1024x96_o0_87_S1024x1 e old k

theorem row88 (e : FVec Ideal S1024x96 .f32) (old : Vec Ideal S1x96 .f32) (k : Fin 96) :
    (k0_pay182 e (iota .tc S1024x96 32 [1] iota_S1024x96_d1_w32) old) (ix2 (0 : Fin 1) k) = old (ix2 (0 : Fin 1) k) + rowSum e ⟨88, by omega⟩ k :=
  rowStep_apply ⟨88, by omega⟩ slices_S1024x96_o0_88_S1024x1 e old k

theorem row89 (e : FVec Ideal S1024x96 .f32) (old : Vec Ideal S1x96 .f32) (k : Fin 96) :
    (k0_pay187 (k0_pay184 e) (k0_pay185 e) (k0_pay186 (iota .tc S1024x96 32 [1] iota_S1024x96_d1_w32)) old) (ix2 (0 : Fin 1) k) = old (ix2 (0 : Fin 1) k) + rowSum e ⟨89, by omega⟩ k :=
  rowStep_apply ⟨89, by omega⟩ slices_S1024x96_o0_89_S1024x1 e old k

theorem row90 (e : FVec Ideal S1024x96 .f32) (old : Vec Ideal S1x96 .f32) (k : Fin 96) :
    (k0_pay188 e (iota .tc S1024x96 32 [1] iota_S1024x96_d1_w32) old) (ix2 (0 : Fin 1) k) = old (ix2 (0 : Fin 1) k) + rowSum e ⟨90, by omega⟩ k :=
  rowStep_apply ⟨90, by omega⟩ slices_S1024x96_o0_90_S1024x1 e old k

theorem row91 (e : FVec Ideal S1024x96 .f32) (old : Vec Ideal S1x96 .f32) (k : Fin 96) :
    (k0_pay190 (k0_pay189 e (iota .tc S1024x96 32 [1] iota_S1024x96_d1_w32) old)) (ix2 (0 : Fin 1) k) = old (ix2 (0 : Fin 1) k) + rowSum e ⟨91, by omega⟩ k :=
  rowStep_apply ⟨91, by omega⟩ slices_S1024x96_o0_91_S1024x1 e old k

theorem row92 (e : FVec Ideal S1024x96 .f32) (old : Vec Ideal S1x96 .f32) (k : Fin 96) :
    (k0_pay191 e (iota .tc S1024x96 32 [1] iota_S1024x96_d1_w32) old) (ix2 (0 : Fin 1) k) = old (ix2 (0 : Fin 1) k) + rowSum e ⟨92, by omega⟩ k :=
  rowStep_apply ⟨92, by omega⟩ slices_S1024x96_o0_92_S1024x1 e old k

theorem row93 (e : FVec Ideal S1024x96 .f32) (old : Vec Ideal S1x96 .f32) (k : Fin 96) :
    (k0_pay192 e (iota .tc S1024x96 32 [1] iota_S1024x96_d1_w32) old) (ix2 (0 : Fin 1) k) = old (ix2 (0 : Fin 1) k) + rowSum e ⟨93, by omega⟩ k :=
  rowStep_apply ⟨93, by omega⟩ slices_S1024x96_o0_93_S1024x1 e old k

theorem row94 (e : FVec Ideal S1024x96 .f32) (old : Vec Ideal S1x96 .f32) (k : Fin 96) :
    (k0_pay197 (k0_pay194 e) (k0_pay195 e) (k0_pay196 (iota .tc S1024x96 32 [1] iota_S1024x96_d1_w32)) old) (ix2 (0 : Fin 1) k) = old (ix2 (0 : Fin 1) k) + rowSum e ⟨94, by omega⟩ k :=
  rowStep_apply ⟨94, by omega⟩ slices_S1024x96_o0_94_S1024x1 e old k

theorem row95 (e : FVec Ideal S1024x96 .f32) (old : Vec Ideal S1x96 .f32) (k : Fin 96) :
    (k0_pay1 (iota .tc S1024x96 32 [1] iota_S1024x96_d1_w32) (k0_pay199 e) (k0_pay200 e) (95#32) old) (ix2 (0 : Fin 1) k) = old (ix2 (0 : Fin 1) k) + rowSum e ⟨95, by omega⟩ k :=
  rowStep_apply ⟨95, by omega⟩ slices_S1024x96_o0_95_S1024x1 e old k

end Cert.KernelIdeal.RowPayloads

end
-- ==== Proof.InputBlocks.lean ====
/-
  The kernel's input blocks at a grid point, as entries of the argument arrays. The grid is 2 × 4 (core × tile),
  run in row-major order, so point t = 4 · core + tile; the index maps of y_true and y_pred send it to block
  (t, 0) of 1024 × 96 entries, that is rows 1024 · t … 1024 · t + 1023 of the [8192, 96] array; the weights'
  one block is the whole [2, 96, 96] array at every point. No host operation before the region writes the
  two example arrays, so the region finds them as launched.
-/
import proofs.«124193_j68049461838564_2_alg».proof.Proof.Gen.KernelIdeal.Frame
import proofs.«124193_j68049461838564_2_alg».proof.Proof.LossSpec
import Idealize.ShloMosaic.Lib.Pipeline.Value
import Idealize.ShloMosaic.Lib.ValueIdx

noncomputable section

namespace Cert.KernelIdeal.InputBlocks

open Cert.KernelIdeal Cert.KernelIdeal.Gen Idealize.ShloMosaic Idealize.ShloMosaic.ValueIdx
  Idealize.ShloMosaic.TcCoe Idealize.SL.Sem Cert.LossSpec
open Idealize.ShloMosaic.Pipeline (Dat)

variable (m : (ℓ : Loc nD τ sig) → Buf (Elt Ideal) ℓ)

/-- The printed index maps of the two example-tiled inputs, decided over the grid: at point t both read block
    (t, 0), the grid being 2 × 4 in row-major order and the block index 4 · core + tile. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Block t of y_true read at (n, i) is y_true at row 1024 · t + n. -/
theorem ytrue_block (c : Dev nD) (t : Fin cfg0.N) (n : Fin 1024) (i : Fin 96) (b : Fin 8) (hb : b.val = t.val) :
    (iblk m c 0 t : S1024x96.Idx → EReal) (ix2 n i)
      = m ((c : Thread nD τ).loc main_arg0) (ix2 (rowOf b n) i) := by
  obtain ⟨e0, e1, -, -⟩ := idx_facts t
  unfold iblk
  rw [View.read_apply]
  show V m c main_arg0 _ = _
  rw [V_main_arg0]
  congr 1
  funext a
  apply Fin.ext
  match a with
  | ⟨0, _⟩ =>
    show win0_0.index t (0 : Fin 2) * 1024 + 1 * n.val = 1024 * b.val + n.val
    rw [e0, hb]; omega
  | ⟨1, _⟩ =>
    show win0_0.index t (1 : Fin 2) * 96 + 1 * i.val = i.val
    rw [e1]; omega

/-- Block t of y_pred read at (n, i) is y_pred at row 1024 · t + n. -/
theorem ypred_block (c : Dev nD) (t : Fin cfg0.N) (n : Fin 1024) (i : Fin 96) (b : Fin 8) (hb : b.val = t.val) :
    (iblk m c 1 t : S1024x96.Idx → EReal) (ix2 n i)
      = m ((c : Thread nD τ).loc main_arg1) (ix2 (rowOf b n) i) := by
  obtain ⟨-, -, e0, e1⟩ := idx_facts t
  unfold iblk
  rw [View.read_apply]
  show V m c main_arg1 _ = _
  rw [V_main_arg1]
  congr 1
  funext a
  apply Fin.ext
  match a with
  | ⟨0, _⟩ =>
    show win0_1.index t (0 : Fin 2) * 1024 + 1 * n.val = 1024 * b.val + n.val
    rw [e0, hb]; omega
  | ⟨1, _⟩ =>
    show win0_1.index t (1 : Fin 2) * 96 + 1 * i.val = i.val
    rw [e1]; omega

/-- The body's first vector operation is the difference of its two input blocks, entry by entry. -/
theorem sub_at (x0 x1 : Vec Ideal S1024x96 .f32) (j : S1024x96.Idx) :
    (k0_pay7 (F := Ideal) x0 x1 : S1024x96.Idx → EReal) j = (x0 j : EReal) - (x1 j : EReal) := rfl

/-- The tile a grid point works on, as a tile number below 8. -/
def tileIdx (t : Fin cfg0.N) : Fin 8 := ⟨t.val, lt_of_lt_of_eq t.isLt (show cfg0.N = 8 from N_0)⟩

/-- The difference the body forms from its two input blocks at point t, read at (n, i), is the error at example
    1024 · t + n, position i. -/
theorem err_block (c : Dev nD) (t : Fin cfg0.N) (n : Fin 1024) (i : Fin 96) (b : Fin 8) (hb : b.val = t.val) :
    (k0_pay7 (F := Ideal) (iblk m c 0 t) (iblk m c 1 t) : S1024x96.Idx → EReal) (ix2 n i)
      = err (m ((c : Thread nD τ).loc main_arg0)) (m ((c : Thread nD τ).loc main_arg1)) (rowOf b n) i := by
  exact (sub_at _ _ _).trans
    (congrArg₂ (fun a b : EReal => a - b) (ytrue_block m c t n i b hb) (ypred_block m c t n i b hb))

/-- The same with the tile number spelt from the point. -/
theorem err_block_tile (c : Dev nD) (t : Fin cfg0.N) (n : Fin 1024) (i : Fin 96) :
    (k0_pay7 (F := Ideal) (iblk m c 0 t) (iblk m c 1 t) : S1024x96.Idx → EReal) (ix2 n i)
      = err (m ((c : Thread nD τ).loc main_arg0)) (m ((c : Thread nD τ).loc main_arg1)) (rowOf (tileIdx t) n) i :=
  err_block m c t n i (tileIdx t) rfl

/-- The weights' index map, decided over the grid: block (0, 0, 0) at every point. -/
theorem weights_idx : ∀ t : Fin cfg0.N, win0_2.index t (0 : Fin 3) = 0 ∧ win0_2.index t (1 : Fin 3) = 0
    ∧ win0_2.index t (2 : Fin 3) = 0 :=
  (by decide +kernel : ∀ t : Fin grid0.N, win0_2.index t (0 : Fin 3) = 0 ∧ win0_2.index t (1 : Fin 3) = 0
    ∧ win0_2.index t (2 : Fin 3) = 0)

/-- The weights' one block is the whole array, at every point. -/
theorem weights_block (c : Dev nD) (t : Fin cfg0.N) :
    (iblk m c 2 t : S2x96x96.Idx → EReal) = V m c main_v14 := by
  obtain ⟨e0, e1, e2⟩ := weights_idx t
  funext j
  unfold iblk
  rw [View.read_apply]
  show V m c main_v14 _ = V m c main_v14 j
  congr 1
  funext a
  apply Fin.ext
  match a with
  | ⟨0, _⟩ =>
    show win0_2.index t (0 : Fin 3) * 2 + 1 * (j 0).val = (j 0).val
    rw [e0]; omega
  | ⟨1, _⟩ =>
    show win0_2.index t (1 : Fin 3) * 96 + 1 * (j 1).val = (j 1).val
    rw [e1]; omega
  | ⟨2, _⟩ =>
    show win0_2.index t (2 : Fin 3) * 96 + 1 * (j 2).val = (j 2).val
    rw [e2]; omega

end Cert.KernelIdeal.InputBlocks

end
-- ==== Proof.LibRowSlabs.lean ====
/-
  A two-dimensional buffer written row by row, read at one entry.

  A store of a [1, n] row at row offset `r` of an [a, n] buffer changes exactly the entries (r, k); so reading
  entry (r', k) after a list of such row stores finds the payload of the latest store at row r', at (0, k),
  and passes over the stores at other rows. A row loaded out of the buffer reads the same way.
-/
import Idealize.ShloMosaic.Lib.Writes
import Idealize.ShloMosaic.Lib.Pipeline.FrameBody
import Idealize.ShloMosaic.Lib.ValueIdx

namespace Cert.LibRowSlabs

open Idealize.ShloMosaic Idealize.ShloMosaic.ValueIdx

variable {sig : RefSig} {κ : Kind} {sp : Space} {Val : EltTy → Type} {e : EltTy} {a n : Nat}

/-- The row rectangle at row `r` holds entry (r', k) exactly when r' = r. -/
theorem mem_row (r : Nat) (r' : Fin a) (inb) (k : Fin n) :
    (ix2 r' k : (⟨2, ![a, n]⟩ : Shape).Idx) ∈ (Rect.unit (s := ⟨2, ![a, n]⟩) ![r, 0] ![1, n] inb).set ↔ r'.val = r := by
  rw [Rect.mem_set_unit]
  constructor
  · intro h
    have h0 := h (0 : Fin 2)
    have e0 : ((ix2 r' k : (⟨2, ![a, n]⟩ : Shape).Idx) (0 : Fin 2) : Nat) = r'.val := rfl
    have e1 : (![r, 0] : Fin 2 → Nat) (0 : Fin 2) = r := rfl
    have e2 : (![1, n] : Fin 2 → Nat) (0 : Fin 2) = 1 := rfl
    rw [e0, e1, e2] at h0
    omega
  · intro h ax
    match ax with
    | ⟨0, _⟩ =>
      show r ≤ r'.val ∧ r'.val < r + 1
      omega
    | ⟨1, _⟩ =>
      show 0 ≤ k.val ∧ k.val < 0 + n
      have := k.isLt; omega

/-- The row rectangle's own index (0, k) sits at entry (r, k) of the buffer. -/
theorem row_emb (r : Nat) (r' : Fin a) (hr : r'.val = r) (inb) (k : Fin n) :
    (Rect.unit (s := ⟨2, ![a, n]⟩) ![r, 0] ![1, n] inb).emb (ix2 (0 : Fin 1) k) = ix2 r' k :=
  funext fun ax => Fin.ext (by
    rw [Rect.emb_apply]
    match ax with
    | ⟨0, _⟩ => show r + 1 * 0 = r'.val; omega
    | ⟨1, _⟩ => show 0 + 1 * k.val = k.val; omega)

/-- Reading entry (r, k) of the stores' canonical contents right after a store at row r finds the stored row at (0, k). -/
theorem canon_row_hit [∀ e, Nonempty (Val e)] (r : Nat) (r' : Fin a) (hr : r'.val = r) (inb)
    (w : (⟨2, ![1, n]⟩ : Shape).Idx → Val e) (L : List (View.Piece Val ⟨2, ![a, n]⟩ e)) (k : Fin n) :
    View.canon (⟨Rect.unit (s := ⟨2, ![a, n]⟩) ![r, 0] ![1, n] inb, w⟩ :: L) (ix2 r' k) = w (ix2 (0 : Fin 1) k) := by
  have h := View.canon_cons_emb (Rect.unit (s := ⟨2, ![a, n]⟩) ![r, 0] ![1, n] inb) w L (ix2 (0 : Fin 1) k)
  rwa [row_emb r r' hr] at h

/-- Reading entry (r', k) passes over a store at another row. -/
theorem canon_row_skip [∀ e, Nonempty (Val e)] (r : Nat) (r' : Fin a) (hr : r'.val ≠ r) (inb)
    (w : (⟨2, ![1, n]⟩ : Shape).Idx → Val e) (L : List (View.Piece Val ⟨2, ![a, n]⟩ e)) (k : Fin n) :
    View.canon (⟨Rect.unit (s := ⟨2, ![a, n]⟩) ![r, 0] ![1, n] inb, w⟩ :: L) (ix2 r' k) = View.canon L (ix2 r' k) :=
  View.canon_cons_of_not_mem _ L fun h => hr ((mem_row r r' inb k).mp h)

/-- The row rectangle read as a load box: its index (0, k) is entry (r, k). -/
theorem row_idx (r : Nat) (r' : Fin a) (hr : r'.val = r) (inb) (k : Fin n) :
    (Rect.unit (s := ⟨2, ![a, n]⟩) ![r, 0] ![1, n] inb).toLoadRect.idx (ix2 (0 : Fin 1) k) = ix2 r' k :=
  funext fun ax => Fin.ext (by
    match ax with
    | ⟨0, _⟩ => show r + 1 * 0 = r'.val; omega
    | ⟨1, _⟩ => show 0 + 1 * k.val = k.val; omega)

/-- A row loaded out of a buffer: its entry (0, k) is the buffer's (r, k). -/
theorem ld_row (x : (⟨2, ![a, n]⟩ : Shape).Idx → Val e) (r : Nat) (r' : Fin a) (hr : r'.val = r) (inb) (k : Fin n) :
    View.ld x (Rect.unit (s := ⟨2, ![a, n]⟩) ![r, 0] ![1, n] inb) (ix2 (0 : Fin 1) k) = x (ix2 r' k) :=
  congrArg x (row_idx r r' hr inb k)

/-- Every entry in the rows below `hi` of the stores' canonical contents is as `Q` says. -/
def RowsBelow [∀ e, Nonempty (Val e)] (L : List (View.Piece Val ⟨2, ![a, n]⟩ e)) (hi : Nat) (Q : Fin a → Fin n → Val e) : Prop :=
  ∀ (r' : Fin a) (k : Fin n), r'.val < hi → View.canon L (ix2 r' k) = Q r' k

/-- Below row 0 there is nothing to say, whatever the stores. -/
theorem RowsBelow.base [∀ e, Nonempty (Val e)] (L : List (View.Piece Val ⟨2, ![a, n]⟩ e)) (Q : Fin a → Fin n → Val e) :
    RowsBelow L 0 Q := fun _ _ h => absurd h (Nat.not_lt_zero _)

/-- A store of row `r` on top of stores that settle the rows below `r` settles the rows below `r + 1`. -/
theorem RowsBelow.cons [∀ e, Nonempty (Val e)] (r : Nat) (hr : r < a) (inb) (w : (⟨2, ![1, n]⟩ : Shape).Idx → Val e)
    (L : List (View.Piece Val ⟨2, ![a, n]⟩ e)) (Q : Fin a → Fin n → Val e)
    (hw : ∀ k : Fin n, w (ix2 (0 : Fin 1) k) = Q ⟨r, hr⟩ k) (hL : RowsBelow L r Q) :
    RowsBelow (⟨Rect.unit (s := ⟨2, ![a, n]⟩) ![r, 0] ![1, n] inb, w⟩ :: L) (r + 1) Q := by
  intro r' k h
  by_cases e' : r'.val = r
  · rw [canon_row_hit r r' e' inb w L k]
    have hr' : r' = ⟨r, hr⟩ := Fin.ext e'
    rw [hr']; exact hw k
  · rw [canon_row_skip r r' e' inb w L k]
    exact hL r' k (by omega)

/-- Stores that settle every row give the whole contents. -/
theorem RowsBelow.all [∀ e, Nonempty (Val e)] {L : List (View.Piece Val ⟨2, ![a, n]⟩ e)} {Q : Fin a → Fin n → Val e}
    (h : RowsBelow L a Q) : View.canon L = fun y => Q (y 0) (y 1) := by
  funext y
  have hy := eq_ix2 y
  rw [hy]
  exact h (y 0) (y 1) (y 0).isLt

/-- After the stores `L`: the rows below `r` read as `Q` says, and the rows from `r` up still read the base contents `Z`. -/
def RowsSplit [∀ e, Nonempty (Val e)] (L : List (View.Piece Val ⟨2, ![a, n]⟩ e)) (r : Nat) (Q : Fin a → Fin n → Val e)
    (Z : (⟨2, ![a, n]⟩ : Shape).Idx → Val e) : Prop :=
  (∀ (r' : Fin a) (k : Fin n), r'.val < r → View.canon L (ix2 r' k) = Q r' k)
    ∧ (∀ (r' : Fin a) (k : Fin n), r ≤ r'.val → View.canon L (ix2 r' k) = Z (ix2 r' k))

/-- Before any row store the base contents are whatever the stores so far leave. -/
theorem RowsSplit.base [∀ e, Nonempty (Val e)] (L : List (View.Piece Val ⟨2, ![a, n]⟩ e)) (Q : Fin a → Fin n → Val e) :
    RowsSplit L 0 Q (View.canon L) :=
  ⟨fun _ _ h => absurd h (Nat.not_lt_zero _), fun _ _ _ => rfl⟩

/-- A store of row `r` whose payload, given that row `r` still reads the base, is `Q`'s row `r`, moves the split up by one. -/
theorem RowsSplit.cons [∀ e, Nonempty (Val e)] (r : Nat) (hr : r < a) (inb) (w : (⟨2, ![1, n]⟩ : Shape).Idx → Val e)
    (L : List (View.Piece Val ⟨2, ![a, n]⟩ e)) (Q : Fin a → Fin n → Val e) (Z : (⟨2, ![a, n]⟩ : Shape).Idx → Val e)
    (hL : RowsSplit L r Q Z)
    (hw : (∀ k : Fin n, View.canon L (ix2 (⟨r, hr⟩ : Fin a) k) = Z (ix2 (⟨r, hr⟩ : Fin a) k)) →
      ∀ k : Fin n, w (ix2 (0 : Fin 1) k) = Q ⟨r, hr⟩ k) :
    RowsSplit (⟨Rect.unit (s := ⟨2, ![a, n]⟩) ![r, 0] ![1, n] inb, w⟩ :: L) (r + 1) Q Z := by
  refine ⟨fun r' k h => ?_, fun r' k h => ?_⟩
  · by_cases e' : r'.val = r
    · rw [canon_row_hit r r' e' inb w L k]
      have hr' : r' = ⟨r, hr⟩ := Fin.ext e'
      rw [hr']; exact hw (fun k => hL.2 ⟨r, hr⟩ k (Nat.le_refl r)) k
    · rw [canon_row_skip r r' e' inb w L k]
      exact hL.1 r' k (by omega)
  · rw [canon_row_skip r r' (by omega) inb w L k]
    exact hL.2 r' k (by omega)

/-- Once every row is settled the contents are `Q`. -/
theorem RowsSplit.all [∀ e, Nonempty (Val e)] {L : List (View.Piece Val ⟨2, ![a, n]⟩ e)} {Q : Fin a → Fin n → Val e}
    {Z : (⟨2, ![a, n]⟩ : Shape).Idx → Val e} (h : RowsSplit L a Q Z) : View.canon L = fun y => Q (y 0) (y 1) := by
  funext y
  have hy := eq_ix2 y
  rw [hy]
  exact h.1 (y 0) (y 1) (y 0).isLt

/-- A row read out of a whole buffer holding `X`: its entry (0, k) is X (r, k). -/
theorem readAt_unread_row {sig : RefSig} {κ : Kind} {sp : Space} (M : Memref sig κ sp ⟨2, ![a, n]⟩ e) (h : M.IsWhole)
    (X : (⟨2, ![a, n]⟩ : Shape).Idx → Val e) (r : Nat) (r' : Fin a) (hr : r'.val = r) (inb) (k : Fin n) :
    View.readAt Val M.view (Rect.unit (s := ⟨2, ![a, n]⟩) ![r, 0] ![1, n] inb).toLoadRect (h.unread X) (ix2 (0 : Fin 1) k)
      = X (ix2 r' k) := by
  rw [View.readAt_eq_ld, h.read_unread]
  exact ld_row X r r' hr inb k

/-- A row read after stores: its entry (0, k) is the stores' canonical contents at (r, k). -/
theorem readCov_row [∀ e, Nonempty (Val e)] {sig : RefSig} {κ : Kind} {sp : Space} (v : View sig κ sp ⟨2, ![a, n]⟩ e)
    (L : List (View.Piece Val ⟨2, ![a, n]⟩ e)) (r : Nat) (r' : Fin a) (hr : r'.val = r) (inb) (k : Fin n) :
    v.readCov L (Rect.unit (s := ⟨2, ![a, n]⟩) ![r, 0] ![1, n] inb).toLoadRect (ix2 (0 : Fin 1) k) = View.canon L (ix2 r' k) := by
  rw [View.readCov_eq_canon']
  exact congrArg (View.canon L) (row_idx r r' hr inb k)

end Cert.LibRowSlabs
-- ==== Proof.Pieces.lean ====
/-
  What the kernel body leaves in its two scratch buffers and in the output block, case by case, over the extended
  reals. The body stores the row-sum scratch one row at a time: row r becomes the old row r plus the block's row
  sums at position r. At a core's first tile the scratch is zeroed first, so each old row is read back through the
  earlier row stores down to the zero fill. The Gram scratch is stored whole: old contents (or the zero fill) plus
  the block's eᵀe. At a core's last tile the output block is filled with zeros and its entry (0,0) overwritten with
  the total computed from the new scratch contents.
-/
import proofs.«124193_j68049461838564_2_alg».proof.Proof.Gen.KernelIdeal.Frame
import proofs.«124193_j68049461838564_2_alg».proof.Proof.RowPayloads
import proofs.«124193_j68049461838564_2_alg».proof.Proof.LibRowSlabs
import Idealize.ShloMosaic.Lib.Pipeline.Value
import Idealize.ShloMosaic.Lib.ValueIdx

set_option maxRecDepth 16384
set_option maxHeartbeats 4000000

noncomputable section

namespace Cert.KernelIdeal.Pieces

open Idealize.ShloMosaic Idealize.ShloMosaic.TcCoe Idealize.ShloMosaic.Tactic Idealize.ShloMosaic.ValueIdx
open Idealize.SL Idealize.SL.Sem
open Cert.KernelIdeal Cert.KernelIdeal.Gen Cert.LossSpec Cert.KernelIdeal.RowPayloads Cert.LibRowSlabs

/-- The block of errors as the body reads it off its two staging buffers. -/
theorem err_reads (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (x0 x1 : Vec Ideal S1024x96 .f32) :
    (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) = k0_pay7 (F := Ideal) x0 x1 := by
  have hz : (![0, 0] : Fin 2 → ℕ) = fun _ => 0 := by
    funext a; match a with | ⟨0, _⟩ => rfl | ⟨1, _⟩ => rfl
  rw [View.readAt_eq_ld, View.readAt_eq_ld, harg2.read_unread, harg3.read_unread,
    View.ld_unit_zero (S := S1024x96) hz, View.ld_unit_zero (S := S1024x96) hz]

/-- Case B: after the body, row r of the row-sum scratch is what it held plus this block's row sums. -/
theorem rows_B (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : ¬cond0_0 i) (hc1 : ¬cond0_1 i)
    (x0 x1 : Vec Ideal S1024x96 .f32) (x2 : Vec Ideal S2x96x96 .f32) (xs0 xs1 : Vec Ideal S96x96 .f32) :
    sout0_B_0 (F := Ideal) c i arg2 harg2 arg3 harg3 arg4 harg4 arg5 harg5 arg6 harg6 arg7 harg7 hc0 hc1 x0 x1 x2 xs0 xs1
      = fun y => xs0 (ix2 (y 0) (y 1)) + rowSum (k0_pay7 (F := Ideal) x0 x1) (y 0) (y 1) := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [← err_reads c i arg2 harg2 arg3 harg3 arg4 harg4 arg5 harg5 arg6 harg6 arg7 harg7 x0 x1]
  refine RowsSplit.all (Z := View.canon []) (Q := (fun r' k => xs0 (ix2 r' k) + rowSum (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) r' k)) ?_
  refine RowsSplit.cons 95 (by omega) _ _ _ _ _ ?_ (fun hZ k => (row95 _ _ k).trans (congrArg (fun z => z + _) (readAt_unread_row arg6 harg6 xs0 95 ⟨95, by omega⟩ rfl _ k)))
  refine RowsSplit.cons 94 (by omega) _ _ _ _ _ ?_ (fun hZ k => (row94 _ _ k).trans (congrArg (fun z => z + _) (readAt_unread_row arg6 harg6 xs0 94 ⟨94, by omega⟩ rfl _ k)))
  refine RowsSplit.cons 93 (by omega) _ _ _ _ _ ?_ (fun hZ k => (row93 _ _ k).trans (congrArg (fun z => z + _) (readAt_unread_row arg6 harg6 xs0 93 ⟨93, by omega⟩ rfl _ k)))
  refine RowsSplit.cons 92 (by omega) _ _ _ _ _ ?_ (fun hZ k => (row92 _ _ k).trans (congrArg (fun z => z + _) (readAt_unread_row arg6 harg6 xs0 92 ⟨92, by omega⟩ rfl _ k)))
  refine RowsSplit.cons 91 (by omega) _ _ _ _ _ ?_ (fun hZ k => (row91 _ _ k).trans (congrArg (fun z => z + _) (readAt_unread_row arg6 harg6 xs0 91 ⟨91, by omega⟩ rfl _ k)))
  refine RowsSplit.cons 90 (by omega) _ _ _ _ _ ?_ (fun hZ k => (row90 _ _ k).trans (congrArg (fun z => z + _) (readAt_unread_row arg6 harg6 xs0 90 ⟨90, by omega⟩ rfl _ k)))
  refine RowsSplit.cons 89 (by omega) _ _ _ _ _ ?_ (fun hZ k => (row89 _ _ k).trans (congrArg (fun z => z + _) (readAt_unread_row arg6 harg6 xs0 89 ⟨89, by omega⟩ rfl _ k)))
  refine RowsSplit.cons 88 (by omega) _ _ _ _ _ ?_ (fun hZ k => (row88 _ _ k).trans (congrArg (fun z => z + _) (readAt_unread_row arg6 harg6 xs0 88 ⟨88, by omega⟩ rfl _ k)))
  refine RowsSplit.cons 87 (by omega) _ _ _ _ _ ?_ (fun hZ k => (row87 _ _ k).trans (congrArg (fun z => z + _) (readAt_unread_row arg6 harg6 xs0 87 ⟨87, by omega⟩ rfl _ k)))
  refine RowsSplit.cons 86 (by omega) _ _ _ _ _ ?_ (fun hZ k => (row86 _ _ k).trans (congrArg (fun z => z + _) (readAt_unread_row arg6 harg6 xs0 86 ⟨86, by omega⟩ rfl _ k)))
  refine RowsSplit.cons 85 (by omega) _ _ _ _ _ ?_ (fun hZ k => (row85 _ _ k).trans (congrArg (fun z => z + _) (readAt_unread_row arg6 harg6 xs0 85 ⟨85, by omega⟩ rfl _ k)))
  refine RowsSplit.cons 84 (by omega) _ _ _ _ _ ?_ (fun hZ k => (row84 _ _ k).trans (congrArg (fun z => z + _) (readAt_unread_row arg6 harg6 xs0 84 ⟨84, by omega⟩ rfl _ k)))
  refine RowsSplit.cons 83 (by omega) _ _ _ _ _ ?_ (fun hZ k => (row83 _ _ k).trans (congrArg (fun z => z + _) (readAt_unread_row arg6 harg6 xs0 83 ⟨83, by omega⟩ rfl _ k)))
  refine RowsSplit.cons 82 (by omega) _ _ _ _ _ ?_ (fun hZ k => (row82 _ _ k).trans (congrArg (fun z => z + _) (readAt_unread_row arg6 harg6 xs0 82 ⟨82, by omega⟩ rfl _ k)))
  refine RowsSplit.cons 81 (by omega) _ _ _ _ _ ?_ (fun hZ k => (row81 _ _ k).trans (congrArg (fun z => z + _) (readAt_unread_row arg6 harg6 xs0 81 ⟨81, by omega⟩ rfl _ k)))
  refine RowsSplit.cons 80 (by omega) _ _ _ _ _ ?_ (fun hZ k => (row80 _ _ k).trans (congrArg (fun z => z + _) (readAt_unread_row arg6 harg6 xs0 80 ⟨80, by omega⟩ rfl _ k)))
  refine RowsSplit.cons 79 (by omega) _ _ _ _ _ ?_ (fun hZ k => (row79 _ _ k).trans (congrArg (fun z => z + _) (readAt_unread_row arg6 harg6 xs0 79 ⟨79, by omega⟩ rfl _ k)))
  refine RowsSplit.cons 78 (by omega) _ _ _ _ _ ?_ (fun hZ k => (row78 _ _ k).trans (congrArg (fun z => z + _) (readAt_unread_row arg6 harg6 xs0 78 ⟨78, by omega⟩ rfl _ k)))
  refine RowsSplit.cons 77 (by omega) _ _ _ _ _ ?_ (fun hZ k => (row77 _ _ k).trans (congrArg (fun z => z + _) (readAt_unread_row arg6 harg6 xs0 77 ⟨77, by omega⟩ rfl _ k)))
  refine RowsSplit.cons 76 (by omega) _ _ _ _ _ ?_ (fun hZ k => (row76 _ _ k).trans (congrArg (fun z => z + _) (readAt_unread_row arg6 harg6 xs0 76 ⟨76, by omega⟩ rfl _ k)))
  refine RowsSplit.cons 75 (by omega) _ _ _ _ _ ?_ (fun hZ k => (row75 _ _ k).trans (congrArg (fun z => z + _) (readAt_unread_row arg6 harg6 xs0 75 ⟨75, by omega⟩ rfl _ k)))
  refine RowsSplit.cons 74 (by omega) _ _ _ _ _ ?_ (fun hZ k => (row74 _ _ k).trans (congrArg (fun z => z + _) (readAt_unread_row arg6 harg6 xs0 74 ⟨74, by omega⟩ rfl _ k)))
  refine RowsSplit.cons 73 (by omega) _ _ _ _ _ ?_ (fun hZ k => (row73 _ _ k).trans (congrArg (fun z => z + _) (readAt_unread_row arg6 harg6 xs0 73 ⟨73, by omega⟩ rfl _ k)))
  refine RowsSplit.cons 72 (by omega) _ _ _ _ _ ?_ (fun hZ k => (row72 _ _ k).trans (congrArg (fun z => z + _) (readAt_unread_row arg6 harg6 xs0 72 ⟨72, by omega⟩ rfl _ k)))
  refine RowsSplit.cons 71 (by omega) _ _ _ _ _ ?_ (fun hZ k => (row71 _ _ k).trans (congrArg (fun z => z + _) (readAt_unread_row arg6 harg6 xs0 71 ⟨71, by omega⟩ rfl _ k)))
  refine RowsSplit.cons 70 (by omega) _ _ _ _ _ ?_ (fun hZ k => (row70 _ _ k).trans (congrArg (fun z => z + _) (readAt_unread_row arg6 harg6 xs0 70 ⟨70, by omega⟩ rfl _ k)))
  refine RowsSplit.cons 69 (by omega) _ _ _ _ _ ?_ (fun hZ k => (row69 _ _ k).trans (congrArg (fun z => z + _) (readAt_unread_row arg6 harg6 xs0 69 ⟨69, by omega⟩ rfl _ k)))
  refine RowsSplit.cons 68 (by omega) _ _ _ _ _ ?_ (fun hZ k => (row68 _ _ k).trans (congrArg (fun z => z + _) (readAt_unread_row arg6 harg6 xs0 68 ⟨68, by omega⟩ rfl _ k)))
  refine RowsSplit.cons 67 (by omega) _ _ _ _ _ ?_ (fun hZ k => (row67 _ _ k).trans (congrArg (fun z => z + _) (readAt_unread_row arg6 harg6 xs0 67 ⟨67, by omega⟩ rfl _ k)))
  refine RowsSplit.cons 66 (by omega) _ _ _ _ _ ?_ (fun hZ k => (row66 _ _ k).trans (congrArg (fun z => z + _) (readAt_unread_row arg6 harg6 xs0 66 ⟨66, by omega⟩ rfl _ k)))
  refine RowsSplit.cons 65 (by omega) _ _ _ _ _ ?_ (fun hZ k => (row65 _ _ k).trans (congrArg (fun z => z + _) (readAt_unread_row arg6 harg6 xs0 65 ⟨65, by omega⟩ rfl _ k)))
  refine RowsSplit.cons 64 (by omega) _ _ _ _ _ ?_ (fun hZ k => (row64 _ _ k).trans (congrArg (fun z => z + _) (readAt_unread_row arg6 harg6 xs0 64 ⟨64, by omega⟩ rfl _ k)))
  refine RowsSplit.cons 63 (by omega) _ _ _ _ _ ?_ (fun hZ k => (row63 _ _ k).trans (congrArg (fun z => z + _) (readAt_unread_row arg6 harg6 xs0 63 ⟨63, by omega⟩ rfl _ k)))
  refine RowsSplit.cons 62 (by omega) _ _ _ _ _ ?_ (fun hZ k => (row62 _ _ k).trans (congrArg (fun z => z + _) (readAt_unread_row arg6 harg6 xs0 62 ⟨62, by omega⟩ rfl _ k)))
  refine RowsSplit.cons 61 (by omega) _ _ _ _ _ ?_ (fun hZ k => (row61 _ _ k).trans (congrArg (fun z => z + _) (readAt_unread_row arg6 harg6 xs0 61 ⟨61, by omega⟩ rfl _ k)))
  refine RowsSplit.cons 60 (by omega) _ _ _ _ _ ?_ (fun hZ k => (row60 _ _ k).trans (congrArg (fun z => z + _) (readAt_unread_row arg6 harg6 xs0 60 ⟨60, by omega⟩ rfl _ k)))
  refine RowsSplit.cons 59 (by omega) _ _ _ _ _ ?_ (fun hZ k => (row59 _ _ k).trans (congrArg (fun z => z + _) (readAt_unread_row arg6 harg6 xs0 59 ⟨59, by omega⟩ rfl _ k)))
  refine RowsSplit.cons 58 (by omega) _ _ _ _ _ ?_ (fun hZ k => (row58 _ _ k).trans (congrArg (fun z => z + _) (readAt_unread_row arg6 harg6 xs0 58 ⟨58, by omega⟩ rfl _ k)))
  refine RowsSplit.cons 57 (by omega) _ _ _ _ _ ?_ (fun hZ k => (row57 _ _ k).trans (congrArg (fun z => z + _) (readAt_unread_row arg6 harg6 xs0 57 ⟨57, by omega⟩ rfl _ k)))
  refine RowsSplit.cons 56 (by omega) _ _ _ _ _ ?_ (fun hZ k => (row56 _ _ k).trans (congrArg (fun z => z + _) (readAt_unread_row arg6 harg6 xs0 56 ⟨56, by omega⟩ rfl _ k)))
  refine RowsSplit.cons 55 (by omega) _ _ _ _ _ ?_ (fun hZ k => (row55 _ _ k).trans (congrArg (fun z => z + _) (readAt_unread_row arg6 harg6 xs0 55 ⟨55, by omega⟩ rfl _ k)))
  refine RowsSplit.cons 54 (by omega) _ _ _ _ _ ?_ (fun hZ k => (row54 _ _ k).trans (congrArg (fun z => z + _) (readAt_unread_row arg6 harg6 xs0 54 ⟨54, by omega⟩ rfl _ k)))
  refine RowsSplit.cons 53 (by omega) _ _ _ _ _ ?_ (fun hZ k => (row53 _ _ k).trans (congrArg (fun z => z + _) (readAt_unread_row arg6 harg6 xs0 53 ⟨53, by omega⟩ rfl _ k)))
  refine RowsSplit.cons 52 (by omega) _ _ _ _ _ ?_ (fun hZ k => (row52 _ _ k).trans (congrArg (fun z => z + _) (readAt_unread_row arg6 harg6 xs0 52 ⟨52, by omega⟩ rfl _ k)))
  refine RowsSplit.cons 51 (by omega) _ _ _ _ _ ?_ (fun hZ k => (row51 _ _ k).trans (congrArg (fun z => z + _) (readAt_unread_row arg6 harg6 xs0 51 ⟨51, by omega⟩ rfl _ k)))
  refine RowsSplit.cons 50 (by omega) _ _ _ _ _ ?_ (fun hZ k => (row50 _ _ k).trans (congrArg (fun z => z + _) (readAt_unread_row arg6 harg6 xs0 50 ⟨50, by omega⟩ rfl _ k)))
  refine RowsSplit.cons 49 (by omega) _ _ _ _ _ ?_ (fun hZ k => (row49 _ _ k).trans (congrArg (fun z => z + _) (readAt_unread_row arg6 harg6 xs0 49 ⟨49, by omega⟩ rfl _ k)))
  refine RowsSplit.cons 48 (by omega) _ _ _ _ _ ?_ (fun hZ k => (row48 _ _ k).trans (congrArg (fun z => z + _) (readAt_unread_row arg6 harg6 xs0 48 ⟨48, by omega⟩ rfl _ k)))
  refine RowsSplit.cons 47 (by omega) _ _ _ _ _ ?_ (fun hZ k => (row47 _ _ k).trans (congrArg (fun z => z + _) (readAt_unread_row arg6 harg6 xs0 47 ⟨47, by omega⟩ rfl _ k)))
  refine RowsSplit.cons 46 (by omega) _ _ _ _ _ ?_ (fun hZ k => (row46 _ _ k).trans (congrArg (fun z => z + _) (readAt_unread_row arg6 harg6 xs0 46 ⟨46, by omega⟩ rfl _ k)))
  refine RowsSplit.cons 45 (by omega) _ _ _ _ _ ?_ (fun hZ k => (row45 _ _ k).trans (congrArg (fun z => z + _) (readAt_unread_row arg6 harg6 xs0 45 ⟨45, by omega⟩ rfl _ k)))
  refine RowsSplit.cons 44 (by omega) _ _ _ _ _ ?_ (fun hZ k => (row44 _ _ k).trans (congrArg (fun z => z + _) (readAt_unread_row arg6 harg6 xs0 44 ⟨44, by omega⟩ rfl _ k)))
  refine RowsSplit.cons 43 (by omega) _ _ _ _ _ ?_ (fun hZ k => (row43 _ _ k).trans (congrArg (fun z => z + _) (readAt_unread_row arg6 harg6 xs0 43 ⟨43, by omega⟩ rfl _ k)))
  refine RowsSplit.cons 42 (by omega) _ _ _ _ _ ?_ (fun hZ k => (row42 _ _ k).trans (congrArg (fun z => z + _) (readAt_unread_row arg6 harg6 xs0 42 ⟨42, by omega⟩ rfl _ k)))
  refine RowsSplit.cons 41 (by omega) _ _ _ _ _ ?_ (fun hZ k => (row41 _ _ k).trans (congrArg (fun z => z + _) (readAt_unread_row arg6 harg6 xs0 41 ⟨41, by omega⟩ rfl _ k)))
  refine RowsSplit.cons 40 (by omega) _ _ _ _ _ ?_ (fun hZ k => (row40 _ _ k).trans (congrArg (fun z => z + _) (readAt_unread_row arg6 harg6 xs0 40 ⟨40, by omega⟩ rfl _ k)))
  refine RowsSplit.cons 39 (by omega) _ _ _ _ _ ?_ (fun hZ k => (row39 _ _ k).trans (congrArg (fun z => z + _) (readAt_unread_row arg6 harg6 xs0 39 ⟨39, by omega⟩ rfl _ k)))
  refine RowsSplit.cons 38 (by omega) _ _ _ _ _ ?_ (fun hZ k => (row38 _ _ k).trans (congrArg (fun z => z + _) (readAt_unread_row arg6 harg6 xs0 38 ⟨38, by omega⟩ rfl _ k)))
  refine RowsSplit.cons 37 (by omega) _ _ _ _ _ ?_ (fun hZ k => (row37 _ _ k).trans (congrArg (fun z => z + _) (readAt_unread_row arg6 harg6 xs0 37 ⟨37, by omega⟩ rfl _ k)))
  refine RowsSplit.cons 36 (by omega) _ _ _ _ _ ?_ (fun hZ k => (row36 _ _ k).trans (congrArg (fun z => z + _) (readAt_unread_row arg6 harg6 xs0 36 ⟨36, by omega⟩ rfl _ k)))
  refine RowsSplit.cons 35 (by omega) _ _ _ _ _ ?_ (fun hZ k => (row35 _ _ k).trans (congrArg (fun z => z + _) (readAt_unread_row arg6 harg6 xs0 35 ⟨35, by omega⟩ rfl _ k)))
  refine RowsSplit.cons 34 (by omega) _ _ _ _ _ ?_ (fun hZ k => (row34 _ _ k).trans (congrArg (fun z => z + _) (readAt_unread_row arg6 harg6 xs0 34 ⟨34, by omega⟩ rfl _ k)))
  refine RowsSplit.cons 33 (by omega) _ _ _ _ _ ?_ (fun hZ k => (row33 _ _ k).trans (congrArg (fun z => z + _) (readAt_unread_row arg6 harg6 xs0 33 ⟨33, by omega⟩ rfl _ k)))
  refine RowsSplit.cons 32 (by omega) _ _ _ _ _ ?_ (fun hZ k => (row32 _ _ k).trans (congrArg (fun z => z + _) (readAt_unread_row arg6 harg6 xs0 32 ⟨32, by omega⟩ rfl _ k)))
  refine RowsSplit.cons 31 (by omega) _ _ _ _ _ ?_ (fun hZ k => (row31 _ _ k).trans (congrArg (fun z => z + _) (readAt_unread_row arg6 harg6 xs0 31 ⟨31, by omega⟩ rfl _ k)))
  refine RowsSplit.cons 30 (by omega) _ _ _ _ _ ?_ (fun hZ k => (row30 _ _ k).trans (congrArg (fun z => z + _) (readAt_unread_row arg6 harg6 xs0 30 ⟨30, by omega⟩ rfl _ k)))
  refine RowsSplit.cons 29 (by omega) _ _ _ _ _ ?_ (fun hZ k => (row29 _ _ k).trans (congrArg (fun z => z + _) (readAt_unread_row arg6 harg6 xs0 29 ⟨29, by omega⟩ rfl _ k)))
  refine RowsSplit.cons 28 (by omega) _ _ _ _ _ ?_ (fun hZ k => (row28 _ _ k).trans (congrArg (fun z => z + _) (readAt_unread_row arg6 harg6 xs0 28 ⟨28, by omega⟩ rfl _ k)))
  refine RowsSplit.cons 27 (by omega) _ _ _ _ _ ?_ (fun hZ k => (row27 _ _ k).trans (congrArg (fun z => z + _) (readAt_unread_row arg6 harg6 xs0 27 ⟨27, by omega⟩ rfl _ k)))
  refine RowsSplit.cons 26 (by omega) _ _ _ _ _ ?_ (fun hZ k => (row26 _ _ k).trans (congrArg (fun z => z + _) (readAt_unread_row arg6 harg6 xs0 26 ⟨26, by omega⟩ rfl _ k)))
  refine RowsSplit.cons 25 (by omega) _ _ _ _ _ ?_ (fun hZ k => (row25 _ _ k).trans (congrArg (fun z => z + _) (readAt_unread_row arg6 harg6 xs0 25 ⟨25, by omega⟩ rfl _ k)))
  refine RowsSplit.cons 24 (by omega) _ _ _ _ _ ?_ (fun hZ k => (row24 _ _ k).trans (congrArg (fun z => z + _) (readAt_unread_row arg6 harg6 xs0 24 ⟨24, by omega⟩ rfl _ k)))
  refine RowsSplit.cons 23 (by omega) _ _ _ _ _ ?_ (fun hZ k => (row23 _ _ k).trans (congrArg (fun z => z + _) (readAt_unread_row arg6 harg6 xs0 23 ⟨23, by omega⟩ rfl _ k)))
  refine RowsSplit.cons 22 (by omega) _ _ _ _ _ ?_ (fun hZ k => (row22 _ _ k).trans (congrArg (fun z => z + _) (readAt_unread_row arg6 harg6 xs0 22 ⟨22, by omega⟩ rfl _ k)))
  refine RowsSplit.cons 21 (by omega) _ _ _ _ _ ?_ (fun hZ k => (row21 _ _ k).trans (congrArg (fun z => z + _) (readAt_unread_row arg6 harg6 xs0 21 ⟨21, by omega⟩ rfl _ k)))
  refine RowsSplit.cons 20 (by omega) _ _ _ _ _ ?_ (fun hZ k => (row20 _ _ k).trans (congrArg (fun z => z + _) (readAt_unread_row arg6 harg6 xs0 20 ⟨20, by omega⟩ rfl _ k)))
  refine RowsSplit.cons 19 (by omega) _ _ _ _ _ ?_ (fun hZ k => (row19 _ _ k).trans (congrArg (fun z => z + _) (readAt_unread_row arg6 harg6 xs0 19 ⟨19, by omega⟩ rfl _ k)))
  refine RowsSplit.cons 18 (by omega) _ _ _ _ _ ?_ (fun hZ k => (row18 _ _ k).trans (congrArg (fun z => z + _) (readAt_unread_row arg6 harg6 xs0 18 ⟨18, by omega⟩ rfl _ k)))
  refine RowsSplit.cons 17 (by omega) _ _ _ _ _ ?_ (fun hZ k => (row17 _ _ k).trans (congrArg (fun z => z + _) (readAt_unread_row arg6 harg6 xs0 17 ⟨17, by omega⟩ rfl _ k)))
  refine RowsSplit.cons 16 (by omega) _ _ _ _ _ ?_ (fun hZ k => (row16 _ _ k).trans (congrArg (fun z => z + _) (readAt_unread_row arg6 harg6 xs0 16 ⟨16, by omega⟩ rfl _ k)))
  refine RowsSplit.cons 15 (by omega) _ _ _ _ _ ?_ (fun hZ k => (row15 _ _ k).trans (congrArg (fun z => z + _) (readAt_unread_row arg6 harg6 xs0 15 ⟨15, by omega⟩ rfl _ k)))
  refine RowsSplit.cons 14 (by omega) _ _ _ _ _ ?_ (fun hZ k => (row14 _ _ k).trans (congrArg (fun z => z + _) (readAt_unread_row arg6 harg6 xs0 14 ⟨14, by omega⟩ rfl _ k)))
  refine RowsSplit.cons 13 (by omega) _ _ _ _ _ ?_ (fun hZ k => (row13 _ _ k).trans (congrArg (fun z => z + _) (readAt_unread_row arg6 harg6 xs0 13 ⟨13, by omega⟩ rfl _ k)))
  refine RowsSplit.cons 12 (by omega) _ _ _ _ _ ?_ (fun hZ k => (row12 _ _ k).trans (congrArg (fun z => z + _) (readAt_unread_row arg6 harg6 xs0 12 ⟨12, by omega⟩ rfl _ k)))
  refine RowsSplit.cons 11 (by omega) _ _ _ _ _ ?_ (fun hZ k => (row11 _ _ k).trans (congrArg (fun z => z + _) (readAt_unread_row arg6 harg6 xs0 11 ⟨11, by omega⟩ rfl _ k)))
  refine RowsSplit.cons 10 (by omega) _ _ _ _ _ ?_ (fun hZ k => (row10 _ _ k).trans (congrArg (fun z => z + _) (readAt_unread_row arg6 harg6 xs0 10 ⟨10, by omega⟩ rfl _ k)))
  refine RowsSplit.cons 9 (by omega) _ _ _ _ _ ?_ (fun hZ k => (row9 _ _ k).trans (congrArg (fun z => z + _) (readAt_unread_row arg6 harg6 xs0 9 ⟨9, by omega⟩ rfl _ k)))
  refine RowsSplit.cons 8 (by omega) _ _ _ _ _ ?_ (fun hZ k => (row8 _ _ k).trans (congrArg (fun z => z + _) (readAt_unread_row arg6 harg6 xs0 8 ⟨8, by omega⟩ rfl _ k)))
  refine RowsSplit.cons 7 (by omega) _ _ _ _ _ ?_ (fun hZ k => (row7 _ _ k).trans (congrArg (fun z => z + _) (readAt_unread_row arg6 harg6 xs0 7 ⟨7, by omega⟩ rfl _ k)))
  refine RowsSplit.cons 6 (by omega) _ _ _ _ _ ?_ (fun hZ k => (row6 _ _ k).trans (congrArg (fun z => z + _) (readAt_unread_row arg6 harg6 xs0 6 ⟨6, by omega⟩ rfl _ k)))
  refine RowsSplit.cons 5 (by omega) _ _ _ _ _ ?_ (fun hZ k => (row5 _ _ k).trans (congrArg (fun z => z + _) (readAt_unread_row arg6 harg6 xs0 5 ⟨5, by omega⟩ rfl _ k)))
  refine RowsSplit.cons 4 (by omega) _ _ _ _ _ ?_ (fun hZ k => (row4 _ _ k).trans (congrArg (fun z => z + _) (readAt_unread_row arg6 harg6 xs0 4 ⟨4, by omega⟩ rfl _ k)))
  refine RowsSplit.cons 3 (by omega) _ _ _ _ _ ?_ (fun hZ k => (row3 _ _ k).trans (congrArg (fun z => z + _) (readAt_unread_row arg6 harg6 xs0 3 ⟨3, by omega⟩ rfl _ k)))
  refine RowsSplit.cons 2 (by omega) _ _ _ _ _ ?_ (fun hZ k => (row2 _ _ k).trans (congrArg (fun z => z + _) (readAt_unread_row arg6 harg6 xs0 2 ⟨2, by omega⟩ rfl _ k)))
  refine RowsSplit.cons 1 (by omega) _ _ _ _ _ ?_ (fun hZ k => (row1 _ _ _ k).trans (congrArg (fun z => z + _) (readAt_unread_row arg6 harg6 xs0 1 ⟨1, by omega⟩ rfl _ k)))
  refine RowsSplit.cons 0 (by omega) _ _ _ _ _ ?_ (fun hZ k => (row0 _ _ _ k).trans (congrArg (fun z => z + _) (readAt_unread_row arg6 harg6 xs0 0 ⟨0, by omega⟩ rfl _ k)))
  exact RowsSplit.base _ _

/-- Case B: after the body, the Gram scratch is what it held plus this block's eᵀe. -/
theorem gram_B (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : ¬cond0_0 i) (hc1 : ¬cond0_1 i)
    (x0 x1 : Vec Ideal S1024x96 .f32) (x2 : Vec Ideal S2x96x96 .f32) (xs0 xs1 : Vec Ideal S96x96 .f32) :
    sout0_B_1 (F := Ideal) c i arg2 harg2 arg3 harg3 arg4 harg4 arg5 harg5 arg6 harg6 arg7 harg7 hc0 hc1 x0 x1 x2 xs0 xs1
      = k0_pay2 (F := Ideal) (k0_pay7 (F := Ideal) x0 x1) xs1 := by
  have hz : (![0, 0] : Fin 2 → ℕ) = fun _ => 0 := by
    funext a; match a with | ⟨0, _⟩ => rfl | ⟨1, _⟩ => rfl
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S96x96) hz, err_reads c i arg2 harg2 arg3 harg3 arg4 harg4 arg5 harg5 arg6 harg6 arg7 harg7 x0 x1, View.readAt_eq_ld, harg7.read_unread,
    View.ld_unit_zero (S := S96x96) hz]

/-- Case C: after the body, row r of the row-sum scratch is what it held plus this block's row sums. -/
theorem rows_C (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : ¬cond0_0 i) (hc1 : cond0_1 i)
    (x0 x1 : Vec Ideal S1024x96 .f32) (x2 : Vec Ideal S2x96x96 .f32) (xs0 xs1 : Vec Ideal S96x96 .f32) :
    sout0_C_0 (F := Ideal) c i arg2 harg2 arg3 harg3 arg4 harg4 arg5 harg5 arg6 harg6 arg7 harg7 hc0 hc1 x0 x1 x2 xs0 xs1
      = fun y => xs0 (ix2 (y 0) (y 1)) + rowSum (k0_pay7 (F := Ideal) x0 x1) (y 0) (y 1) := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [← err_reads c i arg2 harg2 arg3 harg3 arg4 harg4 arg5 harg5 arg6 harg6 arg7 harg7 x0 x1]
  refine RowsSplit.all (Z := View.canon []) (Q := (fun r' k => xs0 (ix2 r' k) + rowSum (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) r' k)) ?_
  refine RowsSplit.cons 95 (by omega) _ _ _ _ _ ?_ (fun hZ k => (row95 _ _ k).trans (congrArg (fun z => z + _) (readAt_unread_row arg6 harg6 xs0 95 ⟨95, by omega⟩ rfl _ k)))
  refine RowsSplit.cons 94 (by omega) _ _ _ _ _ ?_ (fun hZ k => (row94 _ _ k).trans (congrArg (fun z => z + _) (readAt_unread_row arg6 harg6 xs0 94 ⟨94, by omega⟩ rfl _ k)))
  refine RowsSplit.cons 93 (by omega) _ _ _ _ _ ?_ (fun hZ k => (row93 _ _ k).trans (congrArg (fun z => z + _) (readAt_unread_row arg6 harg6 xs0 93 ⟨93, by omega⟩ rfl _ k)))
  refine RowsSplit.cons 92 (by omega) _ _ _ _ _ ?_ (fun hZ k => (row92 _ _ k).trans (congrArg (fun z => z + _) (readAt_unread_row arg6 harg6 xs0 92 ⟨92, by omega⟩ rfl _ k)))
  refine RowsSplit.cons 91 (by omega) _ _ _ _ _ ?_ (fun hZ k => (row91 _ _ k).trans (congrArg (fun z => z + _) (readAt_unread_row arg6 harg6 xs0 91 ⟨91, by omega⟩ rfl _ k)))
  refine RowsSplit.cons 90 (by omega) _ _ _ _ _ ?_ (fun hZ k => (row90 _ _ k).trans (congrArg (fun z => z + _) (readAt_unread_row arg6 harg6 xs0 90 ⟨90, by omega⟩ rfl _ k)))
  refine RowsSplit.cons 89 (by omega) _ _ _ _ _ ?_ (fun hZ k => (row89 _ _ k).trans (congrArg (fun z => z + _) (readAt_unread_row arg6 harg6 xs0 89 ⟨89, by omega⟩ rfl _ k)))
  refine RowsSplit.cons 88 (by omega) _ _ _ _ _ ?_ (fun hZ k => (row88 _ _ k).trans (congrArg (fun z => z + _) (readAt_unread_row arg6 harg6 xs0 88 ⟨88, by omega⟩ rfl _ k)))
  refine RowsSplit.cons 87 (by omega) _ _ _ _ _ ?_ (fun hZ k => (row87 _ _ k).trans (congrArg (fun z => z + _) (readAt_unread_row arg6 harg6 xs0 87 ⟨87, by omega⟩ rfl _ k)))
  refine RowsSplit.cons 86 (by omega) _ _ _ _ _ ?_ (fun hZ k => (row86 _ _ k).trans (congrArg (fun z => z + _) (readAt_unread_row arg6 harg6 xs0 86 ⟨86, by omega⟩ rfl _ k)))
  refine RowsSplit.cons 85 (by omega) _ _ _ _ _ ?_ (fun hZ k => (row85 _ _ k).trans (congrArg (fun z => z + _) (readAt_unread_row arg6 harg6 xs0 85 ⟨85, by omega⟩ rfl _ k)))
  refine RowsSplit.cons 84 (by omega) _ _ _ _ _ ?_ (fun hZ k => (row84 _ _ k).trans (congrArg (fun z => z + _) (readAt_unread_row arg6 harg6 xs0 84 ⟨84, by omega⟩ rfl _ k)))
  refine RowsSplit.cons 83 (by omega) _ _ _ _ _ ?_ (fun hZ k => (row83 _ _ k).trans (congrArg (fun z => z + _) (readAt_unread_row arg6 harg6 xs0 83 ⟨83, by omega⟩ rfl _ k)))
  refine RowsSplit.cons 82 (by omega) _ _ _ _ _ ?_ (fun hZ k => (row82 _ _ k).trans (congrArg (fun z => z + _) (readAt_unread_row arg6 harg6 xs0 82 ⟨82, by omega⟩ rfl _ k)))
  refine RowsSplit.cons 81 (by omega) _ _ _ _ _ ?_ (fun hZ k => (row81 _ _ k).trans (congrArg (fun z => z + _) (readAt_unread_row arg6 harg6 xs0 81 ⟨81, by omega⟩ rfl _ k)))
  refine RowsSplit.cons 80 (by omega) _ _ _ _ _ ?_ (fun hZ k => (row80 _ _ k).trans (congrArg (fun z => z + _) (readAt_unread_row arg6 harg6 xs0 80 ⟨80, by omega⟩ rfl _ k)))
  refine RowsSplit.cons 79 (by omega) _ _ _ _ _ ?_ (fun hZ k => (row79 _ _ k).trans (congrArg (fun z => z + _) (readAt_unread_row arg6 harg6 xs0 79 ⟨79, by omega⟩ rfl _ k)))
  refine RowsSplit.cons 78 (by omega) _ _ _ _ _ ?_ (fun hZ k => (row78 _ _ k).trans (congrArg (fun z => z + _) (readAt_unread_row arg6 harg6 xs0 78 ⟨78, by omega⟩ rfl _ k)))
  refine RowsSplit.cons 77 (by omega) _ _ _ _ _ ?_ (fun hZ k => (row77 _ _ k).trans (congrArg (fun z => z + _) (readAt_unread_row arg6 harg6 xs0 77 ⟨77, by omega⟩ rfl _ k)))
  refine RowsSplit.cons 76 (by omega) _ _ _ _ _ ?_ (fun hZ k => (row76 _ _ k).trans (congrArg (fun z => z + _) (readAt_unread_row arg6 harg6 xs0 76 ⟨76, by omega⟩ rfl _ k)))
  refine RowsSplit.cons 75 (by omega) _ _ _ _ _ ?_ (fun hZ k => (row75 _ _ k).trans (congrArg (fun z => z + _) (readAt_unread_row arg6 harg6 xs0 75 ⟨75, by omega⟩ rfl _ k)))
  refine RowsSplit.cons 74 (by omega) _ _ _ _ _ ?_ (fun hZ k => (row74 _ _ k).trans (congrArg (fun z => z + _) (readAt_unread_row arg6 harg6 xs0 74 ⟨74, by omega⟩ rfl _ k)))
  refine RowsSplit.cons 73 (by omega) _ _ _ _ _ ?_ (fun hZ k => (row73 _ _ k).trans (congrArg (fun z => z + _) (readAt_unread_row arg6 harg6 xs0 73 ⟨73, by omega⟩ rfl _ k)))
  refine RowsSplit.cons 72 (by omega) _ _ _ _ _ ?_ (fun hZ k => (row72 _ _ k).trans (congrArg (fun z => z + _) (readAt_unread_row arg6 harg6 xs0 72 ⟨72, by omega⟩ rfl _ k)))
  refine RowsSplit.cons 71 (by omega) _ _ _ _ _ ?_ (fun hZ k => (row71 _ _ k).trans (congrArg (fun z => z + _) (readAt_unread_row arg6 harg6 xs0 71 ⟨71, by omega⟩ rfl _ k)))
  refine RowsSplit.cons 70 (by omega) _ _ _ _ _ ?_ (fun hZ k => (row70 _ _ k).trans (congrArg (fun z => z + _) (readAt_unread_row arg6 harg6 xs0 70 ⟨70, by omega⟩ rfl _ k)))
  refine RowsSplit.cons 69 (by omega) _ _ _ _ _ ?_ (fun hZ k => (row69 _ _ k).trans (congrArg (fun z => z + _) (readAt_unread_row arg6 harg6 xs0 69 ⟨69, by omega⟩ rfl _ k)))
  refine RowsSplit.cons 68 (by omega) _ _ _ _ _ ?_ (fun hZ k => (row68 _ _ k).trans (congrArg (fun z => z + _) (readAt_unread_row arg6 harg6 xs0 68 ⟨68, by omega⟩ rfl _ k)))
  refine RowsSplit.cons 67 (by omega) _ _ _ _ _ ?_ (fun hZ k => (row67 _ _ k).trans (congrArg (fun z => z + _) (readAt_unread_row arg6 harg6 xs0 67 ⟨67, by omega⟩ rfl _ k)))
  refine RowsSplit.cons 66 (by omega) _ _ _ _ _ ?_ (fun hZ k => (row66 _ _ k).trans (congrArg (fun z => z + _) (readAt_unread_row arg6 harg6 xs0 66 ⟨66, by omega⟩ rfl _ k)))
  refine RowsSplit.cons 65 (by omega) _ _ _ _ _ ?_ (fun hZ k => (row65 _ _ k).trans (congrArg (fun z => z + _) (readAt_unread_row arg6 harg6 xs0 65 ⟨65, by omega⟩ rfl _ k)))
  refine RowsSplit.cons 64 (by omega) _ _ _ _ _ ?_ (fun hZ k => (row64 _ _ k).trans (congrArg (fun z => z + _) (readAt_unread_row arg6 harg6 xs0 64 ⟨64, by omega⟩ rfl _ k)))
  refine RowsSplit.cons 63 (by omega) _ _ _ _ _ ?_ (fun hZ k => (row63 _ _ k).trans (congrArg (fun z => z + _) (readAt_unread_row arg6 harg6 xs0 63 ⟨63, by omega⟩ rfl _ k)))
  refine RowsSplit.cons 62 (by omega) _ _ _ _ _ ?_ (fun hZ k => (row62 _ _ k).trans (congrArg (fun z => z + _) (readAt_unread_row arg6 harg6 xs0 62 ⟨62, by omega⟩ rfl _ k)))
  refine RowsSplit.cons 61 (by omega) _ _ _ _ _ ?_ (fun hZ k => (row61 _ _ k).trans (congrArg (fun z => z + _) (readAt_unread_row arg6 harg6 xs0 61 ⟨61, by omega⟩ rfl _ k)))
  refine RowsSplit.cons 60 (by omega) _ _ _ _ _ ?_ (fun hZ k => (row60 _ _ k).trans (congrArg (fun z => z + _) (readAt_unread_row arg6 harg6 xs0 60 ⟨60, by omega⟩ rfl _ k)))
  refine RowsSplit.cons 59 (by omega) _ _ _ _ _ ?_ (fun hZ k => (row59 _ _ k).trans (congrArg (fun z => z + _) (readAt_unread_row arg6 harg6 xs0 59 ⟨59, by omega⟩ rfl _ k)))
  refine RowsSplit.cons 58 (by omega) _ _ _ _ _ ?_ (fun hZ k => (row58 _ _ k).trans (congrArg (fun z => z + _) (readAt_unread_row arg6 harg6 xs0 58 ⟨58, by omega⟩ rfl _ k)))
  refine RowsSplit.cons 57 (by omega) _ _ _ _ _ ?_ (fun hZ k => (row57 _ _ k).trans (congrArg (fun z => z + _) (readAt_unread_row arg6 harg6 xs0 57 ⟨57, by omega⟩ rfl _ k)))
  refine RowsSplit.cons 56 (by omega) _ _ _ _ _ ?_ (fun hZ k => (row56 _ _ k).trans (congrArg (fun z => z + _) (readAt_unread_row arg6 harg6 xs0 56 ⟨56, by omega⟩ rfl _ k)))
  refine RowsSplit.cons 55 (by omega) _ _ _ _ _ ?_ (fun hZ k => (row55 _ _ k).trans (congrArg (fun z => z + _) (readAt_unread_row arg6 harg6 xs0 55 ⟨55, by omega⟩ rfl _ k)))
  refine RowsSplit.cons 54 (by omega) _ _ _ _ _ ?_ (fun hZ k => (row54 _ _ k).trans (congrArg (fun z => z + _) (readAt_unread_row arg6 harg6 xs0 54 ⟨54, by omega⟩ rfl _ k)))
  refine RowsSplit.cons 53 (by omega) _ _ _ _ _ ?_ (fun hZ k => (row53 _ _ k).trans (congrArg (fun z => z + _) (readAt_unread_row arg6 harg6 xs0 53 ⟨53, by omega⟩ rfl _ k)))
  refine RowsSplit.cons 52 (by omega) _ _ _ _ _ ?_ (fun hZ k => (row52 _ _ k).trans (congrArg (fun z => z + _) (readAt_unread_row arg6 harg6 xs0 52 ⟨52, by omega⟩ rfl _ k)))
  refine RowsSplit.cons 51 (by omega) _ _ _ _ _ ?_ (fun hZ k => (row51 _ _ k).trans (congrArg (fun z => z + _) (readAt_unread_row arg6 harg6 xs0 51 ⟨51, by omega⟩ rfl _ k)))
  refine RowsSplit.cons 50 (by omega) _ _ _ _ _ ?_ (fun hZ k => (row50 _ _ k).trans (congrArg (fun z => z + _) (readAt_unread_row arg6 harg6 xs0 50 ⟨50, by omega⟩ rfl _ k)))
  refine RowsSplit.cons 49 (by omega) _ _ _ _ _ ?_ (fun hZ k => (row49 _ _ k).trans (congrArg (fun z => z + _) (readAt_unread_row arg6 harg6 xs0 49 ⟨49, by omega⟩ rfl _ k)))
  refine RowsSplit.cons 48 (by omega) _ _ _ _ _ ?_ (fun hZ k => (row48 _ _ k).trans (congrArg (fun z => z + _) (readAt_unread_row arg6 harg6 xs0 48 ⟨48, by omega⟩ rfl _ k)))
  refine RowsSplit.cons 47 (by omega) _ _ _ _ _ ?_ (fun hZ k => (row47 _ _ k).trans (congrArg (fun z => z + _) (readAt_unread_row arg6 harg6 xs0 47 ⟨47, by omega⟩ rfl _ k)))
  refine RowsSplit.cons 46 (by omega) _ _ _ _ _ ?_ (fun hZ k => (row46 _ _ k).trans (congrArg (fun z => z + _) (readAt_unread_row arg6 harg6 xs0 46 ⟨46, by omega⟩ rfl _ k)))
  refine RowsSplit.cons 45 (by omega) _ _ _ _ _ ?_ (fun hZ k => (row45 _ _ k).trans (congrArg (fun z => z + _) (readAt_unread_row arg6 harg6 xs0 45 ⟨45, by omega⟩ rfl _ k)))
  refine RowsSplit.cons 44 (by omega) _ _ _ _ _ ?_ (fun hZ k => (row44 _ _ k).trans (congrArg (fun z => z + _) (readAt_unread_row arg6 harg6 xs0 44 ⟨44, by omega⟩ rfl _ k)))
  refine RowsSplit.cons 43 (by omega) _ _ _ _ _ ?_ (fun hZ k => (row43 _ _ k).trans (congrArg (fun z => z + _) (readAt_unread_row arg6 harg6 xs0 43 ⟨43, by omega⟩ rfl _ k)))
  refine RowsSplit.cons 42 (by omega) _ _ _ _ _ ?_ (fun hZ k => (row42 _ _ k).trans (congrArg (fun z => z + _) (readAt_unread_row arg6 harg6 xs0 42 ⟨42, by omega⟩ rfl _ k)))
  refine RowsSplit.cons 41 (by omega) _ _ _ _ _ ?_ (fun hZ k => (row41 _ _ k).trans (congrArg (fun z => z + _) (readAt_unread_row arg6 harg6 xs0 41 ⟨41, by omega⟩ rfl _ k)))
  refine RowsSplit.cons 40 (by omega) _ _ _ _ _ ?_ (fun hZ k => (row40 _ _ k).trans (congrArg (fun z => z + _) (readAt_unread_row arg6 harg6 xs0 40 ⟨40, by omega⟩ rfl _ k)))
  refine RowsSplit.cons 39 (by omega) _ _ _ _ _ ?_ (fun hZ k => (row39 _ _ k).trans (congrArg (fun z => z + _) (readAt_unread_row arg6 harg6 xs0 39 ⟨39, by omega⟩ rfl _ k)))
  refine RowsSplit.cons 38 (by omega) _ _ _ _ _ ?_ (fun hZ k => (row38 _ _ k).trans (congrArg (fun z => z + _) (readAt_unread_row arg6 harg6 xs0 38 ⟨38, by omega⟩ rfl _ k)))
  refine RowsSplit.cons 37 (by omega) _ _ _ _ _ ?_ (fun hZ k => (row37 _ _ k).trans (congrArg (fun z => z + _) (readAt_unread_row arg6 harg6 xs0 37 ⟨37, by omega⟩ rfl _ k)))
  refine RowsSplit.cons 36 (by omega) _ _ _ _ _ ?_ (fun hZ k => (row36 _ _ k).trans (congrArg (fun z => z + _) (readAt_unread_row arg6 harg6 xs0 36 ⟨36, by omega⟩ rfl _ k)))
  refine RowsSplit.cons 35 (by omega) _ _ _ _ _ ?_ (fun hZ k => (row35 _ _ k).trans (congrArg (fun z => z + _) (readAt_unread_row arg6 harg6 xs0 35 ⟨35, by omega⟩ rfl _ k)))
  refine RowsSplit.cons 34 (by omega) _ _ _ _ _ ?_ (fun hZ k => (row34 _ _ k).trans (congrArg (fun z => z + _) (readAt_unread_row arg6 harg6 xs0 34 ⟨34, by omega⟩ rfl _ k)))
  refine RowsSplit.cons 33 (by omega) _ _ _ _ _ ?_ (fun hZ k => (row33 _ _ k).trans (congrArg (fun z => z + _) (readAt_unread_row arg6 harg6 xs0 33 ⟨33, by omega⟩ rfl _ k)))
  refine RowsSplit.cons 32 (by omega) _ _ _ _ _ ?_ (fun hZ k => (row32 _ _ k).trans (congrArg (fun z => z + _) (readAt_unread_row arg6 harg6 xs0 32 ⟨32, by omega⟩ rfl _ k)))
  refine RowsSplit.cons 31 (by omega) _ _ _ _ _ ?_ (fun hZ k => (row31 _ _ k).trans (congrArg (fun z => z + _) (readAt_unread_row arg6 harg6 xs0 31 ⟨31, by omega⟩ rfl _ k)))
  refine RowsSplit.cons 30 (by omega) _ _ _ _ _ ?_ (fun hZ k => (row30 _ _ k).trans (congrArg (fun z => z + _) (readAt_unread_row arg6 harg6 xs0 30 ⟨30, by omega⟩ rfl _ k)))
  refine RowsSplit.cons 29 (by omega) _ _ _ _ _ ?_ (fun hZ k => (row29 _ _ k).trans (congrArg (fun z => z + _) (readAt_unread_row arg6 harg6 xs0 29 ⟨29, by omega⟩ rfl _ k)))
  refine RowsSplit.cons 28 (by omega) _ _ _ _ _ ?_ (fun hZ k => (row28 _ _ k).trans (congrArg (fun z => z + _) (readAt_unread_row arg6 harg6 xs0 28 ⟨28, by omega⟩ rfl _ k)))
  refine RowsSplit.cons 27 (by omega) _ _ _ _ _ ?_ (fun hZ k => (row27 _ _ k).trans (congrArg (fun z => z + _) (readAt_unread_row arg6 harg6 xs0 27 ⟨27, by omega⟩ rfl _ k)))
  refine RowsSplit.cons 26 (by omega) _ _ _ _ _ ?_ (fun hZ k => (row26 _ _ k).trans (congrArg (fun z => z + _) (readAt_unread_row arg6 harg6 xs0 26 ⟨26, by omega⟩ rfl _ k)))
  refine RowsSplit.cons 25 (by omega) _ _ _ _ _ ?_ (fun hZ k => (row25 _ _ k).trans (congrArg (fun z => z + _) (readAt_unread_row arg6 harg6 xs0 25 ⟨25, by omega⟩ rfl _ k)))
  refine RowsSplit.cons 24 (by omega) _ _ _ _ _ ?_ (fun hZ k => (row24 _ _ k).trans (congrArg (fun z => z + _) (readAt_unread_row arg6 harg6 xs0 24 ⟨24, by omega⟩ rfl _ k)))
  refine RowsSplit.cons 23 (by omega) _ _ _ _ _ ?_ (fun hZ k => (row23 _ _ k).trans (congrArg (fun z => z + _) (readAt_unread_row arg6 harg6 xs0 23 ⟨23, by omega⟩ rfl _ k)))
  refine RowsSplit.cons 22 (by omega) _ _ _ _ _ ?_ (fun hZ k => (row22 _ _ k).trans (congrArg (fun z => z + _) (readAt_unread_row arg6 harg6 xs0 22 ⟨22, by omega⟩ rfl _ k)))
  refine RowsSplit.cons 21 (by omega) _ _ _ _ _ ?_ (fun hZ k => (row21 _ _ k).trans (congrArg (fun z => z + _) (readAt_unread_row arg6 harg6 xs0 21 ⟨21, by omega⟩ rfl _ k)))
  refine RowsSplit.cons 20 (by omega) _ _ _ _ _ ?_ (fun hZ k => (row20 _ _ k).trans (congrArg (fun z => z + _) (readAt_unread_row arg6 harg6 xs0 20 ⟨20, by omega⟩ rfl _ k)))
  refine RowsSplit.cons 19 (by omega) _ _ _ _ _ ?_ (fun hZ k => (row19 _ _ k).trans (congrArg (fun z => z + _) (readAt_unread_row arg6 harg6 xs0 19 ⟨19, by omega⟩ rfl _ k)))
  refine RowsSplit.cons 18 (by omega) _ _ _ _ _ ?_ (fun hZ k => (row18 _ _ k).trans (congrArg (fun z => z + _) (readAt_unread_row arg6 harg6 xs0 18 ⟨18, by omega⟩ rfl _ k)))
  refine RowsSplit.cons 17 (by omega) _ _ _ _ _ ?_ (fun hZ k => (row17 _ _ k).trans (congrArg (fun z => z + _) (readAt_unread_row arg6 harg6 xs0 17 ⟨17, by omega⟩ rfl _ k)))
  refine RowsSplit.cons 16 (by omega) _ _ _ _ _ ?_ (fun hZ k => (row16 _ _ k).trans (congrArg (fun z => z + _) (readAt_unread_row arg6 harg6 xs0 16 ⟨16, by omega⟩ rfl _ k)))
  refine RowsSplit.cons 15 (by omega) _ _ _ _ _ ?_ (fun hZ k => (row15 _ _ k).trans (congrArg (fun z => z + _) (readAt_unread_row arg6 harg6 xs0 15 ⟨15, by omega⟩ rfl _ k)))
  refine RowsSplit.cons 14 (by omega) _ _ _ _ _ ?_ (fun hZ k => (row14 _ _ k).trans (congrArg (fun z => z + _) (readAt_unread_row arg6 harg6 xs0 14 ⟨14, by omega⟩ rfl _ k)))
  refine RowsSplit.cons 13 (by omega) _ _ _ _ _ ?_ (fun hZ k => (row13 _ _ k).trans (congrArg (fun z => z + _) (readAt_unread_row arg6 harg6 xs0 13 ⟨13, by omega⟩ rfl _ k)))
  refine RowsSplit.cons 12 (by omega) _ _ _ _ _ ?_ (fun hZ k => (row12 _ _ k).trans (congrArg (fun z => z + _) (readAt_unread_row arg6 harg6 xs0 12 ⟨12, by omega⟩ rfl _ k)))
  refine RowsSplit.cons 11 (by omega) _ _ _ _ _ ?_ (fun hZ k => (row11 _ _ k).trans (congrArg (fun z => z + _) (readAt_unread_row arg6 harg6 xs0 11 ⟨11, by omega⟩ rfl _ k)))
  refine RowsSplit.cons 10 (by omega) _ _ _ _ _ ?_ (fun hZ k => (row10 _ _ k).trans (congrArg (fun z => z + _) (readAt_unread_row arg6 harg6 xs0 10 ⟨10, by omega⟩ rfl _ k)))
  refine RowsSplit.cons 9 (by omega) _ _ _ _ _ ?_ (fun hZ k => (row9 _ _ k).trans (congrArg (fun z => z + _) (readAt_unread_row arg6 harg6 xs0 9 ⟨9, by omega⟩ rfl _ k)))
  refine RowsSplit.cons 8 (by omega) _ _ _ _ _ ?_ (fun hZ k => (row8 _ _ k).trans (congrArg (fun z => z + _) (readAt_unread_row arg6 harg6 xs0 8 ⟨8, by omega⟩ rfl _ k)))
  refine RowsSplit.cons 7 (by omega) _ _ _ _ _ ?_ (fun hZ k => (row7 _ _ k).trans (congrArg (fun z => z + _) (readAt_unread_row arg6 harg6 xs0 7 ⟨7, by omega⟩ rfl _ k)))
  refine RowsSplit.cons 6 (by omega) _ _ _ _ _ ?_ (fun hZ k => (row6 _ _ k).trans (congrArg (fun z => z + _) (readAt_unread_row arg6 harg6 xs0 6 ⟨6, by omega⟩ rfl _ k)))
  refine RowsSplit.cons 5 (by omega) _ _ _ _ _ ?_ (fun hZ k => (row5 _ _ k).trans (congrArg (fun z => z + _) (readAt_unread_row arg6 harg6 xs0 5 ⟨5, by omega⟩ rfl _ k)))
  refine RowsSplit.cons 4 (by omega) _ _ _ _ _ ?_ (fun hZ k => (row4 _ _ k).trans (congrArg (fun z => z + _) (readAt_unread_row arg6 harg6 xs0 4 ⟨4, by omega⟩ rfl _ k)))
  refine RowsSplit.cons 3 (by omega) _ _ _ _ _ ?_ (fun hZ k => (row3 _ _ k).trans (congrArg (fun z => z + _) (readAt_unread_row arg6 harg6 xs0 3 ⟨3, by omega⟩ rfl _ k)))
  refine RowsSplit.cons 2 (by omega) _ _ _ _ _ ?_ (fun hZ k => (row2 _ _ k).trans (congrArg (fun z => z + _) (readAt_unread_row arg6 harg6 xs0 2 ⟨2, by omega⟩ rfl _ k)))
  refine RowsSplit.cons 1 (by omega) _ _ _ _ _ ?_ (fun hZ k => (row1 _ _ _ k).trans (congrArg (fun z => z + _) (readAt_unread_row arg6 harg6 xs0 1 ⟨1, by omega⟩ rfl _ k)))
  refine RowsSplit.cons 0 (by omega) _ _ _ _ _ ?_ (fun hZ k => (row0 _ _ _ k).trans (congrArg (fun z => z + _) (readAt_unread_row arg6 harg6 xs0 0 ⟨0, by omega⟩ rfl _ k)))
  exact RowsSplit.base _ _

/-- Case C: after the body, the Gram scratch is what it held plus this block's eᵀe. -/
theorem gram_C (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : ¬cond0_0 i) (hc1 : cond0_1 i)
    (x0 x1 : Vec Ideal S1024x96 .f32) (x2 : Vec Ideal S2x96x96 .f32) (xs0 xs1 : Vec Ideal S96x96 .f32) :
    sout0_C_1 (F := Ideal) c i arg2 harg2 arg3 harg3 arg4 harg4 arg5 harg5 arg6 harg6 arg7 harg7 hc0 hc1 x0 x1 x2 xs0 xs1
      = k0_pay2 (F := Ideal) (k0_pay7 (F := Ideal) x0 x1) xs1 := by
  have hz : (![0, 0] : Fin 2 → ℕ) = fun _ => 0 := by
    funext a; match a with | ⟨0, _⟩ => rfl | ⟨1, _⟩ => rfl
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S96x96) hz, err_reads c i arg2 harg2 arg3 harg3 arg4 harg4 arg5 harg5 arg6 harg6 arg7 harg7 x0 x1, View.readAt_eq_ld, harg7.read_unread,
    View.ld_unit_zero (S := S96x96) hz]

/-- Case A (a core's first tile): the row-sum scratch is the zero fill plus this block's row sums. -/
theorem rows_A (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : cond0_0 i) (hc1 : ¬cond0_1 i)
    (x0 x1 : Vec Ideal S1024x96 .f32) (x2 : Vec Ideal S2x96x96 .f32) :
    sout0_A_0 (F := Ideal) c i arg2 harg2 arg3 harg3 arg4 harg4 arg5 harg5 arg6 harg6 arg7 harg7 hc0 hc1 x0 x1 x2
      = fun y => k0_pay5 (F := Ideal) (ix2 (y 0) (y 1)) + rowSum (k0_pay7 (F := Ideal) x0 x1) (y 0) (y 1) := by
  have hz : (![0, 0] : Fin 2 → ℕ) = fun _ => 0 := by
    funext a; match a with | ⟨0, _⟩ => rfl | ⟨1, _⟩ => rfl
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  refine Eq.trans (b := fun y => (fun r' k => k0_pay5 (F := Ideal) (ix2 r' k) + rowSum (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) r' k) (y 0) (y 1)) ?_
    (by rw [err_reads c i arg2 harg2 arg3 harg3 arg4 harg4 arg5 harg5 arg6 harg6 arg7 harg7 x0 x1])
  refine RowsSplit.all (Val := Elt Ideal) (e := EltTy.f32) (Z := k0_pay5 (F := Ideal)) (Q := (fun r' k => k0_pay5 (F := Ideal) (ix2 r' k) + rowSum (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) r' k)) ?_
  refine RowsSplit.cons 95 (by omega) _ _ _ _ _ ?_ (fun hZ k => (row95 _ _ k).trans (congrArg (fun z => z + _) ((readCov_row arg6.view _ 95 ⟨95, by omega⟩ rfl _ k).trans (hZ k))))
  refine RowsSplit.cons 94 (by omega) _ _ _ _ _ ?_ (fun hZ k => (row94 _ _ k).trans (congrArg (fun z => z + _) ((readCov_row arg6.view _ 94 ⟨94, by omega⟩ rfl _ k).trans (hZ k))))
  refine RowsSplit.cons 93 (by omega) _ _ _ _ _ ?_ (fun hZ k => (row93 _ _ k).trans (congrArg (fun z => z + _) ((readCov_row arg6.view _ 93 ⟨93, by omega⟩ rfl _ k).trans (hZ k))))
  refine RowsSplit.cons 92 (by omega) _ _ _ _ _ ?_ (fun hZ k => (row92 _ _ k).trans (congrArg (fun z => z + _) ((readCov_row arg6.view _ 92 ⟨92, by omega⟩ rfl _ k).trans (hZ k))))
  refine RowsSplit.cons 91 (by omega) _ _ _ _ _ ?_ (fun hZ k => (row91 _ _ k).trans (congrArg (fun z => z + _) ((readCov_row arg6.view _ 91 ⟨91, by omega⟩ rfl _ k).trans (hZ k))))
  refine RowsSplit.cons 90 (by omega) _ _ _ _ _ ?_ (fun hZ k => (row90 _ _ k).trans (congrArg (fun z => z + _) ((readCov_row arg6.view _ 90 ⟨90, by omega⟩ rfl _ k).trans (hZ k))))
  refine RowsSplit.cons 89 (by omega) _ _ _ _ _ ?_ (fun hZ k => (row89 _ _ k).trans (congrArg (fun z => z + _) ((readCov_row arg6.view _ 89 ⟨89, by omega⟩ rfl _ k).trans (hZ k))))
  refine RowsSplit.cons 88 (by omega) _ _ _ _ _ ?_ (fun hZ k => (row88 _ _ k).trans (congrArg (fun z => z + _) ((readCov_row arg6.view _ 88 ⟨88, by omega⟩ rfl _ k).trans (hZ k))))
  refine RowsSplit.cons 87 (by omega) _ _ _ _ _ ?_ (fun hZ k => (row87 _ _ k).trans (congrArg (fun z => z + _) ((readCov_row arg6.view _ 87 ⟨87, by omega⟩ rfl _ k).trans (hZ k))))
  refine RowsSplit.cons 86 (by omega) _ _ _ _ _ ?_ (fun hZ k => (row86 _ _ k).trans (congrArg (fun z => z + _) ((readCov_row arg6.view _ 86 ⟨86, by omega⟩ rfl _ k).trans (hZ k))))
  refine RowsSplit.cons 85 (by omega) _ _ _ _ _ ?_ (fun hZ k => (row85 _ _ k).trans (congrArg (fun z => z + _) ((readCov_row arg6.view _ 85 ⟨85, by omega⟩ rfl _ k).trans (hZ k))))
  refine RowsSplit.cons 84 (by omega) _ _ _ _ _ ?_ (fun hZ k => (row84 _ _ k).trans (congrArg (fun z => z + _) ((readCov_row arg6.view _ 84 ⟨84, by omega⟩ rfl _ k).trans (hZ k))))
  refine RowsSplit.cons 83 (by omega) _ _ _ _ _ ?_ (fun hZ k => (row83 _ _ k).trans (congrArg (fun z => z + _) ((readCov_row arg6.view _ 83 ⟨83, by omega⟩ rfl _ k).trans (hZ k))))
  refine RowsSplit.cons 82 (by omega) _ _ _ _ _ ?_ (fun hZ k => (row82 _ _ k).trans (congrArg (fun z => z + _) ((readCov_row arg6.view _ 82 ⟨82, by omega⟩ rfl _ k).trans (hZ k))))
  refine RowsSplit.cons 81 (by omega) _ _ _ _ _ ?_ (fun hZ k => (row81 _ _ k).trans (congrArg (fun z => z + _) ((readCov_row arg6.view _ 81 ⟨81, by omega⟩ rfl _ k).trans (hZ k))))
  refine RowsSplit.cons 80 (by omega) _ _ _ _ _ ?_ (fun hZ k => (row80 _ _ k).trans (congrArg (fun z => z + _) ((readCov_row arg6.view _ 80 ⟨80, by omega⟩ rfl _ k).trans (hZ k))))
  refine RowsSplit.cons 79 (by omega) _ _ _ _ _ ?_ (fun hZ k => (row79 _ _ k).trans (congrArg (fun z => z + _) ((readCov_row arg6.view _ 79 ⟨79, by omega⟩ rfl _ k).trans (hZ k))))
  refine RowsSplit.cons 78 (by omega) _ _ _ _ _ ?_ (fun hZ k => (row78 _ _ k).trans (congrArg (fun z => z + _) ((readCov_row arg6.view _ 78 ⟨78, by omega⟩ rfl _ k).trans (hZ k))))
  refine RowsSplit.cons 77 (by omega) _ _ _ _ _ ?_ (fun hZ k => (row77 _ _ k).trans (congrArg (fun z => z + _) ((readCov_row arg6.view _ 77 ⟨77, by omega⟩ rfl _ k).trans (hZ k))))
  refine RowsSplit.cons 76 (by omega) _ _ _ _ _ ?_ (fun hZ k => (row76 _ _ k).trans (congrArg (fun z => z + _) ((readCov_row arg6.view _ 76 ⟨76, by omega⟩ rfl _ k).trans (hZ k))))
  refine RowsSplit.cons 75 (by omega) _ _ _ _ _ ?_ (fun hZ k => (row75 _ _ k).trans (congrArg (fun z => z + _) ((readCov_row arg6.view _ 75 ⟨75, by omega⟩ rfl _ k).trans (hZ k))))
  refine RowsSplit.cons 74 (by omega) _ _ _ _ _ ?_ (fun hZ k => (row74 _ _ k).trans (congrArg (fun z => z + _) ((readCov_row arg6.view _ 74 ⟨74, by omega⟩ rfl _ k).trans (hZ k))))
  refine RowsSplit.cons 73 (by omega) _ _ _ _ _ ?_ (fun hZ k => (row73 _ _ k).trans (congrArg (fun z => z + _) ((readCov_row arg6.view _ 73 ⟨73, by omega⟩ rfl _ k).trans (hZ k))))
  refine RowsSplit.cons 72 (by omega) _ _ _ _ _ ?_ (fun hZ k => (row72 _ _ k).trans (congrArg (fun z => z + _) ((readCov_row arg6.view _ 72 ⟨72, by omega⟩ rfl _ k).trans (hZ k))))
  refine RowsSplit.cons 71 (by omega) _ _ _ _ _ ?_ (fun hZ k => (row71 _ _ k).trans (congrArg (fun z => z + _) ((readCov_row arg6.view _ 71 ⟨71, by omega⟩ rfl _ k).trans (hZ k))))
  refine RowsSplit.cons 70 (by omega) _ _ _ _ _ ?_ (fun hZ k => (row70 _ _ k).trans (congrArg (fun z => z + _) ((readCov_row arg6.view _ 70 ⟨70, by omega⟩ rfl _ k).trans (hZ k))))
  refine RowsSplit.cons 69 (by omega) _ _ _ _ _ ?_ (fun hZ k => (row69 _ _ k).trans (congrArg (fun z => z + _) ((readCov_row arg6.view _ 69 ⟨69, by omega⟩ rfl _ k).trans (hZ k))))
  refine RowsSplit.cons 68 (by omega) _ _ _ _ _ ?_ (fun hZ k => (row68 _ _ k).trans (congrArg (fun z => z + _) ((readCov_row arg6.view _ 68 ⟨68, by omega⟩ rfl _ k).trans (hZ k))))
  refine RowsSplit.cons 67 (by omega) _ _ _ _ _ ?_ (fun hZ k => (row67 _ _ k).trans (congrArg (fun z => z + _) ((readCov_row arg6.view _ 67 ⟨67, by omega⟩ rfl _ k).trans (hZ k))))
  refine RowsSplit.cons 66 (by omega) _ _ _ _ _ ?_ (fun hZ k => (row66 _ _ k).trans (congrArg (fun z => z + _) ((readCov_row arg6.view _ 66 ⟨66, by omega⟩ rfl _ k).trans (hZ k))))
  refine RowsSplit.cons 65 (by omega) _ _ _ _ _ ?_ (fun hZ k => (row65 _ _ k).trans (congrArg (fun z => z + _) ((readCov_row arg6.view _ 65 ⟨65, by omega⟩ rfl _ k).trans (hZ k))))
  refine RowsSplit.cons 64 (by omega) _ _ _ _ _ ?_ (fun hZ k => (row64 _ _ k).trans (congrArg (fun z => z + _) ((readCov_row arg6.view _ 64 ⟨64, by omega⟩ rfl _ k).trans (hZ k))))
  refine RowsSplit.cons 63 (by omega) _ _ _ _ _ ?_ (fun hZ k => (row63 _ _ k).trans (congrArg (fun z => z + _) ((readCov_row arg6.view _ 63 ⟨63, by omega⟩ rfl _ k).trans (hZ k))))
  refine RowsSplit.cons 62 (by omega) _ _ _ _ _ ?_ (fun hZ k => (row62 _ _ k).trans (congrArg (fun z => z + _) ((readCov_row arg6.view _ 62 ⟨62, by omega⟩ rfl _ k).trans (hZ k))))
  refine RowsSplit.cons 61 (by omega) _ _ _ _ _ ?_ (fun hZ k => (row61 _ _ k).trans (congrArg (fun z => z + _) ((readCov_row arg6.view _ 61 ⟨61, by omega⟩ rfl _ k).trans (hZ k))))
  refine RowsSplit.cons 60 (by omega) _ _ _ _ _ ?_ (fun hZ k => (row60 _ _ k).trans (congrArg (fun z => z + _) ((readCov_row arg6.view _ 60 ⟨60, by omega⟩ rfl _ k).trans (hZ k))))
  refine RowsSplit.cons 59 (by omega) _ _ _ _ _ ?_ (fun hZ k => (row59 _ _ k).trans (congrArg (fun z => z + _) ((readCov_row arg6.view _ 59 ⟨59, by omega⟩ rfl _ k).trans (hZ k))))
  refine RowsSplit.cons 58 (by omega) _ _ _ _ _ ?_ (fun hZ k => (row58 _ _ k).trans (congrArg (fun z => z + _) ((readCov_row arg6.view _ 58 ⟨58, by omega⟩ rfl _ k).trans (hZ k))))
  refine RowsSplit.cons 57 (by omega) _ _ _ _ _ ?_ (fun hZ k => (row57 _ _ k).trans (congrArg (fun z => z + _) ((readCov_row arg6.view _ 57 ⟨57, by omega⟩ rfl _ k).trans (hZ k))))
  refine RowsSplit.cons 56 (by omega) _ _ _ _ _ ?_ (fun hZ k => (row56 _ _ k).trans (congrArg (fun z => z + _) ((readCov_row arg6.view _ 56 ⟨56, by omega⟩ rfl _ k).trans (hZ k))))
  refine RowsSplit.cons 55 (by omega) _ _ _ _ _ ?_ (fun hZ k => (row55 _ _ k).trans (congrArg (fun z => z + _) ((readCov_row arg6.view _ 55 ⟨55, by omega⟩ rfl _ k).trans (hZ k))))
  refine RowsSplit.cons 54 (by omega) _ _ _ _ _ ?_ (fun hZ k => (row54 _ _ k).trans (congrArg (fun z => z + _) ((readCov_row arg6.view _ 54 ⟨54, by omega⟩ rfl _ k).trans (hZ k))))
  refine RowsSplit.cons 53 (by omega) _ _ _ _ _ ?_ (fun hZ k => (row53 _ _ k).trans (congrArg (fun z => z + _) ((readCov_row arg6.view _ 53 ⟨53, by omega⟩ rfl _ k).trans (hZ k))))
  refine RowsSplit.cons 52 (by omega) _ _ _ _ _ ?_ (fun hZ k => (row52 _ _ k).trans (congrArg (fun z => z + _) ((readCov_row arg6.view _ 52 ⟨52, by omega⟩ rfl _ k).trans (hZ k))))
  refine RowsSplit.cons 51 (by omega) _ _ _ _ _ ?_ (fun hZ k => (row51 _ _ k).trans (congrArg (fun z => z + _) ((readCov_row arg6.view _ 51 ⟨51, by omega⟩ rfl _ k).trans (hZ k))))
  refine RowsSplit.cons 50 (by omega) _ _ _ _ _ ?_ (fun hZ k => (row50 _ _ k).trans (congrArg (fun z => z + _) ((readCov_row arg6.view _ 50 ⟨50, by omega⟩ rfl _ k).trans (hZ k))))
  refine RowsSplit.cons 49 (by omega) _ _ _ _ _ ?_ (fun hZ k => (row49 _ _ k).trans (congrArg (fun z => z + _) ((readCov_row arg6.view _ 49 ⟨49, by omega⟩ rfl _ k).trans (hZ k))))
  refine RowsSplit.cons 48 (by omega) _ _ _ _ _ ?_ (fun hZ k => (row48 _ _ k).trans (congrArg (fun z => z + _) ((readCov_row arg6.view _ 48 ⟨48, by omega⟩ rfl _ k).trans (hZ k))))
  refine RowsSplit.cons 47 (by omega) _ _ _ _ _ ?_ (fun hZ k => (row47 _ _ k).trans (congrArg (fun z => z + _) ((readCov_row arg6.view _ 47 ⟨47, by omega⟩ rfl _ k).trans (hZ k))))
  refine RowsSplit.cons 46 (by omega) _ _ _ _ _ ?_ (fun hZ k => (row46 _ _ k).trans (congrArg (fun z => z + _) ((readCov_row arg6.view _ 46 ⟨46, by omega⟩ rfl _ k).trans (hZ k))))
  refine RowsSplit.cons 45 (by omega) _ _ _ _ _ ?_ (fun hZ k => (row45 _ _ k).trans (congrArg (fun z => z + _) ((readCov_row arg6.view _ 45 ⟨45, by omega⟩ rfl _ k).trans (hZ k))))
  refine RowsSplit.cons 44 (by omega) _ _ _ _ _ ?_ (fun hZ k => (row44 _ _ k).trans (congrArg (fun z => z + _) ((readCov_row arg6.view _ 44 ⟨44, by omega⟩ rfl _ k).trans (hZ k))))
  refine RowsSplit.cons 43 (by omega) _ _ _ _ _ ?_ (fun hZ k => (row43 _ _ k).trans (congrArg (fun z => z + _) ((readCov_row arg6.view _ 43 ⟨43, by omega⟩ rfl _ k).trans (hZ k))))
  refine RowsSplit.cons 42 (by omega) _ _ _ _ _ ?_ (fun hZ k => (row42 _ _ k).trans (congrArg (fun z => z + _) ((readCov_row arg6.view _ 42 ⟨42, by omega⟩ rfl _ k).trans (hZ k))))
  refine RowsSplit.cons 41 (by omega) _ _ _ _ _ ?_ (fun hZ k => (row41 _ _ k).trans (congrArg (fun z => z + _) ((readCov_row arg6.view _ 41 ⟨41, by omega⟩ rfl _ k).trans (hZ k))))
  refine RowsSplit.cons 40 (by omega) _ _ _ _ _ ?_ (fun hZ k => (row40 _ _ k).trans (congrArg (fun z => z + _) ((readCov_row arg6.view _ 40 ⟨40, by omega⟩ rfl _ k).trans (hZ k))))
  refine RowsSplit.cons 39 (by omega) _ _ _ _ _ ?_ (fun hZ k => (row39 _ _ k).trans (congrArg (fun z => z + _) ((readCov_row arg6.view _ 39 ⟨39, by omega⟩ rfl _ k).trans (hZ k))))
  refine RowsSplit.cons 38 (by omega) _ _ _ _ _ ?_ (fun hZ k => (row38 _ _ k).trans (congrArg (fun z => z + _) ((readCov_row arg6.view _ 38 ⟨38, by omega⟩ rfl _ k).trans (hZ k))))
  refine RowsSplit.cons 37 (by omega) _ _ _ _ _ ?_ (fun hZ k => (row37 _ _ k).trans (congrArg (fun z => z + _) ((readCov_row arg6.view _ 37 ⟨37, by omega⟩ rfl _ k).trans (hZ k))))
  refine RowsSplit.cons 36 (by omega) _ _ _ _ _ ?_ (fun hZ k => (row36 _ _ k).trans (congrArg (fun z => z + _) ((readCov_row arg6.view _ 36 ⟨36, by omega⟩ rfl _ k).trans (hZ k))))
  refine RowsSplit.cons 35 (by omega) _ _ _ _ _ ?_ (fun hZ k => (row35 _ _ k).trans (congrArg (fun z => z + _) ((readCov_row arg6.view _ 35 ⟨35, by omega⟩ rfl _ k).trans (hZ k))))
  refine RowsSplit.cons 34 (by omega) _ _ _ _ _ ?_ (fun hZ k => (row34 _ _ k).trans (congrArg (fun z => z + _) ((readCov_row arg6.view _ 34 ⟨34, by omega⟩ rfl _ k).trans (hZ k))))
  refine RowsSplit.cons 33 (by omega) _ _ _ _ _ ?_ (fun hZ k => (row33 _ _ k).trans (congrArg (fun z => z + _) ((readCov_row arg6.view _ 33 ⟨33, by omega⟩ rfl _ k).trans (hZ k))))
  refine RowsSplit.cons 32 (by omega) _ _ _ _ _ ?_ (fun hZ k => (row32 _ _ k).trans (congrArg (fun z => z + _) ((readCov_row arg6.view _ 32 ⟨32, by omega⟩ rfl _ k).trans (hZ k))))
  refine RowsSplit.cons 31 (by omega) _ _ _ _ _ ?_ (fun hZ k => (row31 _ _ k).trans (congrArg (fun z => z + _) ((readCov_row arg6.view _ 31 ⟨31, by omega⟩ rfl _ k).trans (hZ k))))
  refine RowsSplit.cons 30 (by omega) _ _ _ _ _ ?_ (fun hZ k => (row30 _ _ k).trans (congrArg (fun z => z + _) ((readCov_row arg6.view _ 30 ⟨30, by omega⟩ rfl _ k).trans (hZ k))))
  refine RowsSplit.cons 29 (by omega) _ _ _ _ _ ?_ (fun hZ k => (row29 _ _ k).trans (congrArg (fun z => z + _) ((readCov_row arg6.view _ 29 ⟨29, by omega⟩ rfl _ k).trans (hZ k))))
  refine RowsSplit.cons 28 (by omega) _ _ _ _ _ ?_ (fun hZ k => (row28 _ _ k).trans (congrArg (fun z => z + _) ((readCov_row arg6.view _ 28 ⟨28, by omega⟩ rfl _ k).trans (hZ k))))
  refine RowsSplit.cons 27 (by omega) _ _ _ _ _ ?_ (fun hZ k => (row27 _ _ k).trans (congrArg (fun z => z + _) ((readCov_row arg6.view _ 27 ⟨27, by omega⟩ rfl _ k).trans (hZ k))))
  refine RowsSplit.cons 26 (by omega) _ _ _ _ _ ?_ (fun hZ k => (row26 _ _ k).trans (congrArg (fun z => z + _) ((readCov_row arg6.view _ 26 ⟨26, by omega⟩ rfl _ k).trans (hZ k))))
  refine RowsSplit.cons 25 (by omega) _ _ _ _ _ ?_ (fun hZ k => (row25 _ _ k).trans (congrArg (fun z => z + _) ((readCov_row arg6.view _ 25 ⟨25, by omega⟩ rfl _ k).trans (hZ k))))
  refine RowsSplit.cons 24 (by omega) _ _ _ _ _ ?_ (fun hZ k => (row24 _ _ k).trans (congrArg (fun z => z + _) ((readCov_row arg6.view _ 24 ⟨24, by omega⟩ rfl _ k).trans (hZ k))))
  refine RowsSplit.cons 23 (by omega) _ _ _ _ _ ?_ (fun hZ k => (row23 _ _ k).trans (congrArg (fun z => z + _) ((readCov_row arg6.view _ 23 ⟨23, by omega⟩ rfl _ k).trans (hZ k))))
  refine RowsSplit.cons 22 (by omega) _ _ _ _ _ ?_ (fun hZ k => (row22 _ _ k).trans (congrArg (fun z => z + _) ((readCov_row arg6.view _ 22 ⟨22, by omega⟩ rfl _ k).trans (hZ k))))
  refine RowsSplit.cons 21 (by omega) _ _ _ _ _ ?_ (fun hZ k => (row21 _ _ k).trans (congrArg (fun z => z + _) ((readCov_row arg6.view _ 21 ⟨21, by omega⟩ rfl _ k).trans (hZ k))))
  refine RowsSplit.cons 20 (by omega) _ _ _ _ _ ?_ (fun hZ k => (row20 _ _ k).trans (congrArg (fun z => z + _) ((readCov_row arg6.view _ 20 ⟨20, by omega⟩ rfl _ k).trans (hZ k))))
  refine RowsSplit.cons 19 (by omega) _ _ _ _ _ ?_ (fun hZ k => (row19 _ _ k).trans (congrArg (fun z => z + _) ((readCov_row arg6.view _ 19 ⟨19, by omega⟩ rfl _ k).trans (hZ k))))
  refine RowsSplit.cons 18 (by omega) _ _ _ _ _ ?_ (fun hZ k => (row18 _ _ k).trans (congrArg (fun z => z + _) ((readCov_row arg6.view _ 18 ⟨18, by omega⟩ rfl _ k).trans (hZ k))))
  refine RowsSplit.cons 17 (by omega) _ _ _ _ _ ?_ (fun hZ k => (row17 _ _ k).trans (congrArg (fun z => z + _) ((readCov_row arg6.view _ 17 ⟨17, by omega⟩ rfl _ k).trans (hZ k))))
  refine RowsSplit.cons 16 (by omega) _ _ _ _ _ ?_ (fun hZ k => (row16 _ _ k).trans (congrArg (fun z => z + _) ((readCov_row arg6.view _ 16 ⟨16, by omega⟩ rfl _ k).trans (hZ k))))
  refine RowsSplit.cons 15 (by omega) _ _ _ _ _ ?_ (fun hZ k => (row15 _ _ k).trans (congrArg (fun z => z + _) ((readCov_row arg6.view _ 15 ⟨15, by omega⟩ rfl _ k).trans (hZ k))))
  refine RowsSplit.cons 14 (by omega) _ _ _ _ _ ?_ (fun hZ k => (row14 _ _ k).trans (congrArg (fun z => z + _) ((readCov_row arg6.view _ 14 ⟨14, by omega⟩ rfl _ k).trans (hZ k))))
  refine RowsSplit.cons 13 (by omega) _ _ _ _ _ ?_ (fun hZ k => (row13 _ _ k).trans (congrArg (fun z => z + _) ((readCov_row arg6.view _ 13 ⟨13, by omega⟩ rfl _ k).trans (hZ k))))
  refine RowsSplit.cons 12 (by omega) _ _ _ _ _ ?_ (fun hZ k => (row12 _ _ k).trans (congrArg (fun z => z + _) ((readCov_row arg6.view _ 12 ⟨12, by omega⟩ rfl _ k).trans (hZ k))))
  refine RowsSplit.cons 11 (by omega) _ _ _ _ _ ?_ (fun hZ k => (row11 _ _ k).trans (congrArg (fun z => z + _) ((readCov_row arg6.view _ 11 ⟨11, by omega⟩ rfl _ k).trans (hZ k))))
  refine RowsSplit.cons 10 (by omega) _ _ _ _ _ ?_ (fun hZ k => (row10 _ _ k).trans (congrArg (fun z => z + _) ((readCov_row arg6.view _ 10 ⟨10, by omega⟩ rfl _ k).trans (hZ k))))
  refine RowsSplit.cons 9 (by omega) _ _ _ _ _ ?_ (fun hZ k => (row9 _ _ k).trans (congrArg (fun z => z + _) ((readCov_row arg6.view _ 9 ⟨9, by omega⟩ rfl _ k).trans (hZ k))))
  refine RowsSplit.cons 8 (by omega) _ _ _ _ _ ?_ (fun hZ k => (row8 _ _ k).trans (congrArg (fun z => z + _) ((readCov_row arg6.view _ 8 ⟨8, by omega⟩ rfl _ k).trans (hZ k))))
  refine RowsSplit.cons 7 (by omega) _ _ _ _ _ ?_ (fun hZ k => (row7 _ _ k).trans (congrArg (fun z => z + _) ((readCov_row arg6.view _ 7 ⟨7, by omega⟩ rfl _ k).trans (hZ k))))
  refine RowsSplit.cons 6 (by omega) _ _ _ _ _ ?_ (fun hZ k => (row6 _ _ k).trans (congrArg (fun z => z + _) ((readCov_row arg6.view _ 6 ⟨6, by omega⟩ rfl _ k).trans (hZ k))))
  refine RowsSplit.cons 5 (by omega) _ _ _ _ _ ?_ (fun hZ k => (row5 _ _ k).trans (congrArg (fun z => z + _) ((readCov_row arg6.view _ 5 ⟨5, by omega⟩ rfl _ k).trans (hZ k))))
  refine RowsSplit.cons 4 (by omega) _ _ _ _ _ ?_ (fun hZ k => (row4 _ _ k).trans (congrArg (fun z => z + _) ((readCov_row arg6.view _ 4 ⟨4, by omega⟩ rfl _ k).trans (hZ k))))
  refine RowsSplit.cons 3 (by omega) _ _ _ _ _ ?_ (fun hZ k => (row3 _ _ k).trans (congrArg (fun z => z + _) ((readCov_row arg6.view _ 3 ⟨3, by omega⟩ rfl _ k).trans (hZ k))))
  refine RowsSplit.cons 2 (by omega) _ _ _ _ _ ?_ (fun hZ k => (row2 _ _ k).trans (congrArg (fun z => z + _) ((readCov_row arg6.view _ 2 ⟨2, by omega⟩ rfl _ k).trans (hZ k))))
  refine RowsSplit.cons 1 (by omega) _ _ _ _ _ ?_ (fun hZ k => (row1 _ _ _ k).trans (congrArg (fun z => z + _) ((readCov_row arg6.view _ 1 ⟨1, by omega⟩ rfl _ k).trans (hZ k))))
  refine RowsSplit.cons 0 (by omega) _ _ _ _ _ ?_ (fun hZ k => (row0 _ _ _ k).trans (congrArg (fun z => z + _) ((readCov_row arg6.view _ 0 ⟨0, by omega⟩ rfl _ k).trans (hZ k))))
  have hb := RowsSplit.base (a := 96) (n := 96)
    [(⟨Rect.unit ![0, 0] S96x96.size inb_S96x96_S96x96_0_0, k0_pay5 (F := Ideal)⟩ : View.Piece (Elt Ideal) S96x96 .f32)]
    (fun r' k => k0_pay5 (F := Ideal) (ix2 r' k) + rowSum (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) r' k)
  rw [View.canon_unit_zero (S := S96x96) hz] at hb
  exact hb

/-- Case A: the Gram scratch is the zero fill plus this block's eᵀe. -/
theorem gram_A (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : cond0_0 i) (hc1 : ¬cond0_1 i)
    (x0 x1 : Vec Ideal S1024x96 .f32) (x2 : Vec Ideal S2x96x96 .f32) :
    sout0_A_1 (F := Ideal) c i arg2 harg2 arg3 harg3 arg4 harg4 arg5 harg5 arg6 harg6 arg7 harg7 hc0 hc1 x0 x1 x2
      = k0_pay2 (F := Ideal) (k0_pay7 (F := Ideal) x0 x1) (k0_pay6 (F := Ideal)) := by
  have hz : (![0, 0] : Fin 2 → ℕ) = fun _ => 0 := by
    funext a; match a with | ⟨0, _⟩ => rfl | ⟨1, _⟩ => rfl
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S96x96) hz, View.readCov_unit_zero _ hz, err_reads c i arg2 harg2 arg3 harg3 arg4 harg4 arg5 harg5 arg6 harg6 arg7 harg7 x0 x1]

end Cert.KernelIdeal.Pieces

end
-- ==== Proof.OutPiece.lean ====
/-
  What a core's last tile leaves in the output block: zeros everywhere, and at entry (0,0) the total computed from the
  scratch contents the same body has just stored (the row sums read back through the 96 row stores, the Gram matrix
  through its one store).
-/
import proofs.«124193_j68049461838564_2_alg».proof.Proof.Pieces

set_option maxRecDepth 16384
set_option maxHeartbeats 4000000

noncomputable section

namespace Cert.KernelIdeal.Pieces

open Idealize.ShloMosaic Idealize.ShloMosaic.TcCoe Idealize.ShloMosaic.Tactic Idealize.ShloMosaic.ValueIdx
open Idealize.SL Idealize.SL.Sem
open Cert.KernelIdeal Cert.KernelIdeal.Gen Cert.LossSpec Cert.KernelIdeal.RowPayloads Cert.LibRowSlabs

/-- The one-entry rectangle at the block's corner holds exactly the index (0,0). -/
theorem mem_corner (y : S8x128.Idx) (inb) :
    y ∈ (Rect.unit (s := S8x128) ![0, 0] ![1, 1] inb).set ↔ (y 0).val = 0 ∧ (y 1).val = 0 := by
  rw [Rect.mem_set_unit]
  constructor
  · intro h
    have h0 := h (0 : Fin 2)
    have h1 := h (1 : Fin 2)
    have a0 : (![0, 0] : Fin 2 → Nat) (0 : Fin 2) = 0 := rfl
    have a1 : (![0, 0] : Fin 2 → Nat) (1 : Fin 2) = 0 := rfl
    have b0 : (![1, 1] : Fin 2 → Nat) (0 : Fin 2) = 1 := rfl
    have b1 : (![1, 1] : Fin 2 → Nat) (1 : Fin 2) = 1 := rfl
    rw [a0, b0] at h0
    rw [a1, b1] at h1
    omega
  · rintro ⟨h0, h1⟩ ax
    match ax with
    | ⟨0, _⟩ =>
      show 0 ≤ (y 0).val ∧ (y 0).val < 0 + 1
      omega
    | ⟨1, _⟩ =>
      show 0 ≤ (y 1).val ∧ (y 1).val < 0 + 1
      omega

/-- Its own index (0,0) sits at the block's (0,0). -/
theorem corner_emb (y : S8x128.Idx) (hy : (y 0).val = 0 ∧ (y 1).val = 0) (inb) :
    (Rect.unit (s := S8x128) ![0, 0] ![1, 1] inb).emb (ix2 (0 : Fin 1) (0 : Fin 1)) = y :=
  funext fun ax => Fin.ext (by
    rw [Rect.emb_apply]
    match ax with
    | ⟨0, _⟩ => show 0 + 1 * 0 = (y 0).val; omega
    | ⟨1, _⟩ => show 0 + 1 * 0 = (y 1).val; omega)

/-- Case C (a core's last tile): the output block is zero but for entry (0,0), the total of the new scratch contents. -/
theorem out_C (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S2x96x96 .f32) (harg4 : arg4.IsWhole) (arg5 : Memref sig .tc .vmem S8x128 .f32) (harg5 : arg5.IsWhole) (arg6 : Memref sig .tc .vmem S96x96 .f32) (harg6 : arg6.IsWhole) (arg7 : Memref sig .tc .vmem S96x96 .f32) (harg7 : arg7.IsWhole) (hc0 : ¬cond0_0 i) (hc1 : cond0_1 i)
    (x0 x1 : Vec Ideal S1024x96 .f32) (x2 : Vec Ideal S2x96x96 .f32) (xs0 xs1 : Vec Ideal S96x96 .f32) :
    out0_C_3 (F := Ideal) c i arg2 harg2 arg3 harg3 arg4 harg4 arg5 harg5 arg6 harg6 arg7 harg7 hc0 hc1 x0 x1 x2 xs0 xs1
      = fun y => if (y 0).val = 0 ∧ (y 1).val = 0 then
          k0_pay4 (F := Ideal) x2 (fun y => xs0 (ix2 (y 0) (y 1)) + rowSum (k0_pay7 (F := Ideal) x0 x1) (y 0) (y 1))
            (k0_pay2 (F := Ideal) (k0_pay7 (F := Ideal) x0 x1) xs1) (ix2 (0 : Fin 1) (0 : Fin 1))
        else k0_pay3 (F := Ideal) (FloatOps.ofBits .f32 0#32) y := by
  have hz : (![0, 0] : Fin 2 → ℕ) = fun _ => 0 := by
    funext a; match a with | ⟨0, _⟩ => rfl | ⟨1, _⟩ => rfl
  have hz3 : (![0, 0, 0] : Fin 3 → ℕ) = fun _ => 0 := by
    funext a; match a with | ⟨0, _⟩ => rfl | ⟨1, _⟩ => rfl | ⟨2, _⟩ => rfl
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  funext y
  by_cases hy : (y 0).val = 0 ∧ (y 1).val = 0
  · have he := corner_emb y hy inb_S8x128_S1x1_0_0
    rw [if_pos hy, ← he, View.canon_cons_emb]
    refine congrFun (congr (congr (congrArg (k0_pay4 (F := Ideal)) ?hA) ?hB) ?hC) _
    case hA =>
      rw [View.readAt_eq_ld, harg4.read_unread, View.ld_unit_zero (S := S2x96x96) hz3]
    case hC =>
      rw [View.readCov_unit_zero _ hz, err_reads c i arg2 harg2 arg3 harg3 arg4 harg4 arg5 harg5 arg6 harg6 arg7 harg7 x0 x1, View.readAt_eq_ld, harg7.read_unread,
        View.ld_unit_zero (S := S96x96) hz]
    case hB =>
      rw [View.readCov_eq_canon']
      show View.ld (View.canon _) (Rect.unit ![0, 0] S96x96.size inb_S96x96_S96x96_0_0) = _
      rw [View.ld_unit_zero (S := S96x96) hz, ← err_reads c i arg2 harg2 arg3 harg3 arg4 harg4 arg5 harg5 arg6 harg6 arg7 harg7 x0 x1]
      refine RowsSplit.all (Z := View.canon []) (Q := (fun r' k => xs0 (ix2 r' k) + rowSum (k0_pay7 (F := Ideal) (View.readAt (Elt Ideal) arg2.view (Rect.unit ![0, 0] S1024x96.size inb_S1024x96_S1024x96_0_0).toLoadRect (harg2.unread x0)) (View.readAt (Elt Ideal) arg3.view (Rect.unit ![0, 0] S1024x96.size inb_S1024x96_S1024x96_0_0).toLoadRect (harg3.unread x1))) r' k)) ?_
      refine RowsSplit.cons 95 (by omega) _ _ _ _ _ ?_ (fun hZ k => (row95 _ _ k).trans (congrArg (fun z => z + _) (readAt_unread_row arg6 harg6 xs0 95 ⟨95, by omega⟩ rfl _ k)))
      refine RowsSplit.cons 94 (by omega) _ _ _ _ _ ?_ (fun hZ k => (row94 _ _ k).trans (congrArg (fun z => z + _) (readAt_unread_row arg6 harg6 xs0 94 ⟨94, by omega⟩ rfl _ k)))
      refine RowsSplit.cons 93 (by omega) _ _ _ _ _ ?_ (fun hZ k => (row93 _ _ k).trans (congrArg (fun z => z + _) (readAt_unread_row arg6 harg6 xs0 93 ⟨93, by omega⟩ rfl _ k)))
      refine RowsSplit.cons 92 (by omega) _ _ _ _ _ ?_ (fun hZ k => (row92 _ _ k).trans (congrArg (fun z => z + _) (readAt_unread_row arg6 harg6 xs0 92 ⟨92, by omega⟩ rfl _ k)))
      refine RowsSplit.cons 91 (by omega) _ _ _ _ _ ?_ (fun hZ k => (row91 _ _ k).trans (congrArg (fun z => z + _) (readAt_unread_row arg6 harg6 xs0 91 ⟨91, by omega⟩ rfl _ k)))
      refine RowsSplit.cons 90 (by omega) _ _ _ _ _ ?_ (fun hZ k => (row90 _ _ k).trans (congrArg (fun z => z + _) (readAt_unread_row arg6 harg6 xs0 90 ⟨90, by omega⟩ rfl _ k)))
      refine RowsSplit.cons 89 (by omega) _ _ _ _ _ ?_ (fun hZ k => (row89 _ _ k).trans (congrArg (fun z => z + _) (readAt_unread_row arg6 harg6 xs0 89 ⟨89, by omega⟩ rfl _ k)))
      refine RowsSplit.cons 88 (by omega) _ _ _ _ _ ?_ (fun hZ k => (row88 _ _ k).trans (congrArg (fun z => z + _) (readAt_unread_row arg6 harg6 xs0 88 ⟨88, by omega⟩ rfl _ k)))
      refine RowsSplit.cons 87 (by omega) _ _ _ _ _ ?_ (fun hZ k => (row87 _ _ k).trans (congrArg (fun z => z + _) (readAt_unread_row arg6 harg6 xs0 87 ⟨87, by omega⟩ rfl _ k)))
      refine RowsSplit.cons 86 (by omega) _ _ _ _ _ ?_ (fun hZ k => (row86 _ _ k).trans (congrArg (fun z => z + _) (readAt_unread_row arg6 harg6 xs0 86 ⟨86, by omega⟩ rfl _ k)))
      refine RowsSplit.cons 85 (by omega) _ _ _ _ _ ?_ (fun hZ k => (row85 _ _ k).trans (congrArg (fun z => z + _) (readAt_unread_row arg6 harg6 xs0 85 ⟨85, by omega⟩ rfl _ k)))
      refine RowsSplit.cons 84 (by omega) _ _ _ _ _ ?_ (fun hZ k => (row84 _ _ k).trans (congrArg (fun z => z + _) (readAt_unread_row arg6 harg6 xs0 84 ⟨84, by omega⟩ rfl _ k)))
      refine RowsSplit.cons 83 (by omega) _ _ _ _ _ ?_ (fun hZ k => (row83 _ _ k).trans (congrArg (fun z => z + _) (readAt_unread_row arg6 harg6 xs0 83 ⟨83, by omega⟩ rfl _ k)))
      refine RowsSplit.cons 82 (by omega) _ _ _ _ _ ?_ (fun hZ k => (row82 _ _ k).trans (congrArg (fun z => z + _) (readAt_unread_row arg6 harg6 xs0 82 ⟨82, by omega⟩ rfl _ k)))
      refine RowsSplit.cons 81 (by omega) _ _ _ _ _ ?_ (fun hZ k => (row81 _ _ k).trans (congrArg (fun z => z + _) (readAt_unread_row arg6 harg6 xs0 81 ⟨81, by omega⟩ rfl _ k)))
      refine RowsSplit.cons 80 (by omega) _ _ _ _ _ ?_ (fun hZ k => (row80 _ _ k).trans (congrArg (fun z => z + _) (readAt_unread_row arg6 harg6 xs0 80 ⟨80, by omega⟩ rfl _ k)))
      refine RowsSplit.cons 79 (by omega) _ _ _ _ _ ?_ (fun hZ k => (row79 _ _ k).trans (congrArg (fun z => z + _) (readAt_unread_row arg6 harg6 xs0 79 ⟨79, by omega⟩ rfl _ k)))
      refine RowsSplit.cons 78 (by omega) _ _ _ _ _ ?_ (fun hZ k => (row78 _ _ k).trans (congrArg (fun z => z + _) (readAt_unread_row arg6 harg6 xs0 78 ⟨78, by omega⟩ rfl _ k)))
      refine RowsSplit.cons 77 (by omega) _ _ _ _ _ ?_ (fun hZ k => (row77 _ _ k).trans (congrArg (fun z => z + _) (readAt_unread_row arg6 harg6 xs0 77 ⟨77, by omega⟩ rfl _ k)))
      refine RowsSplit.cons 76 (by omega) _ _ _ _ _ ?_ (fun hZ k => (row76 _ _ k).trans (congrArg (fun z => z + _) (readAt_unread_row arg6 harg6 xs0 76 ⟨76, by omega⟩ rfl _ k)))
      refine RowsSplit.cons 75 (by omega) _ _ _ _ _ ?_ (fun hZ k => (row75 _ _ k).trans (congrArg (fun z => z + _) (readAt_unread_row arg6 harg6 xs0 75 ⟨75, by omega⟩ rfl _ k)))
      refine RowsSplit.cons 74 (by omega) _ _ _ _ _ ?_ (fun hZ k => (row74 _ _ k).trans (congrArg (fun z => z + _) (readAt_unread_row arg6 harg6 xs0 74 ⟨74, by omega⟩ rfl _ k)))
      refine RowsSplit.cons 73 (by omega) _ _ _ _ _ ?_ (fun hZ k => (row73 _ _ k).trans (congrArg (fun z => z + _) (readAt_unread_row arg6 harg6 xs0 73 ⟨73, by omega⟩ rfl _ k)))
      refine RowsSplit.cons 72 (by omega) _ _ _ _ _ ?_ (fun hZ k => (row72 _ _ k).trans (congrArg (fun z => z + _) (readAt_unread_row arg6 harg6 xs0 72 ⟨72, by omega⟩ rfl _ k)))
      refine RowsSplit.cons 71 (by omega) _ _ _ _ _ ?_ (fun hZ k => (row71 _ _ k).trans (congrArg (fun z => z + _) (readAt_unread_row arg6 harg6 xs0 71 ⟨71, by omega⟩ rfl _ k)))
      refine RowsSplit.cons 70 (by omega) _ _ _ _ _ ?_ (fun hZ k => (row70 _ _ k).trans (congrArg (fun z => z + _) (readAt_unread_row arg6 harg6 xs0 70 ⟨70, by omega⟩ rfl _ k)))
      refine RowsSplit.cons 69 (by omega) _ _ _ _ _ ?_ (fun hZ k => (row69 _ _ k).trans (congrArg (fun z => z + _) (readAt_unread_row arg6 harg6 xs0 69 ⟨69, by omega⟩ rfl _ k)))
      refine RowsSplit.cons 68 (by omega) _ _ _ _ _ ?_ (fun hZ k => (row68 _ _ k).trans (congrArg (fun z => z + _) (readAt_unread_row arg6 harg6 xs0 68 ⟨68, by omega⟩ rfl _ k)))
      refine RowsSplit.cons 67 (by omega) _ _ _ _ _ ?_ (fun hZ k => (row67 _ _ k).trans (congrArg (fun z => z + _) (readAt_unread_row arg6 harg6 xs0 67 ⟨67, by omega⟩ rfl _ k)))
      refine RowsSplit.cons 66 (by omega) _ _ _ _ _ ?_ (fun hZ k => (row66 _ _ k).trans (congrArg (fun z => z + _) (readAt_unread_row arg6 harg6 xs0 66 ⟨66, by omega⟩ rfl _ k)))
      refine RowsSplit.cons 65 (by omega) _ _ _ _ _ ?_ (fun hZ k => (row65 _ _ k).trans (congrArg (fun z => z + _) (readAt_unread_row arg6 harg6 xs0 65 ⟨65, by omega⟩ rfl _ k)))
      refine RowsSplit.cons 64 (by omega) _ _ _ _ _ ?_ (fun hZ k => (row64 _ _ k).trans (congrArg (fun z => z + _) (readAt_unread_row arg6 harg6 xs0 64 ⟨64, by omega⟩ rfl _ k)))
      refine RowsSplit.cons 63 (by omega) _ _ _ _ _ ?_ (fun hZ k => (row63 _ _ k).trans (congrArg (fun z => z + _) (readAt_unread_row arg6 harg6 xs0 63 ⟨63, by omega⟩ rfl _ k)))
      refine RowsSplit.cons 62 (by omega) _ _ _ _ _ ?_ (fun hZ k => (row62 _ _ k).trans (congrArg (fun z => z + _) (readAt_unread_row arg6 harg6 xs0 62 ⟨62, by omega⟩ rfl _ k)))
      refine RowsSplit.cons 61 (by omega) _ _ _ _ _ ?_ (fun hZ k => (row61 _ _ k).trans (congrArg (fun z => z + _) (readAt_unread_row arg6 harg6 xs0 61 ⟨61, by omega⟩ rfl _ k)))
      refine RowsSplit.cons 60 (by omega) _ _ _ _ _ ?_ (fun hZ k => (row60 _ _ k).trans (congrArg (fun z => z + _) (readAt_unread_row arg6 harg6 xs0 60 ⟨60, by omega⟩ rfl _ k)))
      refine RowsSplit.cons 59 (by omega) _ _ _ _ _ ?_ (fun hZ k => (row59 _ _ k).trans (congrArg (fun z => z + _) (readAt_unread_row arg6 harg6 xs0 59 ⟨59, by omega⟩ rfl _ k)))
      refine RowsSplit.cons 58 (by omega) _ _ _ _ _ ?_ (fun hZ k => (row58 _ _ k).trans (congrArg (fun z => z + _) (readAt_unread_row arg6 harg6 xs0 58 ⟨58, by omega⟩ rfl _ k)))
      refine RowsSplit.cons 57 (by omega) _ _ _ _ _ ?_ (fun hZ k => (row57 _ _ k).trans (congrArg (fun z => z + _) (readAt_unread_row arg6 harg6 xs0 57 ⟨57, by omega⟩ rfl _ k)))
      refine RowsSplit.cons 56 (by omega) _ _ _ _ _ ?_ (fun hZ k => (row56 _ _ k).trans (congrArg (fun z => z + _) (readAt_unread_row arg6 harg6 xs0 56 ⟨56, by omega⟩ rfl _ k)))
      refine RowsSplit.cons 55 (by omega) _ _ _ _ _ ?_ (fun hZ k => (row55 _ _ k).trans (congrArg (fun z => z + _) (readAt_unread_row arg6 harg6 xs0 55 ⟨55, by omega⟩ rfl _ k)))
      refine RowsSplit.cons 54 (by omega) _ _ _ _ _ ?_ (fun hZ k => (row54 _ _ k).trans (congrArg (fun z => z + _) (readAt_unread_row arg6 harg6 xs0 54 ⟨54, by omega⟩ rfl _ k)))
      refine RowsSplit.cons 53 (by omega) _ _ _ _ _ ?_ (fun hZ k => (row53 _ _ k).trans (congrArg (fun z => z + _) (readAt_unread_row arg6 harg6 xs0 53 ⟨53, by omega⟩ rfl _ k)))
      refine RowsSplit.cons 52 (by omega) _ _ _ _ _ ?_ (fun hZ k => (row52 _ _ k).trans (congrArg (fun z => z + _) (readAt_unread_row arg6 harg6 xs0 52 ⟨52, by omega⟩ rfl _ k)))
      refine RowsSplit.cons 51 (by omega) _ _ _ _ _ ?_ (fun hZ k => (row51 _ _ k).trans (congrArg (fun z => z + _) (readAt_unread_row arg6 harg6 xs0 51 ⟨51, by omega⟩ rfl _ k)))
      refine RowsSplit.cons 50 (by omega) _ _ _ _ _ ?_ (fun hZ k => (row50 _ _ k).trans (congrArg (fun z => z + _) (readAt_unread_row arg6 harg6 xs0 50 ⟨50, by omega⟩ rfl _ k)))
      refine RowsSplit.cons 49 (by omega) _ _ _ _ _ ?_ (fun hZ k => (row49 _ _ k).trans (congrArg (fun z => z + _) (readAt_unread_row arg6 harg6 xs0 49 ⟨49, by omega⟩ rfl _ k)))
      refine RowsSplit.cons 48 (by omega) _ _ _ _ _ ?_ (fun hZ k => (row48 _ _ k).trans (congrArg (fun z => z + _) (readAt_unread_row arg6 harg6 xs0 48 ⟨48, by omega⟩ rfl _ k)))
      refine RowsSplit.cons 47 (by omega) _ _ _ _ _ ?_ (fun hZ k => (row47 _ _ k).trans (congrArg (fun z => z + _) (readAt_unread_row arg6 harg6 xs0 47 ⟨47, by omega⟩ rfl _ k)))
      refine RowsSplit.cons 46 (by omega) _ _ _ _ _ ?_ (fun hZ k => (row46 _ _ k).trans (congrArg (fun z => z + _) (readAt_unread_row arg6 harg6 xs0 46 ⟨46, by omega⟩ rfl _ k)))
      refine RowsSplit.cons 45 (by omega) _ _ _ _ _ ?_ (fun hZ k => (row45 _ _ k).trans (congrArg (fun z => z + _) (readAt_unread_row arg6 harg6 xs0 45 ⟨45, by omega⟩ rfl _ k)))
      refine RowsSplit.cons 44 (by omega) _ _ _ _ _ ?_ (fun hZ k => (row44 _ _ k).trans (congrArg (fun z => z + _) (readAt_unread_row arg6 harg6 xs0 44 ⟨44, by omega⟩ rfl _ k)))
      refine RowsSplit.cons 43 (by omega) _ _ _ _ _ ?_ (fun hZ k => (row43 _ _ k).trans (congrArg (fun z => z + _) (readAt_unread_row arg6 harg6 xs0 43 ⟨43, by omega⟩ rfl _ k)))
      refine RowsSplit.cons 42 (by omega) _ _ _ _ _ ?_ (fun hZ k => (row42 _ _ k).trans (congrArg (fun z => z + _) (readAt_unread_row arg6 harg6 xs0 42 ⟨42, by omega⟩ rfl _ k)))
      refine RowsSplit.cons 41 (by omega) _ _ _ _ _ ?_ (fun hZ k => (row41 _ _ k).trans (congrArg (fun z => z + _) (readAt_unread_row arg6 harg6 xs0 41 ⟨41, by omega⟩ rfl _ k)))
      refine RowsSplit.cons 40 (by omega) _ _ _ _ _ ?_ (fun hZ k => (row40 _ _ k).trans (congrArg (fun z => z + _) (readAt_unread_row arg6 harg6 xs0 40 ⟨40, by omega⟩ rfl _ k)))
      refine RowsSplit.cons 39 (by omega) _ _ _ _ _ ?_ (fun hZ k => (row39 _ _ k).trans (congrArg (fun z => z + _) (readAt_unread_row arg6 harg6 xs0 39 ⟨39, by omega⟩ rfl _ k)))
      refine RowsSplit.cons 38 (by omega) _ _ _ _ _ ?_ (fun hZ k => (row38 _ _ k).trans (congrArg (fun z => z + _) (readAt_unread_row arg6 harg6 xs0 38 ⟨38, by omega⟩ rfl _ k)))
      refine RowsSplit.cons 37 (by omega) _ _ _ _ _ ?_ (fun hZ k => (row37 _ _ k).trans (congrArg (fun z => z + _) (readAt_unread_row arg6 harg6 xs0 37 ⟨37, by omega⟩ rfl _ k)))
      refine RowsSplit.cons 36 (by omega) _ _ _ _ _ ?_ (fun hZ k => (row36 _ _ k).trans (congrArg (fun z => z + _) (readAt_unread_row arg6 harg6 xs0 36 ⟨36, by omega⟩ rfl _ k)))
      refine RowsSplit.cons 35 (by omega) _ _ _ _ _ ?_ (fun hZ k => (row35 _ _ k).trans (congrArg (fun z => z + _) (readAt_unread_row arg6 harg6 xs0 35 ⟨35, by omega⟩ rfl _ k)))
      refine RowsSplit.cons 34 (by omega) _ _ _ _ _ ?_ (fun hZ k => (row34 _ _ k).trans (congrArg (fun z => z + _) (readAt_unread_row arg6 harg6 xs0 34 ⟨34, by omega⟩ rfl _ k)))
      refine RowsSplit.cons 33 (by omega) _ _ _ _ _ ?_ (fun hZ k => (row33 _ _ k).trans (congrArg (fun z => z + _) (readAt_unread_row arg6 harg6 xs0 33 ⟨33, by omega⟩ rfl _ k)))
      refine RowsSplit.cons 32 (by omega) _ _ _ _ _ ?_ (fun hZ k => (row32 _ _ k).trans (congrArg (fun z => z + _) (readAt_unread_row arg6 harg6 xs0 32 ⟨32, by omega⟩ rfl _ k)))
      refine RowsSplit.cons 31 (by omega) _ _ _ _ _ ?_ (fun hZ k => (row31 _ _ k).trans (congrArg (fun z => z + _) (readAt_unread_row arg6 harg6 xs0 31 ⟨31, by omega⟩ rfl _ k)))
      refine RowsSplit.cons 30 (by omega) _ _ _ _ _ ?_ (fun hZ k => (row30 _ _ k).trans (congrArg (fun z => z + _) (readAt_unread_row arg6 harg6 xs0 30 ⟨30, by omega⟩ rfl _ k)))
      refine RowsSplit.cons 29 (by omega) _ _ _ _ _ ?_ (fun hZ k => (row29 _ _ k).trans (congrArg (fun z => z + _) (readAt_unread_row arg6 harg6 xs0 29 ⟨29, by omega⟩ rfl _ k)))
      refine RowsSplit.cons 28 (by omega) _ _ _ _ _ ?_ (fun hZ k => (row28 _ _ k).trans (congrArg (fun z => z + _) (readAt_unread_row arg6 harg6 xs0 28 ⟨28, by omega⟩ rfl _ k)))
      refine RowsSplit.cons 27 (by omega) _ _ _ _ _ ?_ (fun hZ k => (row27 _ _ k).trans (congrArg (fun z => z + _) (readAt_unread_row arg6 harg6 xs0 27 ⟨27, by omega⟩ rfl _ k)))
      refine RowsSplit.cons 26 (by omega) _ _ _ _ _ ?_ (fun hZ k => (row26 _ _ k).trans (congrArg (fun z => z + _) (readAt_unread_row arg6 harg6 xs0 26 ⟨26, by omega⟩ rfl _ k)))
      refine RowsSplit.cons 25 (by omega) _ _ _ _ _ ?_ (fun hZ k => (row25 _ _ k).trans (congrArg (fun z => z + _) (readAt_unread_row arg6 harg6 xs0 25 ⟨25, by omega⟩ rfl _ k)))
      refine RowsSplit.cons 24 (by omega) _ _ _ _ _ ?_ (fun hZ k => (row24 _ _ k).trans (congrArg (fun z => z + _) (readAt_unread_row arg6 harg6 xs0 24 ⟨24, by omega⟩ rfl _ k)))
      refine RowsSplit.cons 23 (by omega) _ _ _ _ _ ?_ (fun hZ k => (row23 _ _ k).trans (congrArg (fun z => z + _) (readAt_unread_row arg6 harg6 xs0 23 ⟨23, by omega⟩ rfl _ k)))
      refine RowsSplit.cons 22 (by omega) _ _ _ _ _ ?_ (fun hZ k => (row22 _ _ k).trans (congrArg (fun z => z + _) (readAt_unread_row arg6 harg6 xs0 22 ⟨22, by omega⟩ rfl _ k)))
      refine RowsSplit.cons 21 (by omega) _ _ _ _ _ ?_ (fun hZ k => (row21 _ _ k).trans (congrArg (fun z => z + _) (readAt_unread_row arg6 harg6 xs0 21 ⟨21, by omega⟩ rfl _ k)))
      refine RowsSplit.cons 20 (by omega) _ _ _ _ _ ?_ (fun hZ k => (row20 _ _ k).trans (congrArg (fun z => z + _) (readAt_unread_row arg6 harg6 xs0 20 ⟨20, by omega⟩ rfl _ k)))
      refine RowsSplit.cons 19 (by omega) _ _ _ _ _ ?_ (fun hZ k => (row19 _ _ k).trans (congrArg (fun z => z + _) (readAt_unread_row arg6 harg6 xs0 19 ⟨19, by omega⟩ rfl _ k)))
      refine RowsSplit.cons 18 (by omega) _ _ _ _ _ ?_ (fun hZ k => (row18 _ _ k).trans (congrArg (fun z => z + _) (readAt_unread_row arg6 harg6 xs0 18 ⟨18, by omega⟩ rfl _ k)))
      refine RowsSplit.cons 17 (by omega) _ _ _ _ _ ?_ (fun hZ k => (row17 _ _ k).trans (congrArg (fun z => z + _) (readAt_unread_row arg6 harg6 xs0 17 ⟨17, by omega⟩ rfl _ k)))
      refine RowsSplit.cons 16 (by omega) _ _ _ _ _ ?_ (fun hZ k => (row16 _ _ k).trans (congrArg (fun z => z + _) (readAt_unread_row arg6 harg6 xs0 16 ⟨16, by omega⟩ rfl _ k)))
      refine RowsSplit.cons 15 (by omega) _ _ _ _ _ ?_ (fun hZ k => (row15 _ _ k).trans (congrArg (fun z => z + _) (readAt_unread_row arg6 harg6 xs0 15 ⟨15, by omega⟩ rfl _ k)))
      refine RowsSplit.cons 14 (by omega) _ _ _ _ _ ?_ (fun hZ k => (row14 _ _ k).trans (congrArg (fun z => z + _) (readAt_unread_row arg6 harg6 xs0 14 ⟨14, by omega⟩ rfl _ k)))
      refine RowsSplit.cons 13 (by omega) _ _ _ _ _ ?_ (fun hZ k => (row13 _ _ k).trans (congrArg (fun z => z + _) (readAt_unread_row arg6 harg6 xs0 13 ⟨13, by omega⟩ rfl _ k)))
      refine RowsSplit.cons 12 (by omega) _ _ _ _ _ ?_ (fun hZ k => (row12 _ _ k).trans (congrArg (fun z => z + _) (readAt_unread_row arg6 harg6 xs0 12 ⟨12, by omega⟩ rfl _ k)))
      refine RowsSplit.cons 11 (by omega) _ _ _ _ _ ?_ (fun hZ k => (row11 _ _ k).trans (congrArg (fun z => z + _) (readAt_unread_row arg6 harg6 xs0 11 ⟨11, by omega⟩ rfl _ k)))
      refine RowsSplit.cons 10 (by omega) _ _ _ _ _ ?_ (fun hZ k => (row10 _ _ k).trans (congrArg (fun z => z + _) (readAt_unread_row arg6 harg6 xs0 10 ⟨10, by omega⟩ rfl _ k)))
      refine RowsSplit.cons 9 (by omega) _ _ _ _ _ ?_ (fun hZ k => (row9 _ _ k).trans (congrArg (fun z => z + _) (readAt_unread_row arg6 harg6 xs0 9 ⟨9, by omega⟩ rfl _ k)))
      refine RowsSplit.cons 8 (by omega) _ _ _ _ _ ?_ (fun hZ k => (row8 _ _ k).trans (congrArg (fun z => z + _) (readAt_unread_row arg6 harg6 xs0 8 ⟨8, by omega⟩ rfl _ k)))
      refine RowsSplit.cons 7 (by omega) _ _ _ _ _ ?_ (fun hZ k => (row7 _ _ k).trans (congrArg (fun z => z + _) (readAt_unread_row arg6 harg6 xs0 7 ⟨7, by omega⟩ rfl _ k)))
      refine RowsSplit.cons 6 (by omega) _ _ _ _ _ ?_ (fun hZ k => (row6 _ _ k).trans (congrArg (fun z => z + _) (readAt_unread_row arg6 harg6 xs0 6 ⟨6, by omega⟩ rfl _ k)))
      refine RowsSplit.cons 5 (by omega) _ _ _ _ _ ?_ (fun hZ k => (row5 _ _ k).trans (congrArg (fun z => z + _) (readAt_unread_row arg6 harg6 xs0 5 ⟨5, by omega⟩ rfl _ k)))
      refine RowsSplit.cons 4 (by omega) _ _ _ _ _ ?_ (fun hZ k => (row4 _ _ k).trans (congrArg (fun z => z + _) (readAt_unread_row arg6 harg6 xs0 4 ⟨4, by omega⟩ rfl _ k)))
      refine RowsSplit.cons 3 (by omega) _ _ _ _ _ ?_ (fun hZ k => (row3 _ _ k).trans (congrArg (fun z => z + _) (readAt_unread_row arg6 harg6 xs0 3 ⟨3, by omega⟩ rfl _ k)))
      refine RowsSplit.cons 2 (by omega) _ _ _ _ _ ?_ (fun hZ k => (row2 _ _ k).trans (congrArg (fun z => z + _) (readAt_unread_row arg6 harg6 xs0 2 ⟨2, by omega⟩ rfl _ k)))
      refine RowsSplit.cons 1 (by omega) _ _ _ _ _ ?_ (fun hZ k => (row1 _ _ _ k).trans (congrArg (fun z => z + _) (readAt_unread_row arg6 harg6 xs0 1 ⟨1, by omega⟩ rfl _ k)))
      refine RowsSplit.cons 0 (by omega) _ _ _ _ _ ?_ (fun hZ k => (row0 _ _ _ k).trans (congrArg (fun z => z + _) (readAt_unread_row arg6 harg6 xs0 0 ⟨0, by omega⟩ rfl _ k)))
      exact RowsSplit.base _ _
  · have hnm : y ∉ (Rect.unit (s := S8x128) ![0, 0] ![1, 1] inb_S8x128_S1x1_0_0).set :=
      fun h => hy ((mem_corner y _).mp h)
    rw [if_neg hy]
    refine (View.canon_cons_of_not_mem _ _ hnm).trans ?_
    rw [View.canon_unit_zero (S := S8x128) hz]

end Cert.KernelIdeal.Pieces

end
-- ==== Proof.Accumulate.lean ====
/-
  What the kernel's scratch matrices and its output block hold point by point: over a core's four tiles the
  row-sum scratch accumulates the tiles' row sums and the Gram scratch the tiles' Gram matrices, in the order the
  tiles come, from the zero fill at the core's first tile; at the core's last tile the output block receives the
  core's total at its first entry and zeros elsewhere.
-/
import proofs.«124193_j68049461838564_2_alg».proof.Proof.Gen.KernelIdeal.Frame
import proofs.«124193_j68049461838564_2_alg».proof.Proof.LossSpec
import proofs.«124193_j68049461838564_2_alg».proof.Proof.BodyPayloads
import proofs.«124193_j68049461838564_2_alg».proof.Proof.RowPayloads
import proofs.«124193_j68049461838564_2_alg».proof.Proof.InputBlocks
import proofs.«124193_j68049461838564_2_alg».proof.Proof.Pieces
import proofs.«124193_j68049461838564_2_alg».proof.Proof.OutPiece
import Idealize.ShloMosaic.PureOps.Ideal.Laws
import Idealize.ShloMosaic.Lib.ValueIdx

set_option maxRecDepth 16384

noncomputable section

namespace Cert.KernelIdeal.Accumulate

open Idealize.ShloMosaic Idealize.ShloMosaic.TcCoe Idealize.ShloMosaic.ValueIdx
open Idealize.SL Idealize.SL.Sem
open Cert.KernelIdeal Cert.KernelIdeal.Gen Cert.LossSpec Cert.KernelIdeal.RowPayloads

variable (m : (ℓ : Loc nD τ sig) → Buf (Elt Ideal) ℓ) (c : Dev nD)

/-- The errors as the reference forms them from the two argument arrays. -/
def errs : Fin 8192 → Fin 96 → EReal :=
  err (m ((c : Thread nD τ).loc main_arg0)) (m ((c : Thread nD τ).loc main_arg1))

/-- The block of errors the body forms at point n from its two input blocks. -/
def blockErr (n : ℕ) (hn : n < cfg0.N) : FVec Ideal S1024x96 .f32 :=
  k0_pay7 (F := Ideal) (iblk m c 0 ⟨n, hn⟩) (iblk m c 1 ⟨n, hn⟩)

/-- The row-sum scratch after point n. -/
def rowsAt (n : ℕ) (hn : n < cfg0.N) : Vec Ideal S96x96 .f32 := (outsAt0 m c n hn).2.1

/-- The Gram scratch after point n. -/
def gramAt (n : ℕ) (hn : n < cfg0.N) : Vec Ideal S96x96 .f32 := (outsAt0 m c n hn).2.2

/-- A core's total: LossSpec.coreTotal over the core's accumulated row sums and Gram matrix and the weight block
    the region finds. -/
def coreT (c' : Fin 2) : EReal :=
  coreTotal (accAbs (errs m c) c') (accGram (errs m c) c')
    (fun p i k => (V m c main_v14 : S2x96x96.Idx → EReal) (ix3 p i k))

/-! ## One point -/

/-- At a core's first tile the row-sum scratch is zeroed and then holds this tile's row sums. -/
theorem rows_first (n : ℕ) (hn : n < cfg0.N) (h0 : n % 4 = 0) :
    rowsAt m c n hn = fun y => rowSum (blockErr m c n hn) (y 0) (y 1) := by
  have h1 : ¬n % 4 = 3 := by omega
  refine (congrArg (fun p => p.2.1) (outsAt0_A m c (⟨n, hn⟩ : Fin cfg0.N) h0 h1)).trans ?_
  refine (Pieces.rows_A c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))).trans ?_
  funext y
  rw [BodyPayloads.zero96]
  exact zero_add _

/-- At a core's first tile the Gram scratch is zeroed and then updated with this tile. -/
theorem gram_first (n : ℕ) (hn : n < cfg0.N) (h0 : n % 4 = 0) :
    gramAt m c n hn = k0_pay2 (F := Ideal) (blockErr m c n hn) (k0_pay6 (F := Ideal)) := by
  have h1 : ¬n % 4 = 3 := by omega
  refine (congrArg (fun p => p.2.2) (outsAt0_A m c (⟨n, hn⟩ : Fin cfg0.N) h0 h1)).trans ?_
  exact Pieces.gram_A c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At a later tile of a core the row-sum scratch is what the point before left plus this tile's row sums. -/
theorem rows_next (n : ℕ) (hn : n + 1 < cfg0.N) (h0 : ¬(n + 1) % 4 = 0) :
    rowsAt m c (n + 1) hn
      = fun y => rowsAt m c n (Nat.lt_of_succ_lt hn) (ix2 (y 0) (y 1)) + rowSum (blockErr m c (n + 1) hn) (y 0) (y 1) := by
  by_cases h1 : (n + 1) % 4 = 3
  · refine (congrArg (fun p => p.2.1) (outsAt0_C m c (⟨n + 1, hn⟩ : Fin cfg0.N) h0 h1)).trans ?_
    exact Pieces.rows_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N))
      (rowsAt m c n (Nat.lt_of_succ_lt hn)) (gramAt m c n (Nat.lt_of_succ_lt hn))
  · refine (congrArg (fun p => p.2.1) (outsAt0_B m c (⟨n + 1, hn⟩ : Fin cfg0.N) h0 h1)).trans ?_
    exact Pieces.rows_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N))
      (rowsAt m c n (Nat.lt_of_succ_lt hn)) (gramAt m c n (Nat.lt_of_succ_lt hn))

/-- At a later tile of a core the Gram scratch is what the point before left, updated with this tile. -/
theorem gram_next (n : ℕ) (hn : n + 1 < cfg0.N) (h0 : ¬(n + 1) % 4 = 0) :
    gramAt m c (n + 1) hn
      = k0_pay2 (F := Ideal) (blockErr m c (n + 1) hn) (gramAt m c n (Nat.lt_of_succ_lt hn)) := by
  by_cases h1 : (n + 1) % 4 = 3
  · refine (congrArg (fun p => p.2.2) (outsAt0_C m c (⟨n + 1, hn⟩ : Fin cfg0.N) h0 h1)).trans ?_
    exact Pieces.gram_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N))
      (rowsAt m c n (Nat.lt_of_succ_lt hn)) (gramAt m c n (Nat.lt_of_succ_lt hn))
  · refine (congrArg (fun p => p.2.2) (outsAt0_B m c (⟨n + 1, hn⟩ : Fin cfg0.N) h0 h1)).trans ?_
    exact Pieces.gram_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N))
      (rowsAt m c n (Nat.lt_of_succ_lt hn)) (gramAt m c n (Nat.lt_of_succ_lt hn))

/-- At a core's last tile the output block receives, at its first entry, the total formed from the scratch
    matrices as this point leaves them, and zeros elsewhere. -/
theorem out_last (n : ℕ) (hn : n + 1 < cfg0.N) (h1 : (n + 1) % 4 = 3) :
    ((outsAt0 m c (n + 1) hn).1 : S8x128.Idx → EReal)
      = fun y => if (y 0).val = 0 ∧ (y 1).val = 0
          then k0_pay4 (F := Ideal) (iblk m c 2 (⟨n + 1, hn⟩ : Fin cfg0.N)) (rowsAt m c (n + 1) hn) (gramAt m c (n + 1) hn)
            (ix2 (0 : Fin 1) (0 : Fin 1))
          else 0 := by
  have h0 : ¬(n + 1) % 4 = 0 := by omega
  refine (congrArg (fun p => p.1) (outsAt0_C m c (⟨n + 1, hn⟩ : Fin cfg0.N) h0 h1)).trans ?_
  refine (Pieces.out_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N))
    (rowsAt m c n (Nat.lt_of_succ_lt hn)) (gramAt m c n (Nat.lt_of_succ_lt hn))).trans ?_
  rw [rows_next m c n hn h0, gram_next m c n hn h0]
  funext y
  by_cases hy : (y 0).val = 0 ∧ (y 1).val = 0
  · rw [if_pos hy, if_pos hy]
    rfl
  · rw [if_neg hy, if_neg hy]
    exact Ideal.ofBits_zero_f32

/-! ## Entries -/

/-- The row-sum scratch at an entry, at a core's first tile. -/
theorem rows_first_apply (n : ℕ) (hn : n < cfg0.N) (h0 : n % 4 = 0) (i k : Fin 96) :
    rowsAt m c n hn (ix2 i k) = rowSum (blockErr m c n hn) i k :=
  congrFun (rows_first m c n hn h0) (ix2 i k)

/-- The row-sum scratch at an entry, at a later tile. -/
theorem rows_next_apply (n : ℕ) (hn : n + 1 < cfg0.N) (h0 : ¬(n + 1) % 4 = 0) (i k : Fin 96) :
    rowsAt m c (n + 1) hn (ix2 i k)
      = rowsAt m c n (Nat.lt_of_succ_lt hn) (ix2 i k) + rowSum (blockErr m c (n + 1) hn) i k :=
  congrFun (rows_next m c n hn h0) (ix2 i k)

/-- A block's row sums are the tile's, the block being tile b of the errors. -/
theorem rowSum_block (n : ℕ) (hn : n < cfg0.N) (b : Fin 8) (hb : b.val = n) (i k : Fin 96) :
    rowSum (blockErr m c n hn) i k = tileAbs (errs m c) b i k := by
  unfold rowSum tileAbs blockErr
  refine Finset.sum_congr rfl fun x _ => ?_
  rw [InputBlocks.err_block m c ⟨n, hn⟩ x i b hb, InputBlocks.err_block m c ⟨n, hn⟩ x k b hb]
  rfl

/-- A block's Gram update at an entry adds the tile's Gram entry. -/
theorem gram_block (n : ℕ) (hn : n < cfg0.N) (b : Fin 8) (hb : b.val = n) (old : Vec Ideal S96x96 .f32) (i k : Fin 96) :
    k0_pay2 (F := Ideal) (blockErr m c n hn) old (ix2 i k) = old (ix2 i k) + tileGram (errs m c) b i k := by
  rw [BodyPayloads.gram_apply]
  unfold tileGram blockErr
  refine congrArg (fun z => old (ix2 i k) + z) (Finset.sum_congr rfl fun x _ => ?_)
  rw [InputBlocks.err_block m c ⟨n, hn⟩ x i b hb, InputBlocks.err_block m c ⟨n, hn⟩ x k b hb]
  rfl

/-! ## A core's four tiles -/

/-- After a core's four tiles the row-sum scratch holds the core's accumulated row sums. -/
theorem core_rows (b0 : ℕ) (h3 : b0 + 1 + 1 + 1 < cfg0.N) (hb0 : b0 % 4 = 0) (c' : Fin 2) (hc : 4 * c'.val = b0)
    (i k : Fin 96) : rowsAt m c (b0 + 1 + 1 + 1) h3 (ix2 i k) = accAbs (errs m c) c' i k := by
  have h2 : b0 + 1 + 1 < cfg0.N := Nat.lt_of_succ_lt h3
  have h1 : b0 + 1 < cfg0.N := Nat.lt_of_succ_lt h2
  have h0 : b0 < cfg0.N := Nat.lt_of_succ_lt h1
  have e0 : (tileOf c' 0).val = b0 := by show 4 * c'.val + 0 = b0; omega
  have e1 : (tileOf c' 1).val = b0 + 1 := by show 4 * c'.val + 1 = b0 + 1; omega
  have e2 : (tileOf c' 2).val = b0 + 1 + 1 := by show 4 * c'.val + 2 = b0 + 1 + 1; omega
  have e3 : (tileOf c' 3).val = b0 + 1 + 1 + 1 := by show 4 * c'.val + 3 = b0 + 1 + 1 + 1; omega
  rw [rows_next_apply m c (b0 + 1 + 1) h3 (by omega) i k, rows_next_apply m c (b0 + 1) h2 (by omega) i k,
    rows_next_apply m c b0 h1 (by omega) i k, rows_first_apply m c b0 h0 hb0 i k,
    rowSum_block m c b0 h0 (tileOf c' 0) e0 i k, rowSum_block m c (b0 + 1) h1 (tileOf c' 1) e1 i k,
    rowSum_block m c (b0 + 1 + 1) h2 (tileOf c' 2) e2 i k, rowSum_block m c (b0 + 1 + 1 + 1) h3 (tileOf c' 3) e3 i k]
  rfl

/-- After a core's four tiles the Gram scratch holds the core's accumulated Gram matrix. -/
theorem core_gram (b0 : ℕ) (h3 : b0 + 1 + 1 + 1 < cfg0.N) (hb0 : b0 % 4 = 0) (c' : Fin 2) (hc : 4 * c'.val = b0)
    (i k : Fin 96) : gramAt m c (b0 + 1 + 1 + 1) h3 (ix2 i k) = accGram (errs m c) c' i k := by
  have h2 : b0 + 1 + 1 < cfg0.N := Nat.lt_of_succ_lt h3
  have h1 : b0 + 1 < cfg0.N := Nat.lt_of_succ_lt h2
  have h0 : b0 < cfg0.N := Nat.lt_of_succ_lt h1
  have e0 : (tileOf c' 0).val = b0 := by show 4 * c'.val + 0 = b0; omega
  have e1 : (tileOf c' 1).val = b0 + 1 := by show 4 * c'.val + 1 = b0 + 1; omega
  have e2 : (tileOf c' 2).val = b0 + 1 + 1 := by show 4 * c'.val + 2 = b0 + 1 + 1; omega
  have e3 : (tileOf c' 3).val = b0 + 1 + 1 + 1 := by show 4 * c'.val + 3 = b0 + 1 + 1 + 1; omega
  rw [gram_next m c (b0 + 1 + 1) h3 (by omega), gram_block m c (b0 + 1 + 1 + 1) h3 (tileOf c' 3) e3,
    gram_next m c (b0 + 1) h2 (by omega), gram_block m c (b0 + 1 + 1) h2 (tileOf c' 2) e2,
    gram_next m c b0 h1 (by omega), gram_block m c (b0 + 1) h1 (tileOf c' 1) e1,
    gram_first m c b0 h0 hb0, gram_block m c b0 h0 (tileOf c' 0) e0, BodyPayloads.zero96', zero_add]
  rfl

/-! ## The output block at the two flushing points -/

/-- At a core's last tile the output block holds the core's total at its first entry and zeros elsewhere. -/
theorem core_out_at (b0 : ℕ) (h3 : b0 + 1 + 1 + 1 < cfg0.N) (hb0 : b0 % 4 = 0) (c' : Fin 2) (hc : 4 * c'.val = b0) :
    ((outsAt0 m c (b0 + 1 + 1 + 1) h3).1 : S8x128.Idx → EReal)
      = fun y => if (y 0).val = 0 ∧ (y 1).val = 0 then coreT m c c' else 0 := by
  rw [out_last m c (b0 + 1 + 1) h3 (by omega)]
  funext y
  refine if_congr Iff.rfl ?_ rfl
  rw [BodyPayloads.final_apply, InputBlocks.weights_block m c ⟨b0 + 1 + 1 + 1, h3⟩]
  unfold coreT
  have hS : (fun i k => rowsAt m c (b0 + 1 + 1 + 1) h3 (ix2 i k)) = accAbs (errs m c) c' :=
    funext fun i => funext fun k => core_rows m c b0 h3 hb0 c' hc i k
  have hG : (fun i k => gramAt m c (b0 + 1 + 1 + 1) h3 (ix2 i k)) = accGram (errs m c) c' :=
    funext fun i => funext fun k => core_gram m c b0 h3 hb0 c' hc i k
  rw [hS, hG]

/-- What the output block holds at the two flushing points: core 0's total after point 3, core 1's after point 7. -/
theorem core_out : ∀ t : Fin cfg0.N, t.val % 4 = 3 →
    ((outsAt0 m c t.val t.isLt).1 : S8x128.Idx → EReal)
      = fun y => if (y 0).val = 0 ∧ (y 1).val = 0 then coreT m c (if t.val = 3 then 0 else 1) else 0 := by
  rintro ⟨tv, ht⟩ h3
  have hN : cfg0.N = 8 := N_0
  have ht' : tv < 8 := hN ▸ ht
  have hcases : tv = 3 ∨ tv = 7 := by
    have h3' : tv % 4 = 3 := h3
    omega
  rcases hcases with rfl | rfl
  · exact core_out_at m c 0 ht (by decide) 0 rfl
  · exact core_out_at m c 4 ht (by decide) 1 rfl

end Cert.KernelIdeal.Accumulate

end
-- ==== Proof.HostPrefix.lean ====
/-
  The third operand of the region is the host's chain of operations on the weights.

  Before the region the host builds, from the weights w : [2, 96, 96], the array W(p, i, k) = w(p, i, k - i) for
  k ≥ i and 0 below the diagonal, on 32-bit words: the lag j(i, k) = k - i from two iotas, the bit "j ≥ 0", the
  lag clipped into [0, 95], a take of w along its last axis at the clipped lag (with a fix-up of negative
  indices and an in-range test), and a final select that puts 0 where the lag is negative. Three of these
  steps are calls of module-local functions, whose operations hold their values at the values' own types; the
  buffers' types are the same types, so moving contents between the two is the identity, buffer by buffer.

  This module names the chain as one term and shows that the region finds exactly that term, over the launch's
  weights, in its third operand.
-/
import proofs.«124193_j68049461838564_2_alg».proof.Proof.Gen.KernelIdeal.Frame
import proofs.«124193_j68049461838564_2_alg».proof.Proof.LossSpec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.HostWeights

open Idealize.ShloMosaic Idealize.ShloMosaic.TcCoe Idealize.SL.Sem
open Idealize.ShloMosaic.ValueIdx
open Cert.KernelIdeal Cert.KernelIdeal.Gen

/-! ## The host's operations as one term -/

/-- The lag j(i, k) = k - i as 32-bit words: the column number minus the row number. -/
def lagW : IVec S96x96 32 :=
  subi (broadcastInDim S96x96 ![0, 1] bcast_S1x96_S96x96_0_1 (broadcastInDim S1x96 ![1] bcast_S96_S1x96_1 (iotaInDim S96 32 0)))
    (broadcastInDim S96x96 ![0, 1] bcast_S96x1_S96x96_0_1 (broadcastInDim S96x1 ![0] bcast_S96_S96x1_0 (iotaInDim S96 32 0)))

/-- The bit "the lag is not negative" (signed comparison with 0). -/
def validW : IVec S96x96 1 := cmpi .sge lagW (broadcastInDim S96x96 ![] bcast_S_S96x96 (constantI S_ 32 0#32))

/-- The lag clipped into [0, 95]: the signed maximum with 0, then the signed minimum with 95. -/
def clipW : IVec S96x96 32 :=
  minsi (broadcastInDim S96x96 ![] bcast_S_S96x96 (constantI S_ 32 95#32))
    (maxsi (broadcastInDim S96x96 ![] bcast_S_S96x96 (constantI S_ 32 0#32)) lagW)

/-- The clipped lag repeated for both powers. -/
def idxW : IVec S2x96x96 32 :=
  broadcastInDim S2x96x96 ![0, 1, 2] bcast_S1x96x96_S2x96x96_0_1_2 (broadcastInDim S1x96x96 ![1, 2] bcast_S96x96_S1x96x96_1_2 clipW)

/-- The take's fix-up of negative indices: 96 added where the index is below 0. -/
def fixW : IVec S2x96x96 32 :=
  select (cmpi .slt idxW (broadcastInDim S2x96x96 ![] bcast_S_S2x96x96 (constantI S_ 32 0#32)))
    (addi idxW (broadcastInDim S2x96x96 ![] bcast_S_S2x96x96 (constantI S_ 32 96#32))) idxW

/-- The indices with a trailing unit axis, as the take reads them. -/
def idx4W : IVec S2x96x96x1 32 := shapeCast S2x96x96x1 fixW shapeCasts_S2x96x96_S2x96x96x1

/-- The take's in-range test: 0 ≤ index ≤ 95, conjoined over the unit axis. -/
def inRangeW : IVec S2x96x96 1 :=
  Host.reduce IntOp.andi
    (andi (cmpi .sge idx4W (broadcastInDim S2x96x96x1 ![] bcast_S_S2x96x96x1 (constantI S_ 32 0#32)))
      (cmpi .sle idx4W (broadcastInDim S2x96x96x1 ![0, 1, 2, 3] bcast_S1x1x1x1_S2x96x96x1_0_1_2_3
        (broadcastInDim S1x1x1x1 ![3] bcast_S1_S1x1x1x1_3 (constantI S1 32 95#32)))))
    (constantI S_ 1 1#1) reducesTo_S2x96x96x1_S2x96x96_d3 h_S_

/-- The take along the last axis: the weights at the index, or the quiet-NaN word where the index is out of range. -/
def takenW (w : S2x96x96.Idx → EReal) : S2x96x96.Idx → EReal :=
  select inRangeW (Host.gather gather_S2x96x96_S2x96x96x1_S2x96x96_n_2_01_01_2_3_111 w idx4W)
    (broadcastInDim S2x96x96 ![] bcast_S_S2x96x96 (constant (F := Ideal) S_ .f32 0x7FC00000#32))

/-- The host's whole chain: the taken weights where the lag is not negative, the f32 zero elsewhere. -/
def hostW (w : S2x96x96.Idx → EReal) : S2x96x96.Idx → EReal :=
  select (broadcastInDim S2x96x96 ![0, 1, 2] bcast_S1x96x96_S2x96x96_0_1_2
      (broadcastInDim S1x96x96 ![1, 2] bcast_S96x96_S1x96x96_1_2 validW))
    (takenW w) (broadcastInDim S2x96x96 ![] bcast_S_S2x96x96 (constant (F := Ideal) S_ .f32 0x00000000#32))

/-! ## Contents at a value's type and at its buffer's type are the same contents -/

/-- Moving contents to a buffer's own type and back is the identity. -/
theorem ofBuf_toBuf {T : BufTy} (x : StableHlo.TRef sig T) (v : T.Contents (Elt Ideal)) : x.ofBuf (x.toBuf v) = v := by
  unfold StableHlo.TRef.ofBuf StableHlo.TRef.toBuf
  rw [cast_cast]
  exact cast_eq _ _

theorem toBuf_main_v14 (h1 : main_v14.ty = ⟨S2x96x96, .f32⟩) (h2 : main_v14.space ≠ .host) (h3 : main_v14.isScoped = false)
    (v : (⟨S2x96x96, .f32⟩ : BufTy).Contents (Elt Ideal)) : (StableHlo.TRef.of main_v14 h1 h2 h3).toBuf v = v := rfl

theorem toBuf_main_v9 (h1 : main_v9.ty = ⟨S96x96, .i32⟩) (h2 : main_v9.space ≠ .host) (h3 : main_v9.isScoped = false)
    (v : (⟨S96x96, .i32⟩ : BufTy).Contents (Elt Ideal)) : (StableHlo.TRef.of main_v9 h1 h2 h3).toBuf v = v := rfl

theorem toBuf_main_call1_v4 (h1 : main_call1_v4.ty = ⟨S2x96x96, .i32⟩) (h2 : main_call1_v4.space ≠ .host) (h3 : main_call1_v4.isScoped = false)
    (v : (⟨S2x96x96, .i32⟩ : BufTy).Contents (Elt Ideal)) : (StableHlo.TRef.of main_call1_v4 h1 h2 h3).toBuf v = v := rfl

theorem ofBuf_main_v13 (h1 : main_v13.ty = ⟨S1x96x96, .i1⟩) (h2 : main_v13.space ≠ .host) (h3 : main_v13.isScoped = false)
    (u : main_v13.ty.Contents (Elt Ideal)) : (StableHlo.TRef.of main_v13 h1 h2 h3).ofBuf u = u := rfl

theorem ofBuf_main_v11 (h1 : main_v11.ty = ⟨S2x96x96, .i32⟩) (h2 : main_v11.space ≠ .host) (h3 : main_v11.isScoped = false)
    (u : main_v11.ty.Contents (Elt Ideal)) : (StableHlo.TRef.of main_v11 h1 h2 h3).ofBuf u = u := rfl

theorem ofBuf_main_v6 (h1 : main_v6.ty = ⟨S96x96, .i32⟩) (h2 : main_v6.space ≠ .host) (h3 : main_v6.isScoped = false)
    (u : main_v6.ty.Contents (Elt Ideal)) : (StableHlo.TRef.of main_v6 h1 h2 h3).ofBuf u = u := rfl

theorem ofBuf_main_c_0 (h1 : main_c_0.ty = ⟨S_, .i32⟩) (h2 : main_c_0.space ≠ .host) (h3 : main_c_0.isScoped = false)
    (u : main_c_0.ty.Contents (Elt Ideal)) : (StableHlo.TRef.of main_c_0 h1 h2 h3).ofBuf u = u := rfl

theorem ofBuf_main_c_1 (h1 : main_c_1.ty = ⟨S_, .i32⟩) (h2 : main_c_1.space ≠ .host) (h3 : main_c_1.isScoped = false)
    (u : main_c_1.ty.Contents (Elt Ideal)) : (StableHlo.TRef.of main_c_1 h1 h2 h3).ofBuf u = u := rfl

theorem ofBuf_main_arg2 (h1 : main_arg2.ty = ⟨S2x96x96, .f32⟩) (h2 : main_arg2.space ≠ .host) (h3 : main_arg2.isScoped = false)
    (u : main_arg2.ty.Contents (Elt Ideal)) : (StableHlo.TRef.of main_arg2 h1 h2 h3).ofBuf u = u := rfl

theorem ofBuf_main_cst (h1 : main_cst.ty = ⟨S_, .f32⟩) (h2 : main_cst.space ≠ .host) (h3 : main_cst.isScoped = false)
    (u : main_cst.ty.Contents (Elt Ideal)) : (StableHlo.TRef.of main_cst h1 h2 h3).ofBuf u = u := rfl

theorem ofBuf_main_call1_v5 (h1 : main_call1_v5.ty = ⟨S2x96x96x1, .i32⟩) (h2 : main_call1_v5.space ≠ .host) (h3 : main_call1_v5.isScoped = false)
    (u : main_call1_v5.ty.Contents (Elt Ideal)) : (StableHlo.TRef.of main_call1_v5 h1 h2 h3).ofBuf u = u := rfl

set_option maxRecDepth 16384 in
set_option maxHeartbeats 1000000 in
/-- The region finds the host's chain, over the launch's weights, in its third operand: the host operations before
    the region composed, each result read where it was written, the moves between a value's type and its
    buffer's type removed. -/
theorem prefix_value (m : (ℓ : Loc nD τ sig) → Buf (Elt Ideal) ℓ) (c : Dev nD) :
    (Gen.V m c main_v14 : S2x96x96.Idx → EReal)
      = hostW (m ((c : Thread nD τ).loc main_arg2) : S2x96x96.Idx → EReal) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  unfold hostW takenW inRangeW idx4W fixW idxW clipW validW lagW
  simp only [ofBuf_toBuf, toBuf_main_v14, toBuf_main_v9, toBuf_main_call1_v4, ofBuf_main_v13, ofBuf_main_v11, ofBuf_main_v6, ofBuf_main_c_0, ofBuf_main_c_1, ofBuf_main_arg2, ofBuf_main_cst, ofBuf_main_call1_v5]
  rfl

end Cert.HostWeights

end
-- ==== Proof.HostWeights.lean ====
/-
  The third operand of the region: the weights reindexed from (position, lag) to (position, partner).

  Before the region the host builds, from the weights w : [2, 96, 96], the array W(p, i, k) = w(p, i, k - i) for
  k ≥ i and 0 below the diagonal. It does so on 32-bit words: the lag j(i, k) = k - i from two iotas, the bit
  "j ≥ 0", the lag clipped into [0, 95], a take of w along its last axis at the clipped lag (batched over the two
  leading axes, with a fix-up of negative indices and an in-range test, neither of which ever fires since the
  clipped lag is already in [0, 95]), and a final select that puts 0 where the lag is negative.

  The chain is named stage by stage, and identified with what the region finds in its third operand, in the
  module this one imports. Here each stage is read at an entry: the word facts about lags below 96, the
  broadcasts and the reshape read at an entry, the batched take read at an entry, and from these the entry
  (p, i, k) of the whole chain.
-/
import proofs.«124193_j68049461838564_2_alg».proof.Proof.HostPrefix
import proofs.«124193_j68049461838564_2_alg».proof.Proof.LossSpec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.HostWeights

open Idealize.ShloMosaic Idealize.ShloMosaic.TcCoe Idealize.SL.Sem
open Idealize.ShloMosaic.ValueIdx
open Cert.KernelIdeal Cert.KernelIdeal.Gen

/-! ## The lag as 32-bit words -/

theorem lag_words : ∀ i k : Fin 96,
    IntOp.cmpi .sge (IntOp.subi (BitVec.ofNat 32 k.val) (BitVec.ofNat 32 i.val)) 0#32 = (if i.val ≤ k.val then 1#1 else 0#1)
    ∧ IntOp.minsi 95#32 (IntOp.maxsi 0#32 (IntOp.subi (BitVec.ofNat 32 k.val) (BitVec.ofNat 32 i.val)))
        = BitVec.ofNat 32 (k.val - i.val) := by
  decide +kernel

theorem idx_words : ∀ d : Fin 96,
    IntOp.cmpi .slt (BitVec.ofNat 32 d.val) 0#32 = 0#1
    ∧ IntOp.cmpi .sge (BitVec.ofNat 32 d.val) 0#32 = 1#1
    ∧ IntOp.cmpi .sle (BitVec.ofNat 32 d.val) 95#32 = 1#1
    ∧ (BitVec.ofNat 32 d.val).toInt.toNat = d.val := by
  decide +kernel

/-! ## Broadcasts read at an entry -/

section Bcast
variable {α : Type}

theorem bcast_96_96x1 (h : (⟨1, ![96]⟩ : Shape).BroadcastsInDim ⟨2, ![96, 1]⟩ ![0])
    (x : (⟨1, ![96]⟩ : Shape).Idx → α) (i : Fin 96) :
    broadcastInDim ⟨2, ![96, 1]⟩ ![0] h x (ix2 i (0 : Fin 1)) = x (ix1 i) :=
  broadcastInDim_apply _ h x _ _ fun a => by match a with | ⟨0, _⟩ => rfl

theorem bcast_96_1x96 (h : (⟨1, ![96]⟩ : Shape).BroadcastsInDim ⟨2, ![1, 96]⟩ ![1])
    (x : (⟨1, ![96]⟩ : Shape).Idx → α) (k : Fin 96) :
    broadcastInDim ⟨2, ![1, 96]⟩ ![1] h x (ix2 (0 : Fin 1) k) = x (ix1 k) :=
  broadcastInDim_apply _ h x _ _ fun a => by match a with | ⟨0, _⟩ => rfl

theorem bcast_1x96_96x96 (h : (⟨2, ![1, 96]⟩ : Shape).BroadcastsInDim ⟨2, ![96, 96]⟩ ![0, 1])
    (x : (⟨2, ![1, 96]⟩ : Shape).Idx → α) (i k : Fin 96) :
    broadcastInDim ⟨2, ![96, 96]⟩ ![0, 1] h x (ix2 i k) = x (ix2 (0 : Fin 1) k) :=
  broadcastInDim_apply _ h x _ _ fun a => by match a with | ⟨0, _⟩ => rfl | ⟨1, _⟩ => rfl

theorem bcast_96x1_96x96 (h : (⟨2, ![96, 1]⟩ : Shape).BroadcastsInDim ⟨2, ![96, 96]⟩ ![0, 1])
    (x : (⟨2, ![96, 1]⟩ : Shape).Idx → α) (i k : Fin 96) :
    broadcastInDim ⟨2, ![96, 96]⟩ ![0, 1] h x (ix2 i k) = x (ix2 i (0 : Fin 1)) :=
  broadcastInDim_apply _ h x _ _ fun a => by match a with | ⟨0, _⟩ => rfl | ⟨1, _⟩ => rfl

theorem bcast_96x96_1x96x96 (h : (⟨2, ![96, 96]⟩ : Shape).BroadcastsInDim ⟨3, ![1, 96, 96]⟩ ![1, 2])
    (x : (⟨2, ![96, 96]⟩ : Shape).Idx → α) (i k : Fin 96) :
    broadcastInDim ⟨3, ![1, 96, 96]⟩ ![1, 2] h x (ix3 (0 : Fin 1) i k) = x (ix2 i k) :=
  broadcastInDim_apply _ h x _ _ fun a => by match a with | ⟨0, _⟩ => rfl | ⟨1, _⟩ => rfl

theorem bcast_1x96x96_2x96x96 (h : (⟨3, ![1, 96, 96]⟩ : Shape).BroadcastsInDim ⟨3, ![2, 96, 96]⟩ ![0, 1, 2])
    (x : (⟨3, ![1, 96, 96]⟩ : Shape).Idx → α) (p : Fin 2) (i k : Fin 96) :
    broadcastInDim ⟨3, ![2, 96, 96]⟩ ![0, 1, 2] h x (ix3 p i k) = x (ix3 (0 : Fin 1) i k) :=
  broadcastInDim_apply _ h x _ _ fun a => by match a with | ⟨0, _⟩ => rfl | ⟨1, _⟩ => rfl | ⟨2, _⟩ => rfl

theorem bcast_1_2x96x96x1 (h1 : (⟨1, ![1]⟩ : Shape).BroadcastsInDim ⟨4, ![1, 1, 1, 1]⟩ ![3])
    (h2 : (⟨4, ![1, 1, 1, 1]⟩ : Shape).BroadcastsInDim ⟨4, ![2, 96, 96, 1]⟩ ![0, 1, 2, 3])
    (x : (⟨1, ![1]⟩ : Shape).Idx → α) (y : (⟨4, ![2, 96, 96, 1]⟩ : Shape).Idx) :
    broadcastInDim ⟨4, ![2, 96, 96, 1]⟩ ![0, 1, 2, 3] h2 (broadcastInDim ⟨4, ![1, 1, 1, 1]⟩ ![3] h1 x) y
      = x (ix1 (0 : Fin 1)) :=
  (broadcastInDim_apply _ h2 _ y (ix4 (0 : Fin 1) (0 : Fin 1) (0 : Fin 1) (0 : Fin 1)) fun a => by
      match a with | ⟨0, _⟩ => rfl | ⟨1, _⟩ => rfl | ⟨2, _⟩ => rfl | ⟨3, _⟩ => rfl).trans
    (broadcastInDim_apply _ h1 x _ _ fun a => by match a with | ⟨0, _⟩ => rfl)

theorem bcast_scalar (t : Shape) (h : (⟨0, ![]⟩ : Shape).BroadcastsInDim t ![])
    (x : (⟨0, ![]⟩ : Shape).Idx → α) (j : t.Idx) : broadcastInDim t ![] h x j = x ix0 :=
  broadcastInDim_apply _ h x j ix0 fun d => d.elim0

theorem cast_trailing_unit (h : (⟨3, ![2, 96, 96]⟩ : Shape).ShapeCasts ⟨4, ![2, 96, 96, 1]⟩)
    (x : (⟨3, ![2, 96, 96]⟩ : Shape).Idx → α) (p : Fin 2) (i k : Fin 96) :
    shapeCast ⟨4, ![2, 96, 96, 1]⟩ x h (ix4 p i k (0 : Fin 1)) = x (ix3 p i k) :=
  shapeCast_apply x h _ _ (by
    rw [Shape.rowMajor_val_three, Shape.rowMajor_val_four]
    show (p.val * 96 + i.val) * 96 + k.val = ((p.val * 96 + i.val) * 96 + k.val) * 1 + 0
    omega)

end Bcast

/-! ## A conjunction over an axis of all-true bits -/

theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

/-- The dimension numbers of a take along the last axis of a [2, 96, 96] operand, batched over the two leading
    axes: start indices [2, 96, 96, 1], one scalar index per result entry. -/
abbrev takeLastDims
    (wf : GatherDims.WF ⟨3, ![2, 96, 96]⟩ ⟨4, ![2, 96, 96, 1]⟩ ⟨3, ![2, 96, 96]⟩ [] [2] [0, 1] [2] [0, 1] 3 ![1, 1, 1]) :
    GatherDims ⟨3, ![2, 96, 96]⟩ ⟨4, ![2, 96, 96, 1]⟩ ⟨3, ![2, 96, 96]⟩ where
  offsetDims := []
  collapsedSliceDims := [2]
  operandBatchingDims := [0, 1]
  startIndicesBatchingDims := [0, 1]
  startIndexMap := [2]
  indexVectorDim := 3
  sliceSizes := ![1, 1, 1]
  wf := wf

theorem gather_takeLast_apply {α : Type} {w : ℕ}
    (wf : GatherDims.WF ⟨3, ![2, 96, 96]⟩ ⟨4, ![2, 96, 96, 1]⟩ ⟨3, ![2, 96, 96]⟩ [] [2] [0, 1] [2] [0, 1] 3 ![1, 1, 1])
    (x : (⟨3, ![2, 96, 96]⟩ : Shape).Idx → α) (idx : IVec ⟨4, ![2, 96, 96, 1]⟩ w) (p : Fin 2) (i k : Fin 96) :
    Host.gather (takeLastDims wf) x idx (ix3 p i k)
      = x (ix3 p i ⟨min (idx (ix4 p i k (0 : Fin 1))).toInt.toNat 95, by omega⟩) := by
  unfold Host.gather
  refine congrArg x (funext fun a => Fin.ext ?_)
  match a with
  | ⟨0, _⟩ =>
    have h1 : (takeLastDims wf).start (ix3 p i k) idx 0 = 0 := rfl
    have h2 : (takeLastDims wf).batchCoord (ix3 p i k) 0 = p.val := rfl
    have h3 : (takeLastDims wf).offCoord (ix3 p i k) 0 = 0 := rfl
    show (takeLastDims wf).start (ix3 p i k) idx 0 + (takeLastDims wf).batchCoord (ix3 p i k) 0
      + (takeLastDims wf).offCoord (ix3 p i k) 0 = p.val
    rw [h1, h2, h3, Nat.zero_add, Nat.add_zero]
  | ⟨1, _⟩ =>
    have h1 : (takeLastDims wf).start (ix3 p i k) idx 1 = 0 := rfl
    have h2 : (takeLastDims wf).batchCoord (ix3 p i k) 1 = i.val := rfl
    have h3 : (takeLastDims wf).offCoord (ix3 p i k) 1 = 0 := rfl
    show (takeLastDims wf).start (ix3 p i k) idx 1 + (takeLastDims wf).batchCoord (ix3 p i k) 1
      + (takeLastDims wf).offCoord (ix3 p i k) 1 = i.val
    rw [h1, h2, h3, Nat.zero_add, Nat.add_zero]
  | ⟨2, _⟩ =>
    have h2 : (takeLastDims wf).batchCoord (ix3 p i k) 2 = 0 := rfl
    have h3 : (takeLastDims wf).offCoord (ix3 p i k) 2 = 0 := rfl
    have hsi : (takeLastDims wf).siIdx (ix3 p i k) ⟨List.idxOf (2 : Fin 3) (takeLastDims wf).startIndexMap,
        List.idxOf_lt_length_iff.2 (List.mem_singleton.mpr rfl)⟩ = ix4 p i k (0 : Fin 1) := by
      funext b; refine Fin.ext ?_
      match b with
      | ⟨0, _⟩ => rfl
      | ⟨1, _⟩ => rfl
      | ⟨2, _⟩ => rfl
      | ⟨3, _⟩ => rfl
    have h1 : (takeLastDims wf).start (ix3 p i k) idx 2 = min (idx (ix4 p i k (0 : Fin 1))).toInt.toNat 95 := by
      unfold GatherDims.start
      rw [dif_pos (show (2 : Fin 3) ∈ (takeLastDims wf).startIndexMap from List.mem_singleton.mpr rfl), hsi]
      rfl
    show (takeLastDims wf).start (ix3 p i k) idx 2 + (takeLastDims wf).batchCoord (ix3 p i k) 2
      + (takeLastDims wf).offCoord (ix3 p i k) 2 = min (idx (ix4 p i k (0 : Fin 1))).toInt.toNat 95
    rw [h1, h2, h3, Nat.add_zero]

/-! ## The term read at an entry -/

/-- A word below 96 is not negative, lies in [0, 95], and reads as itself. -/
theorem idx_word_facts (d : ℕ) (hd : d < 96) :
    IntOp.cmpi .slt (BitVec.ofNat 32 d) 0#32 = 0#1
    ∧ IntOp.cmpi .sge (BitVec.ofNat 32 d) 0#32 = 1#1
    ∧ IntOp.cmpi .sle (BitVec.ofNat 32 d) 95#32 = 1#1
    ∧ (BitVec.ofNat 32 d).toInt.toNat = d := idx_words ⟨d, hd⟩

/-- The lag at (i, k) is the word of k minus the word of i. -/
theorem lagW_apply (i k : Fin 96) :
    lagW (ix2 i k) = IntOp.subi (BitVec.ofNat 32 k.val) (BitVec.ofNat 32 i.val) := by
  show IntOp.subi
      (broadcastInDim S96x96 ![0, 1] bcast_S1x96_S96x96_0_1 (broadcastInDim S1x96 ![1] bcast_S96_S1x96_1 (iotaInDim S96 32 0)) (ix2 i k))
      (broadcastInDim S96x96 ![0, 1] bcast_S96x1_S96x96_0_1 (broadcastInDim S96x1 ![0] bcast_S96_S96x1_0 (iotaInDim S96 32 0)) (ix2 i k)) = _
  rw [bcast_1x96_96x96, bcast_96_1x96, bcast_96x1_96x96, bcast_96_96x1]
  rfl

/-- The lag is not negative exactly on and above the diagonal. -/
theorem validW_apply (i k : Fin 96) : validW (ix2 i k) = if i.val ≤ k.val then 1#1 else 0#1 := by
  show IntOp.cmpi .sge (lagW (ix2 i k)) (broadcastInDim S96x96 ![] bcast_S_S96x96 (constantI S_ 32 0#32) (ix2 i k)) = _
  rw [lagW_apply, bcast_scalar]
  exact (lag_words i k).1

/-- The clipped lag is the word of k - i (truncated subtraction: 0 below the diagonal). -/
theorem clipW_apply (i k : Fin 96) : clipW (ix2 i k) = BitVec.ofNat 32 (k.val - i.val) := by
  show IntOp.minsi (broadcastInDim S96x96 ![] bcast_S_S96x96 (constantI S_ 32 95#32) (ix2 i k))
      (IntOp.maxsi (broadcastInDim S96x96 ![] bcast_S_S96x96 (constantI S_ 32 0#32) (ix2 i k)) (lagW (ix2 i k))) = _
  rw [lagW_apply, bcast_scalar, bcast_scalar]
  exact (lag_words i k).2

theorem idxW_apply (p : Fin 2) (i k : Fin 96) : idxW (ix3 p i k) = BitVec.ofNat 32 (k.val - i.val) := by
  unfold idxW
  rw [bcast_1x96x96_2x96x96, bcast_96x96_1x96x96, clipW_apply]

/-- The fix-up of negative indices never fires: the clipped lag is not negative. -/
theorem fixW_apply (p : Fin 2) (i k : Fin 96) : fixW (ix3 p i k) = BitVec.ofNat 32 (k.val - i.val) := by
  have hw := idx_word_facts (k.val - i.val) (by omega)
  show Scalar.select
      (IntOp.cmpi .slt (idxW (ix3 p i k)) (broadcastInDim S2x96x96 ![] bcast_S_S2x96x96 (constantI S_ 32 0#32) (ix3 p i k)))
      (IntOp.addi (idxW (ix3 p i k)) (broadcastInDim S2x96x96 ![] bcast_S_S2x96x96 (constantI S_ 32 96#32) (ix3 p i k)))
      (idxW (ix3 p i k)) = _
  rw [idxW_apply, bcast_scalar]
  rw [show IntOp.cmpi .slt (BitVec.ofNat 32 (k.val - i.val)) (constantI S_ 32 0#32 ix0) = 0#1 from hw.1, select_zero]

theorem idx4W_apply (p : Fin 2) (i k : Fin 96) :
    idx4W (ix4 p i k (0 : Fin 1)) = BitVec.ofNat 32 (k.val - i.val) := by
  unfold idx4W
  rw [cast_trailing_unit, fixW_apply]

/-- The in-range test is true everywhere: every index is a word in [0, 95]. -/
theorem inRangeW_apply (j : S2x96x96.Idx) : inRangeW j = 1#1 := by
  unfold inRangeW
  refine reduce_andi_of_all_one _ _ _ _ j rfl fun y => ?_
  obtain ⟨p, i, k, z, rfl⟩ : ∃ (p : Fin 2) (i k : Fin 96) (z : Fin 1), y = ix4 p i k z :=
    ⟨y 0, y 1, y 2, y 3, eq_ix4 y⟩
  obtain rfl : z = 0 := Subsingleton.elim _ _
  have hw := idx_word_facts (k.val - i.val) (by omega)
  show IntOp.andi
      (IntOp.cmpi .sge (idx4W (ix4 p i k (0 : Fin 1)))
        (broadcastInDim S2x96x96x1 ![] bcast_S_S2x96x96x1 (constantI S_ 32 0#32) (ix4 p i k (0 : Fin 1))))
      (IntOp.cmpi .sle (idx4W (ix4 p i k (0 : Fin 1)))
        (broadcastInDim S2x96x96x1 ![0, 1, 2, 3] bcast_S1x1x1x1_S2x96x96x1_0_1_2_3
          (broadcastInDim S1x1x1x1 ![3] bcast_S1_S1x1x1x1_3 (constantI S1 32 95#32)) (ix4 p i k (0 : Fin 1)))) = 1#1
  rw [idx4W_apply, bcast_scalar, bcast_1_2x96x96x1]
  rw [show IntOp.cmpi .sge (BitVec.ofNat 32 (k.val - i.val)) (constantI S_ 32 0#32 ix0) = 1#1 from hw.2.1,
    show IntOp.cmpi .sle (BitVec.ofNat 32 (k.val - i.val)) (constantI S1 32 95#32 (ix1 (0 : Fin 1))) = 1#1 from hw.2.2.1]
  decide

/-- The take reads the weights at lag k - i (truncated: lag 0 below the diagonal), never the NaN word. -/
theorem takenW_apply (w : S2x96x96.Idx → EReal) (p : Fin 2) (i k : Fin 96) :
    takenW w (ix3 p i k) = w (ix3 p i ⟨k.val - i.val, by omega⟩) := by
  have hw := idx_word_facts (k.val - i.val) (by omega)
  unfold takenW
  rw [select_apply, inRangeW_apply, select_one]
  refine (gather_takeLast_apply gather_S2x96x96_S2x96x96x1_S2x96x96_n_2_01_01_2_3_111_wf w idx4W p i k).trans ?_
  refine congrArg w (congrArg (ix3 p i) (Fin.ext ?_))
  show min (idx4W (ix4 p i k (0 : Fin 1))).toInt.toNat 95 = k.val - i.val
  rw [idx4W_apply, hw.2.2.2]
  omega

/-- THE REINDEXED WEIGHTS AT (p, i, k): w(p, i, k - i) on and above the diagonal, 0 below it. -/
theorem hostW_apply (w : S2x96x96.Idx → EReal) (p : Fin 2) (i k : Fin 96) :
    hostW w (ix3 p i k) = Cert.LossSpec.wfull w p i k := by
  show Scalar.select
      (broadcastInDim S2x96x96 ![0, 1, 2] bcast_S1x96x96_S2x96x96_0_1_2
        (broadcastInDim S1x96x96 ![1, 2] bcast_S96x96_S1x96x96_1_2 validW) (ix3 p i k))
      (takenW w (ix3 p i k))
      (broadcastInDim S2x96x96 ![] bcast_S_S2x96x96 (constant (F := Ideal) S_ .f32 0x00000000#32) (ix3 p i k)) = _
  rw [bcast_1x96x96_2x96x96, bcast_96x96_1x96x96, validW_apply, takenW_apply, bcast_scalar]
  unfold Cert.LossSpec.wfull
  by_cases h : i.val ≤ k.val
  · rw [if_pos h, select_one, dif_pos h]
  · rw [if_neg h, select_zero, dif_neg h]
    exact Ideal.ofBits_zero_f32

/-- The region's third operand, entry by entry. -/
theorem wfull_value (m : (ℓ : Loc nD τ sig) → Buf (Elt Ideal) ℓ) (c : Dev nD) :
    (Gen.V m c main_v14 : S2x96x96.Idx → EReal)
      = fun x => Cert.LossSpec.wfull (m ((c : Thread nD τ).loc main_arg2) : S2x96x96.Idx → EReal) (x 0) (x 1) (x 2) := by
  rw [prefix_value]
  funext x
  obtain ⟨p, i, k, rfl⟩ : ∃ (p : Fin 2) (i k : Fin 96), x = ix3 p i k := ⟨x 0, x 1, x 2, eq_ix3 x⟩
  exact hostW_apply _ p i k

end Cert.HostWeights

end
-- ==== Proof.KernelValue.lean ====
/-
  The kernel's value. After the region the [16, 128] output array holds core c's total at row 8 · c, column 0,
  and zeros elsewhere; the host sums the array from the f32 zero and divides by 786432, so the program's result
  is (T 0 + T 1) / 786432 for the two cores' totals T. Each total is the core's accumulated row sums and Gram
  matrix against the weights array the region reads, and that array is the weights reindexed from
  (position, lag) to (position, partner). Together: the result is the kernel's arrangement of the loss of the
  three argument arrays, and the arguments end unchanged.
-/
import proofs.«124193_j68049461838564_2_alg».proof.Proof.Gen.KernelIdeal.Frame
import proofs.«124193_j68049461838564_2_alg».proof.Proof.LossSpec
import proofs.«124193_j68049461838564_2_alg».proof.Proof.LossAlgebra
import proofs.«124193_j68049461838564_2_alg».proof.Proof.HostTail
import proofs.«124193_j68049461838564_2_alg».proof.Proof.OutputArray
import proofs.«124193_j68049461838564_2_alg».proof.Proof.Accumulate
import proofs.«124193_j68049461838564_2_alg».proof.Proof.HostWeights
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.ValueIdx
  Idealize.ShloMosaic.TcCoe Idealize.SL.Sem Cert.LossSpec
open Idealize.ShloMosaic.Pipeline (Dat)

variable (m : (ℓ : Loc nD τ sig) → Buf (Elt Ideal) ℓ) (ρ : Dev nD → PrngReg)

/-- The two cores' totals, added and divided, are the kernel's arrangement of the loss: the weights array the
    region reads is the reindexed weights w(p, i, k - i) for k ≥ i and 0 below the diagonal. -/
theorem cores_eq_kerLoss (c : Dev nD) :
    Ideal.div (Accumulate.coreT m c 0 + Accumulate.coreT m c 1) scale
      = kerLoss (m ((c : Thread nD τ).loc main_arg0)) (m ((c : Thread nD τ).loc main_arg1))
          (m ((c : Thread nD τ).loc main_arg2)) := by
  have hw : (fun (p : Fin 2) (i k : Fin 96) => (V m c main_v14 : S2x96x96.Idx → EReal) (ix3 p i k))
      = wfull (m ((c : Thread nD τ).loc main_arg2)) := by
    rw [HostWeights.wfull_value m c]
    rfl
  unfold Accumulate.coreT Accumulate.errs kerLoss
  rw [hw]

/-- The program's result after the host operations that follow the region: the kernel's arrangement of the loss
    of the launch contents of the three arguments. -/
theorem result_value (c : Dev nD) :
    (Pipeline.afterTail₀ cfgs (dats m) 0 (V0 m) [hostOps1] c main_v17 : S_.Idx → EReal)
      = fun _ => kerLoss (m ((c : Thread nD τ).loc main_arg0)) (m ((c : Thread nD τ).loc main_arg1))
          (m ((c : Thread nD τ).loc main_arg2)) :=
  (Cert.HostTail.tail_value m c (Accumulate.coreT m c)
      (OutputArray.out_array m c (Accumulate.coreT m c) (Accumulate.core_out m c))).trans
    (funext fun _ => (Cert.LossAlgebra.kerLossOf_eq _).trans (cores_eq_kerLoss m c))

/-- The kernel's run, read: on every device every weakly fair execution terminates with the result buffer at the
    kernel's arrangement of the loss of the three argument arrays, and the arguments unchanged. -/
theorem kernel_run : θ_run defs (onTc (τ := τ) (main (F := Ideal))) ⟨m, fun _ => 0, ρ⟩ (fun r => ∀ c : Dev nD,
      r.2.mem ((c.tc : Thread nD τ).loc main_v17)
        = (fun _ => kerLoss (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v17 (Pipeline.mem_restRefs_of main_v17 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans
        (W_main_arg2 m (dats m) c))⟩) (run_main m ρ)

end Cert.KernelIdeal.KernelValue

end
-- ==== Proof.LagWords.lean ====
/-
  The 32-bit index arithmetic of the lag construction. For a position i and a lag j, both below 96, the
  reference computes the partner position on signed 32-bit words: the sum i + j, the test i + j < 96, the
  minimum with 95, and a fix-up for negative indices (add 96 when the clipped index is negative) that never
  fires. On words that encode naturals this small every step is the corresponding step on naturals.
-/
import Idealize.ShloMosaic.PureOps.Ideal

namespace Cert.LagWords

open Idealize.ShloMosaic

/-- The sum of two encoded naturals is the encoded sum. -/
theorem addi_ofNat (a b : ℕ) :
    IntOp.addi (BitVec.ofNat 32 a) (BitVec.ofNat 32 b) = BitVec.ofNat 32 (a + b) :=
  (BitVec.ofNat_add a b).symm

private theorem slt_96_fin : ∀ k : Fin 191,
    IntOp.cmpi .slt (BitVec.ofNat 32 k.val) 96#32 = if k.val < 96 then 1#1 else 0#1 := by decide

/-- The signed test "k < 96" on the word of a natural below 191. -/
theorem slt_96 (k : ℕ) (hk : k < 191) :
    IntOp.cmpi .slt (BitVec.ofNat 32 k) 96#32 = if k < 96 then 1#1 else 0#1 := slt_96_fin ⟨k, hk⟩

private theorem minsi_95_fin : ∀ k : Fin 191,
    IntOp.minsi (BitVec.ofNat 32 k.val) 95#32 = BitVec.ofNat 32 (min k.val 95) := by decide

/-- The signed minimum with 95 on the word of a natural below 191. -/
theorem minsi_95 (k : ℕ) (hk : k < 191) :
    IntOp.minsi (BitVec.ofNat 32 k) 95#32 = BitVec.ofNat 32 (min k 95) := minsi_95_fin ⟨k, hk⟩

private theorem slt_0_fin : ∀ k : Fin 96, IntOp.cmpi .slt (BitVec.ofNat 32 k.val) 0#32 = 0#1 := by decide

/-- The word of a natural below 96 is not negative. -/
theorem slt_0 (k : ℕ) (hk : k < 96) : IntOp.cmpi .slt (BitVec.ofNat 32 k) 0#32 = 0#1 := slt_0_fin ⟨k, hk⟩

private theorem eq_0_fin : ∀ k : Fin 96,
    IntOp.cmpi .eq (BitVec.ofNat 32 k.val) 0#32 = if k.val = 0 then 1#1 else 0#1 := by decide

/-- The test "k = 0" on the word of a natural below 96. -/
theorem eq_0 (k : ℕ) (hk : k < 96) :
    IntOp.cmpi .eq (BitVec.ofNat 32 k) 0#32 = if k = 0 then 1#1 else 0#1 := eq_0_fin ⟨k, hk⟩

private theorem toInt_toNat_fin : ∀ k : Fin 96, (BitVec.ofNat 32 k.val).toInt.toNat = k.val := by decide

/-- Read as a signed integer, the word of a natural below 96 is that natural. -/
theorem toInt_toNat (k : ℕ) (hk : k < 96) : (BitVec.ofNat 32 k).toInt.toNat = k := toInt_toNat_fin ⟨k, hk⟩

/-- The partner word: min(i + j, 95), the negative-index fix-up not firing. -/
theorem partner_word (a b : ℕ) (ha : a < 96) (hb : b < 96) :
    Scalar.select
        (IntOp.cmpi .slt (IntOp.minsi (IntOp.addi (BitVec.ofNat 32 a) (BitVec.ofNat 32 b)) 95#32) 0#32)
        (IntOp.addi (IntOp.minsi (IntOp.addi (BitVec.ofNat 32 a) (BitVec.ofNat 32 b)) 95#32) 96#32)
        (IntOp.minsi (IntOp.addi (BitVec.ofNat 32 a) (BitVec.ofNat 32 b)) 95#32)
      = BitVec.ofNat 32 (min (a + b) 95) := by
  rw [addi_ofNat, minsi_95 (a + b) (by omega), slt_0 (min (a + b) 95) (by omega)]
  exact if_neg (by decide)

/-- The partner position read off the partner word, clamped into the row as the gather clamps it. -/
theorem partner_pos (a b : ℕ) (ha : a < 96) (hb : b < 96) :
    min (BitVec.ofNat 32 (min (a + b) 95)).toInt.toNat (96 - 1) = min (a + b) 95 := by
  rw [toInt_toNat (min (a + b) 95) (by omega)]
  omega

/-- The validity test i + j < 96 on the words. -/
theorem valid_word (a b : ℕ) (ha : a < 96) (hb : b < 96) :
    IntOp.cmpi .slt (IntOp.addi (BitVec.ofNat 32 a) (BitVec.ofNat 32 b)) 96#32
      = if a + b < 96 then 1#1 else 0#1 := by
  rw [addi_ofNat, slt_96 (a + b) (by omega)]

end Cert.LagWords
-- ==== Proof.PartnerGather.lean ====
/-
  The gather that fetches each example's partner entries, read at an index. The operand is the error array
  e : [8192, 96]; the start indices form a [96, 96, 1] array k holding one column position per (position, lag)
  pair. With the whole example axis as the slice (offset axis 0 of the result, slice sizes [8192, 1]) and the
  column axis collapsed, result element (n, i, j) is e(n, k(i, j, 0)), the column read as a signed integer and
  clamped into [0, 95].
-/
import Idealize.ShloMosaic.Lib.ValueIdx

namespace Cert.PartnerGather

open Idealize.ShloMosaic Idealize.ShloMosaic.ValueIdx

variable {α : Type}

/-- The gather's dimension numbers: offset axis 0, collapsed axis 1, start index map [1], the index vector on
    axis 2, slice sizes [8192, 1]. -/
abbrev rowDims
    (wf : GatherDims.WF ⟨2, ![8192, 96]⟩ ⟨3, ![96, 96, 1]⟩ ⟨3, ![8192, 96, 96]⟩ [0] [1] [] [1] [] 2 ![8192, 1]) :
    GatherDims ⟨2, ![8192, 96]⟩ ⟨3, ![96, 96, 1]⟩ ⟨3, ![8192, 96, 96]⟩ where
  offsetDims := [0]
  collapsedSliceDims := [1]
  operandBatchingDims := []
  startIndicesBatchingDims := []
  startIndexMap := [1]
  indexVectorDim := 2
  sliceSizes := ![8192, 1]
  wf := wf

/-- The gather read at (n, i, j): the operand's row n at the column k(i, j, 0), read signed and clamped. -/
theorem gather_partner_apply {w : Nat}
    (wf : GatherDims.WF ⟨2, ![8192, 96]⟩ ⟨3, ![96, 96, 1]⟩ ⟨3, ![8192, 96, 96]⟩ [0] [1] [] [1] [] 2 ![8192, 1])
    (x : (⟨2, ![8192, 96]⟩ : Shape).Idx → α) (idx : IVec ⟨3, ![96, 96, 1]⟩ w)
    (n : Fin 8192) (i j : Fin 96) :
    Host.gather (rowDims wf) x idx (ix3 n i j)
      = x (ix2 n (⟨min (idx (ix3 i j (0 : Fin 1))).toInt.toNat (96 - 1), by omega⟩ : Fin 96)) := by
  unfold Host.gather
  congr 1
  funext a
  refine Fin.ext ?_
  show (rowDims wf).start (ix3 n i j) idx a + (rowDims wf).batchCoord (ix3 n i j) a
      + (rowDims wf).offCoord (ix3 n i j) a = _
  rw [GatherDims.batchCoord_eq_zero _ _ _ List.not_mem_nil]
  match a with
  | ⟨0, _⟩ =>
    have hne : (⟨0, by decide⟩ : Fin 2) ∉ ([1] : List (Fin 2)) :=
      fun h => absurd (congrArg Fin.val (List.mem_singleton.mp h)) (by decide)
    unfold GatherDims.start
    rw [dif_neg hne]
    unfold GatherDims.offCoord
    rw [dif_pos ((GatherDims.mem_sKept _ _).mpr ⟨hne, List.not_mem_nil⟩), Nat.add_zero, Nat.zero_add]
    rfl
  | ⟨1, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨1, by decide⟩ : Fin 2) ∈ (rowDims wf).startIndexMap from List.mem_singleton.mpr rfl)]
    have hsi : (rowDims wf).siIdx (ix3 n i j)
        ⟨List.idxOf (⟨1, by decide⟩ : Fin 2) (rowDims wf).startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl

end Cert.PartnerGather
-- ==== Proof.TripleSum.lean ====
/-
  A sum over a rank-3 index set is the triple sum over its coordinates: the index set is the product of the
  three coordinate ranges.
-/
import Idealize.ShloMosaic.Lib.ValueIdx

open scoped BigOperators

namespace Cert.TripleSum

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.TripleSum
-- ==== Proof.RefSide.lean ====
/-
  The reference side. The reference's run ends with its result buffer at the composed term of its 60 host
  operations applied to the three argument arrays (the generated run and read-back modules). This module reads
  that term entry by entry and identifies it with the weighted lag loss of the specification:

    e = y_true - y_pred;  the partner position of (position i, lag j) is min(i + j, 95), computed on 32-bit words
    (two iotas added, compared with 96, clipped at 95, a negative-index fix-up that never fires);  the gather
    reads e(n, min(i + j, 95));  two selects give D(n,i,j) = |e(n,i)| at lag 0, |e(n,i) - e(n,i+j)| while
    i + j < 96, and 0 beyond;  the two total sums over all three axes become triple sums over (n, i, j), from
    the f32 zero;  power 1 is D and power 2 is D·D as printed;  the divisor stays the word both programs carry.
-/
import proofs.«124193_j68049461838564_2_alg».proof.Proof.Gen.ReferenceIdeal.Read
import proofs.«124193_j68049461838564_2_alg».proof.Proof.LossSpec
import proofs.«124193_j68049461838564_2_alg».proof.Proof.LagWords
import proofs.«124193_j68049461838564_2_alg».proof.Proof.PartnerGather
import proofs.«124193_j68049461838564_2_alg».proof.Proof.TripleSum
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.Read Idealize.ShloMosaic
  Idealize.ShloMosaic.ValueIdx Idealize.ShloMosaic.TcCoe Idealize.SL.Sem Cert.LossSpec

/-! ## The index words -/

/-- The word i + j at (position i, lag j): the two iotas broadcast along the other axis and added. -/
theorem sum_word (i j : Fin 96) :
    val_main_v7 (F := Ideal) (ix2 i j) = IntOp.addi (BitVec.ofNat 32 i.val) (BitVec.ofNat 32 j.val) := by
  rw [val_main_v7_apply, val_main_v5_apply, val_main_v2_apply, val_main_v1_apply, val_main_v6_apply,
    val_main_v4_apply, val_main_v3_apply]

/-- The validity bit: i + j < 96. -/
theorem valid_at (i j : Fin 96) :
    val_main_v9 (F := Ideal) (ix2 i j) = if i.val + j.val < 96 then 1#1 else 0#1 := by
  rw [val_main_v9_apply, sum_word, val_main_v8_apply, val_main_c_apply]
  exact LagWords.valid_word i.val j.val i.isLt j.isLt

/-- The clipped sum, as a word. -/
theorem clipped_at (i j : Fin 96) :
    val_main_v11 (F := Ideal) (ix2 i j)
      = IntOp.minsi (IntOp.addi (BitVec.ofNat 32 i.val) (BitVec.ofNat 32 j.val)) 95#32 := by
  rw [val_main_v11_apply, sum_word, val_main_v10_apply, val_main_c_0_apply]

/-- The gather's column word: min(i + j, 95); the negative-index fix-up does not fire. -/
theorem partner_at (i j : Fin 96) :
    val_main_v17 (F := Ideal) (ix2 i j) = BitVec.ofNat 32 (min (i.val + j.val) 95) := by
  rw [val_main_v17_apply, val_main_v14_apply, val_main_v16_apply, clipped_at, val_main_v13_apply,
    val_main_c_1_apply, val_main_v15_apply, val_main_c_2_apply]
  exact LagWords.partner_word i.val j.val i.isLt j.isLt

/-- The lag-zero bit: j = 0. -/
theorem lag0_at (j : Fin 96) :
    val_main_v24 (F := Ideal) (ix2 (0 : Fin 1) j) = if j.val = 0 then 1#1 else 0#1 := by
  rw [val_main_v24_apply, val_main_v4_apply, val_main_v3_apply, val_main_v23_apply, val_main_c_3_apply]
  exact LagWords.eq_0 j.val j.isLt

/-! ## The entries of D -/

/-- The first stage is the error e = y_true - y_pred. -/
theorem err_at (yt yp : SY.Idx → EReal) (n : Fin 8192) (i : Fin 96) :
    val_main_v0 (F := Ideal) yt yp (ix2 n i) = err yt yp n i := rfl

/-- The gathered entry: the error at the partner position min(i + j, 95). -/
theorem partner_entry_at (yt yp : SY.Idx → EReal) (n : Fin 8192) (i j : Fin 96) :
    val_main_v19 (F := Ideal) yt yp (ix3 n i j) = err yt yp n (clip95 (i.val + j.val)) := by
  have hidx : idx_main_v18 (ix3 i j (0 : Fin 1)) = ix2 i j :=
    funext fun a => by match a with | ⟨0, _⟩ => rfl | ⟨1, _⟩ => rfl
  have hpos : min (val_main_v18 (F := Ideal) (ix3 i j (0 : Fin 1))).toInt.toNat (96 - 1)
      = (clip95 (i.val + j.val)).val := by
    rw [val_main_v18_apply, hidx, partner_at]
    exact LagWords.partner_pos i.val j.val i.isLt j.isLt
  exact (PartnerGather.gather_partner_apply gather_S8192x96_S96x96x1_S8192x96x96_0_1_n_n_1_2_81921_wf
    (val_main_v0 (F := Ideal) yt yp) (val_main_v18 (F := Ideal)) n i j).trans
    (congrArg (fun q : Fin 96 => val_main_v0 (F := Ideal) yt yp (ix2 n q)) (Fin.ext hpos))

/-- The lag-zero column: |e(n,i)|. -/
theorem absErr_at (yt yp : SY.Idx → EReal) (n : Fin 8192) (i j : Fin 96) :
    val_main_call1_v1 (F := Ideal) yt yp (ix3 n i j) = eabs (err yt yp n i) := by
  have hidx : idx_main_v26 (idx_main_call1_v1 (ix3 n i j)) = ix2 n i :=
    funext fun a => by match a with | ⟨0, _⟩ => rfl | ⟨1, _⟩ => rfl
  rw [val_main_call1_v1_apply, val_main_v26_apply, val_main_v25_apply, hidx]
  rfl

/-- The pair column: |e(n,i) - e(n, min(i + j, 95))|. -/
theorem pair_at (yt yp : SY.Idx → EReal) (n : Fin 8192) (i j : Fin 96) :
    val_main_v22 (F := Ideal) yt yp (ix3 n i j)
      = eabs (err yt yp n i - err yt yp n (clip95 (i.val + j.val))) := by
  have hidx : idx_main_v12 (idx_main_v20 (ix3 n i j)) = ix2 n i :=
    funext fun a => by match a with | ⟨0, _⟩ => rfl | ⟨1, _⟩ => rfl
  rw [val_main_v22_apply, val_main_v21_apply, val_main_v20_apply, val_main_v12_apply, hidx, partner_entry_at]
  rfl

/-- The fill value of the outer where: the f32 zero. -/
theorem fill_at (n : Fin 8192) (i j : Fin 96) : val_main_call0_v2 (F := Ideal) (ix3 n i j) = 0 := by
  rw [val_main_call0_v2_apply, val_main_call0_v0_apply, val_main_cst_apply]
  exact Ideal.ofBits_zero_f32

/-- The validity bit broadcast over the examples. -/
theorem valid3_at (n : Fin 8192) (i j : Fin 96) :
    val_main_call0_v1 (F := Ideal) (ix3 n i j) = if i.val + j.val < 96 then 1#1 else 0#1 := by
  have hidx : idx_main_call0_v1 (ix3 n i j) = ix2 i j :=
    funext fun a => by match a with | ⟨0, _⟩ => rfl | ⟨1, _⟩ => rfl
  rw [val_main_call0_v1_apply, hidx, valid_at]

/-- The lag-zero bit broadcast over the examples and positions. -/
theorem lag03_at (n : Fin 8192) (i j : Fin 96) :
    val_main_call1_v0 (F := Ideal) (ix3 n i j) = if j.val = 0 then 1#1 else 0#1 := by
  have hidx : idx_main_call1_v0 (ix3 n i j) = ix2 (0 : Fin 1) j :=
    funext fun a => by match a with | ⟨0, _⟩ => rfl | ⟨1, _⟩ => rfl
  rw [val_main_call1_v0_apply, hidx, lag0_at]

/-- The entry D(n,i,j) of the reference's tensor. -/
theorem lagDiff_at (yt yp : SY.Idx → EReal) (n : Fin 8192) (i j : Fin 96) :
    val_main_v28 (F := Ideal) yt yp (ix3 n i j) = lagDiff (err yt yp) n i j := by
  rw [val_main_v28_apply, lag03_at, absErr_at, val_main_v27_apply, valid3_at, pair_at, fill_at]
  unfold lagDiff
  by_cases hj : j.val = 0
  · rw [if_pos hj, if_pos hj]; exact select_one _ _
  · rw [if_neg hj, if_neg hj, select_zero]
    by_cases hv : i.val + j.val < 96
    · rw [if_pos hv, if_pos hv]; exact select_one _ _
    · rw [if_neg hv, if_neg hv]; exact select_zero _ _

/-! ## The weights -/

/-- The first power's weights, sliced, reshaped and broadcast over the examples: w(0, i, j). -/
theorem weight0_at (w : SW.Idx → EReal) (n : Fin 8192) (i j : Fin 96) :
    val_main_v32 (F := Ideal) w (ix3 n i j) = w (ix3 (0 : Fin 2) i j) := by
  have hi := i.isLt
  have hj := j.isLt
  have hidx : idx_main_v29 (idx_main_v30 (idx_main_v31 (idx_main_v32 (ix3 n i j)))) = ix3 (0 : Fin 2) i j :=
    funext fun a => Fin.ext (by
      match a with
      | ⟨0, _⟩ => rfl
      | ⟨1, _⟩ => show (i.val * 96 + j.val) / 96 % 96 = i.val; omega
      | ⟨2, _⟩ => show (i.val * 96 + j.val) % 96 = j.val; omega)
  rw [val_main_v32_apply, val_main_v31_apply, val_main_v30_apply, val_main_v29_apply, hidx]

/-- The second power's weights likewise: w(1, i, j). -/
theorem weight1_at (w : SW.Idx → EReal) (n : Fin 8192) (i j : Fin 96) :
    val_main_v40 (F := Ideal) w (ix3 n i j) = w (ix3 (1 : Fin 2) i j) := by
  have hi := i.isLt
  have hj := j.isLt
  have hidx : idx_main_v37 (idx_main_v38 (idx_main_v39 (idx_main_v40 (ix3 n i j)))) = ix3 (1 : Fin 2) i j :=
    funext fun a => Fin.ext (by
      match a with
      | ⟨0, _⟩ => rfl
      | ⟨1, _⟩ => show (i.val * 96 + j.val) / 96 % 96 = i.val; omega
      | ⟨2, _⟩ => show (i.val * 96 + j.val) % 96 = j.val; omega)
  rw [val_main_v40_apply, val_main_v39_apply, val_main_v38_apply, val_main_v37_apply, hidx]

/-! ## The two total sums, as triple sums -/

/-- The first power's total: Σ D·w₀. -/
theorem sum_pow1 (yt yp : SY.Idx → EReal) (w : SW.Idx → EReal) :
    ∑ y : S8192x96x96.Idx, val_main_v33 (F := Ideal) yt yp w y
      = ∑ n : Fin 8192, ∑ i : Fin 96, ∑ j : Fin 96, lagDiff (err yt yp) n i j * w (ix3 (0 : Fin 2) i j) := by
  refine (TripleSum.sum_idx3 (n0 := 8192) (n1 := 96) (n2 := 96) _).trans ?_
  refine Finset.sum_congr rfl fun n _ => Finset.sum_congr rfl fun i _ => Finset.sum_congr rfl fun j _ => ?_
  rw [val_main_v33_apply, lagDiff_at, weight0_at]
  rfl

/-- The second power's total: Σ D·D·w₁. -/
theorem sum_pow2 (yt yp : SY.Idx → EReal) (w : SW.Idx → EReal) :
    ∑ y : S8192x96x96.Idx, val_main_v41 (F := Ideal) yt yp w y
      = ∑ n : Fin 8192, ∑ i : Fin 96, ∑ j : Fin 96,
          lagDiff (err yt yp) n i j * lagDiff (err yt yp) n i j * w (ix3 (1 : Fin 2) i j) := by
  refine (TripleSum.sum_idx3 (n0 := 8192) (n1 := 96) (n2 := 96) _).trans ?_
  refine Finset.sum_congr rfl fun n _ => Finset.sum_congr rfl fun i _ => Finset.sum_congr rfl fun j _ => ?_
  rw [val_main_v41_apply, val_main_v36_apply, lagDiff_at, weight1_at]
  rfl

/-! ## The reference's value -/

/-- The reference's last stage, as a function of the three argument arrays, is the weighted lag loss. -/
theorem ref_value (yt yp : SY.Idx → EReal) (w : SW.Idx → EReal) :
    val_main_v44 (F := Ideal) yt yp w = fun _ => refLoss yt yp w := by
  funext y
  rw [val_main_v44_apply, val_main_v43_apply, val_main_v35_apply, val_main_v34_apply, val_main_v42_apply,
    val_main_cst_5_apply, val_main_cst_4_apply, val_main_cst_6_apply, val_main_cst_7_apply, sum_pow1, sum_pow2]
  simp only [Ideal.ofBits_def, Ideal.addf_def, Ideal.hostDivf_def, Ideal.ofBits_zero_f32, zero_add]
  rfl

/-- The same for the term the reference's run ends with: on every device, the result buffer holds the loss of
    the launch contents of the three arguments. -/
theorem ref_run_value (m : (ℓ : Loc nD τ sig) → Buf (Elt Ideal) ℓ) (c : Dev nD) :
    Cert.ReferenceIdeal.Value.res_main_v44 (F := Ideal) m c
      = fun _ => refLoss (m ((c.tc : Thread nD τ).loc main_arg0)) (m ((c.tc : Thread nD τ).loc main_arg1))
          (m ((c.tc : Thread nD τ).loc main_arg2)) :=
  (val_main_v44_eq m c).trans (ref_value _ _ _)

end Cert.RefSide

end
-- ==== Proof.FiniteInputs.lean ====
/-
  From the precondition to real entries. The precondition says that the predicate "every |x| is below +∞, in all
  three argument arrays" evaluates to the bit 1. Read back: the conjunction splits into its three parts, each
  part is an and-reduction over a whole array that came out 1, so every compared element is 1; and an extended
  real whose absolute value max(x, -x) is strictly below +∞ is neither +∞ nor -∞, hence a real number.
-/
import proofs.«124193_j68049461838564_2_alg».proof.Defs
import proofs.«124193_j68049461838564_2_alg».proof.Proof.LossSpec
import Idealize.ShloMosaic.Lib.ReduceAll
import Idealize.ShloMosaic.Lib.ValueIdx
import Idealize.ShloMosaic.Lib.Pipeline.Value
import Idealize.ShloMosaic.PureOps.Ideal.Laws

noncomputable section

namespace Cert.FiniteInputs

open Idealize.ShloMosaic Idealize.ShloMosaic.ValueIdx Idealize.SL.Sem Cert.LossSpec

/-- The bound the predicate compares with is +∞. -/
theorem inf_word : Ideal.ofBits .f32 0x7F800000#32 = (⊤ : EReal) := by
  simp [Ideal.ofBits, Ideal.ieee]

/-- An extended real whose absolute value is strictly below +∞ is a real number. -/
theorem real_of_abs_lt (x : EReal) (h : Ideal.cmp .olt (max x (-x)) (⊤ : EReal) = 1#1) : ∃ r : ℝ, x = (r : EReal) := by
  induction x using EReal.rec with
  | bot => exfalso; simp [Ideal.cmp] at h
  | coe r => exact ⟨r, rfl⟩
  | top => exfalso; simp [Ideal.cmp] at h

/-- The scalar shape has one index. -/
instance : Subsingleton Cert.Pre_finite_inputs.S_.Idx := ⟨fun a b => funext fun d => d.elim0⟩

/-- One array's part of the predicate: if the and-reduction of "|x| < +∞" over the whole array is 1, every entry
    of the array is real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    AllReal x := by
  intro i
  have hi := Host.reduce_andi_all _ _ hr hu ix0 e i
  have hc : broadcastInDim s ![] hb (constant (F := Ideal) Cert.Pre_finite_inputs.S_ .f32 0x7F800000#32) i
      = (⊤ : EReal) := by
    rw [broadcastInDim_apply _ hb _ i (fun a => a.elim0) (fun a => a.elim0)]
    exact inf_word
  rw [cmpf_apply, hc] at hi
  exact real_of_abs_lt (x i) hi

/-- The predicate all ones makes every entry of the three arrays real. -/
theorem all_real_of_fn [Cert.Pre_finite_inputs.Facts]
    (a0 a1 : FVec Ideal Cert.Pre_finite_inputs.S8192x96 .f32) (a2 : FVec Ideal Cert.Pre_finite_inputs.S2x96x96 .f32)
    (h : Cert.Pre_finite_inputs.fn (F := Ideal) a0 a1 a2 = fun _ => 1#1) :
    AllReal a0 ∧ AllReal a1 ∧ AllReal a2 := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨allReal_of_all a0 _ _ _ h0', allReal_of_all a1 _ _ _ h1, allReal_of_all a2 _ _ _ h2⟩

/-- Under the kernel's precondition, on every device, every entry of the three argument arrays is real. -/
theorem all_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2)) :=
  all_real_of_fn _ _ _ (h c)

end Cert.FiniteInputs

end
-- ==== Proof.Claims.lean ====
/-
  The five claims. The three frames come from the generated runs; the ideal reading rewrote nothing; and at the
  extended reals the kernel's arrangement of the weighted lag loss equals the reference's whenever every entry
  of the three argument arrays is a real number, which the precondition gives.
-/
import proofs.«124193_j68049461838564_2_alg».proof.Defs
import proofs.«124193_j68049461838564_2_alg».proof.Proof.Gen.Kernel.Frame
import proofs.«124193_j68049461838564_2_alg».proof.Proof.Gen.KernelIdeal.Frame
import proofs.«124193_j68049461838564_2_alg».proof.Proof.Gen.ReferenceIdeal.Run
import proofs.«124193_j68049461838564_2_alg».proof.Proof.Gen.Pre_finite_inputs
import proofs.«124193_j68049461838564_2_alg».proof.Proof.KernelValue
import proofs.«124193_j68049461838564_2_alg».proof.Proof.RefSide
import proofs.«124193_j68049461838564_2_alg».proof.Proof.FiniteInputs
import proofs.«124193_j68049461838564_2_alg».proof.Proof.LossAlgebra

noncomputable section

namespace Cert.Proof.Claims

open Idealize.ShloMosaic Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- At the extended reals, from memories that agree on the three arguments and hold only finite entries, the kernel
    and the reference end with the same value: the reference's is the weighted lag loss Σ D·w₀ + Σ D²·w₁ over
    (example, position, lag), divided by 786432; the kernel's is the same loss accumulated per core over tiles of
    1024 examples through row sums and a Gram matrix, and on real entries the two arrangements are equal. -/
theorem algebraic : Cert.algebraic_KernelIdeal_ReferenceIdeal := by
  intro m ρ m' ρ' hpre hagree
  refine ⟨fun c _ => Cert.LossSpec.refLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KernelValue.kernel_run m ρ)
    obtain ⟨h0, h1, h2⟩ := Cert.FiniteInputs.all_real m hpre c
    exact funext fun _ => Cert.LossAlgebra.ker_eq_ref _ _ _ h0 h1 h2
  · refine (θ_run Cert.ReferenceIdeal.defs _ _).mono (fun _ h c => ⟨(h c).1.trans ?_, (h c).2⟩)
      (Cert.ReferenceIdeal.Value.run (F := Ideal) m' ρ')
    rw [Cert.RefSide.ref_run_value, (hagree c).1, (hagree c).2.1, (hagree c).2.2]
    rfl

end Cert.Proof.Claims

end
-- ==== Proof.lean ====
/-
  The weighted lag loss: the kernel against its reference, over the extended reals.

  With e = y_true - y_pred (8192 examples × 96 positions) and weights w₀, w₁ indexed by (position i, lag j), the
  reference forms D(n,i,j) = |e(n,i)| at lag 0 and |e(n,i) - e(n,i+j)| while i + j < 96, and returns
  (Σ D·w₀ + Σ D²·w₁) / 786432. The kernel first reindexes the weights from (i, j) to (i, k = i + j), zero below the
  diagonal. Each of its two cores then walks four tiles of 1024 examples, accumulating in two scratch matrices the
  row sums S(i,k) = Σ_n |e(n,i) - e(n,k)| (with |e(n,i)| on the diagonal) and the Gram matrix G = eᵀe; at its last
  tile a core writes Σ S·W₀ + Σ (G_ii + G_kk - 2·G_ik)·W₁ + Σ I·G·W₁ into one entry of the output; the host adds the
  two entries and divides. Since (a - b)² = a² + b² - 2ab, the squared differences summed over the examples are
  G_ii + G_kk - 2·G_ik, which vanishes on the diagonal, where the third sum restores e_i²; and the sum over partners
  k ≥ i is the sum over lags j with i + j < 96. These identities use distributivity and cancellation, which hold
  because every input is a real number (the precondition); so the two values agree.

  The modules: LossSpec (both values as functions of the arguments), LossAlgebra (they are equal on real inputs),
  RefSide with LagWords, PartnerGather and TripleSum (the reference's run ends at the first), RowStep / RowPayloads / BodyPayloads (the
  body's arithmetic read at an entry), LibRowSlabs / Pieces / OutPiece (what the body's stores leave, case by case),
  InputBlocks / Accumulate / OutputArray (the four tiles of a core, and the output array), HostWeights / HostTail
  (the host operations around the launch), FiniteInputs (the precondition gives real entries), KernelValue and
  Claims (the assembly).
-/
import proofs.«124193_j68049461838564_2_alg».proof.Defs
import proofs.«124193_j68049461838564_2_alg».proof.Proof.Gen.Kernel
import proofs.«124193_j68049461838564_2_alg».proof.Proof.Gen.Kernel.Skeleton
import proofs.«124193_j68049461838564_2_alg».proof.Proof.Gen.Kernel.Launch
import proofs.«124193_j68049461838564_2_alg».proof.Proof.Gen.Kernel.Points
import proofs.«124193_j68049461838564_2_alg».proof.Proof.Gen.Kernel.Frame
import proofs.«124193_j68049461838564_2_alg».proof.Proof.Gen.KernelIdeal
import proofs.«124193_j68049461838564_2_alg».proof.Proof.Gen.KernelIdeal.Skeleton
import proofs.«124193_j68049461838564_2_alg».proof.Proof.Gen.KernelIdeal.Launch
import proofs.«124193_j68049461838564_2_alg».proof.Proof.Gen.KernelIdeal.Points
import proofs.«124193_j68049461838564_2_alg».proof.Proof.Gen.KernelIdeal.Frame
import proofs.«124193_j68049461838564_2_alg».proof.Proof.Gen.ReferenceIdeal
import proofs.«124193_j68049461838564_2_alg».proof.Proof.Gen.Pre_finite_inputs
import proofs.«124193_j68049461838564_2_alg».proof.Proof.Gen.ReferenceIdeal.Run
import proofs.«124193_j68049461838564_2_alg».proof.Proof.Gen.ReferenceIdeal.Read
import proofs.«124193_j68049461838564_2_alg».proof.Proof.Claims
import Idealize.ShloMosaic.Adequacy
import Idealize.ShloMosaic.Init

noncomputable section

namespace Cert.Proof

open Idealize.ShloMosaic Idealize.SL.Sem Cert.Kernel

/-- The three frames, the (empty) idealization ledger and the equality of the two idealized programs' results. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
